-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v213) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x64 : Shape := ⟨2, ![50000, 64]⟩
abbrev S2x800000 : Shape := ⟨2, ![2, 800000]⟩
abbrev S800000x64 : Shape := ⟨2, ![800000, 64]⟩
abbrev S128x256 : Shape := ⟨2, ![128, 256]⟩
abbrev S256 : Shape := ⟨1, ![256]⟩
abbrev S256x128 : Shape := ⟨2, ![256, 128]⟩
abbrev S128 : Shape := ⟨1, ![128]⟩
abbrev S_ : Shape := ⟨0, ![]⟩

class Facts : Prop where
  bcast_S_S50000x64 : S_.BroadcastsInDim S50000x64 (![] : Fin 0 → Fin S50000x64.rank)
  reducesTo_S50000x64_S_d0_1 : S50000x64.ReducesTo [0, 1] S_
  h_S_ : 0 < S_.numel
  bcast_S_S800000x64 : S_.BroadcastsInDim S800000x64 (![] : Fin 0 → Fin S800000x64.rank)
  reducesTo_S800000x64_S_d0_1 : S800000x64.ReducesTo [0, 1] S_
  bcast_S_S128x256 : S_.BroadcastsInDim S128x256 (![] : Fin 0 → Fin S128x256.rank)
  reducesTo_S128x256_S_d0_1 : S128x256.ReducesTo [0, 1] S_
  bcast_S_S256 : S_.BroadcastsInDim S256 (![] : Fin 0 → Fin S256.rank)
  reducesTo_S256_S_d0 : S256.ReducesTo [0] S_
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_

variable [Facts]

def fn_part2 {F : FTy → Type} [FloatOps F] (main_arg8 : FVec F S256 .f32) (main_arg9 : FVec F S256x128 .f32) (main_arg10 : FVec F S128 .f32) (main_v33 : IVec S_ 1) : IVec S_ 1 :=
  let main_v34 : FVec F S256 .f32 := Host.absf main_arg8
  let main_cst_12 : FVec F S_ .f32 := constant S_ .f32 0x7F800000#32
  let main_v35 : FVec F S256 .f32 := broadcastInDim S256 ![] bcast_S_S256 main_cst_12
  let main_v36 : IVec S256 1 := cmpf .olt main_v34 main_v35
  let main_c_13 : IVec S_ 1 := constantI S_ 1 1#1
  let main_v37 : IVec S_ 1 := (fun x v => Host.reduce IntOp.andi x v reducesTo_S256_S_d0 h_S_) main_v36 main_c_13
  let main_v38 : IVec S_ 1 := andi main_v33 main_v37
  let main_v39 : FVec F S256x128 .f32 := Host.absf main_arg9
  let main_cst_14 : FVec F S_ .f32 := constant S_ .f32 0x7F800000#32
  let main_v40 : FVec F S256x128 .f32 := broadcastInDim S256x128 ![] bcast_S_S256x128 main_cst_14
  let main_v41 : IVec S256x128 1 := cmpf .olt main_v39 main_v40
  let main_c_15 : IVec S_ 1 := constantI S_ 1 1#1
  let main_v42 : IVec S_ 1 := (fun x v => Host.reduce IntOp.andi x v reducesTo_S256x128_S_d0_1 h_S_) main_v41 main_c_15
  let main_v43 : IVec S_ 1 := andi main_v38 main_v42
  let main_v44 : FVec F S128 .f32 := Host.absf main_arg10
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  main_v48

def fn_part1 {F : FTy → Type} [FloatOps F] (main_arg5 : FVec F S256x128 .f32) (main_arg6 : FVec F S128 .f32) (main_arg7 : FVec F S128x256 .f32) (main_arg8 : FVec F S256 .f32) (main_arg9 : FVec F S256x128 .f32) (main_arg10 : FVec F S128 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S256x128 .f32 := Host.absf main_arg5
  let main_cst_6 : FVec F S_ .f32 := constant S_ .f32 0x7F800000#32
  let main_v20 : FVec F S256x128 .f32 := broadcastInDim S256x128 ![] bcast_S_S256x128 main_cst_6
  let main_v21 : IVec S256x128 1 := cmpf .olt main_v19 main_v20
  let main_c_7 : IVec S_ 1 := constantI S_ 1 1#1
  let main_v22 : IVec S_ 1 := (fun x v => Host.reduce IntOp.andi x v reducesTo_S256x128_S_d0_1 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x256 .f32 := Host.absf main_arg7
  let main_cst_10 : FVec F S_ .f32 := constant S_ .f32 0x7F800000#32
  let main_v30 : FVec F S128x256 .f32 := broadcastInDim S128x256 ![] bcast_S_S128x256 main_cst_10
  let main_v31 : IVec S128x256 1 := cmpf .olt main_v29 main_v30
  let main_c_11 : IVec S_ 1 := constantI S_ 1 1#1
  let main_v32 : IVec S_ 1 := (fun x v => Host.reduce IntOp.andi x v reducesTo_S128x256_S_d0_1 h_S_) main_v31 main_c_11
  let main_v33 : IVec S_ 1 := andi main_v28 main_v32
  fn_part2 (F := F) main_arg8 main_arg9 main_arg10 main_v33

def fn {F : FTy → Type} [FloatOps F] (main_arg0 : FVec F S50000x64 .f32) (main_arg1 : IVec S2x800000 32) (main_arg2 : FVec F S800000x64 .f32) (main_arg3 : FVec F S128x256 .f32) (main_arg4 : FVec F S256 .f32) (main_arg5 : FVec F S256x128 .f32) (main_arg6 : FVec F S128 .f32) (main_arg7 : FVec F S128x256 .f32) (main_arg8 : FVec F S256 .f32) (main_arg9 : FVec F S256x128 .f32) (main_arg10 : FVec F S128 .f32) : IVec S_ 1 :=
  let main_v0 : FVec F S50000x64 .f32 := Host.absf main_arg0
  let main_cst : FVec F S_ .f32 := constant S_ .f32 0x7F800000#32
  let main_v1 : FVec F S50000x64 .f32 := broadcastInDim S50000x64 ![] bcast_S_S50000x64 main_cst
  let main_v2 : IVec S50000x64 1 := cmpf .olt main_v0 main_v1
  let main_c : IVec S_ 1 := constantI S_ 1 1#1
  let main_v3 : IVec S_ 1 := (fun x v => Host.reduce IntOp.andi x v reducesTo_S50000x64_S_d0_1 h_S_) main_v2 main_c
  let main_v4 : FVec F S800000x64 .f32 := Host.absf main_arg2
  let main_cst_0 : FVec F S_ .f32 := constant S_ .f32 0x7F800000#32
  let main_v5 : FVec F S800000x64 .f32 := broadcastInDim S800000x64 ![] bcast_S_S800000x64 main_cst_0
  let main_v6 : IVec S800000x64 1 := cmpf .olt main_v4 main_v5
  let main_c_1 : IVec S_ 1 := constantI S_ 1 1#1
  let main_v7 : IVec S_ 1 := (fun x v => Host.reduce IntOp.andi x v reducesTo_S800000x64_S_d0_1 h_S_) main_v6 main_c_1
  let main_v8 : IVec S_ 1 := andi main_v3 main_v7
  let main_v9 : FVec F S128x256 .f32 := Host.absf main_arg3
  let main_cst_2 : FVec F S_ .f32 := constant S_ .f32 0x7F800000#32
  let main_v10 : FVec F S128x256 .f32 := broadcastInDim S128x256 ![] bcast_S_S128x256 main_cst_2
  let main_v11 : IVec S128x256 1 := cmpf .olt main_v9 main_v10
  let main_c_3 : IVec S_ 1 := constantI S_ 1 1#1
  let main_v12 : IVec S_ 1 := (fun x v => Host.reduce IntOp.andi x v reducesTo_S128x256_S_d0_1 h_S_) main_v11 main_c_3
  let main_v13 : IVec S_ 1 := andi main_v8 main_v12
  let main_v14 : FVec F S256 .f32 := Host.absf main_arg4
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg5 main_arg6 main_arg7 main_arg8 main_arg9 main_arg10 main_v13 main_v16
-- ==== Kernel.lean ====
abbrev S50000x64 : Shape := ⟨2, ![50000, 64]⟩
abbrev S2x800000 : Shape := ⟨2, ![2, 800000]⟩
abbrev S800000x64 : Shape := ⟨2, ![800000, 64]⟩
abbrev S128x256 : Shape := ⟨2, ![128, 256]⟩
abbrev S256 : Shape := ⟨1, ![256]⟩
abbrev S256x128 : Shape := ⟨2, ![256, 128]⟩
abbrev S128 : Shape := ⟨1, ![128]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S1600000 : Shape := ⟨1, ![1600000]⟩
abbrev S1600000x64 : Shape := ⟨2, ![1600000, 64]⟩
abbrev S1600000x1 : Shape := ⟨2, ![1600000, 1]⟩
abbrev S50000x1 : Shape := ⟨2, ![50000, 1]⟩
abbrev S50000x128 : Shape := ⟨2, ![50000, 128]⟩
abbrev S850000x128 : Shape := ⟨2, ![850000, 128]⟩
abbrev S1x256 : Shape := ⟨2, ![1, 256]⟩
abbrev S50000x256 : Shape := ⟨2, ![50000, 256]⟩
abbrev S1x128 : Shape := ⟨2, ![1, 128]⟩
abbrev S5000x128 : Shape := ⟨2, ![5000, 128]⟩
abbrev S5000x256 : Shape := ⟨2, ![5000, 256]⟩

abbrev nBuf : Space → Nat
  | .hbm => 155
  | .vmem => 22
  | .smem => 0
  | _ => 0

abbrev hbmTy0_0 (i : Nat) : BufTy := match i % 128 with
  | 0 => ⟨S50000x64, .f32⟩
  | 1 => ⟨S2x800000, .i32⟩
  | 2 => ⟨S800000x64, .f32⟩
  | 3 => ⟨S128x256, .f32⟩
  | 4 => ⟨S256, .f32⟩
  | 5 => ⟨S256x128, .f32⟩
  | 6 => ⟨S128, .f32⟩
  | 7 => ⟨S128x256, .f32⟩
  | 8 => ⟨S256, .f32⟩
  | 9 => ⟨S256x128, .f32⟩
  | 10 => ⟨S128, .f32⟩
  | 11 => ⟨S50000, .i32⟩
  | 12 => ⟨S1x800000, .i32⟩
  | 13 => ⟨S800000, .i32⟩
  | 14 => ⟨S850000, .i32⟩
  | 15 => ⟨S1x800000, .i32⟩
  | 16 => ⟨S800000, .i32⟩
  | 17 => ⟨S850000, .i32⟩
  | 18 => ⟨S_, .f32⟩
  | 19 => ⟨S850000, .f32⟩
  | 20 => ⟨S_, .f32⟩
  | 21 => ⟨S50000, .f32⟩
  | 22 => ⟨S850000x1, .i32⟩
  | 23 => ⟨S50000, .f32⟩
  | 24 => ⟨S_, .f32⟩
  | 25 => ⟨S50000, .f32⟩
  | 26 => ⟨S50000, .i1⟩
  | 27 => ⟨S_, .f32⟩
  | 28 => ⟨S50000, .f32⟩
  | 29 => ⟨S50000, .f32⟩
  | 30 => ⟨S_, .f32⟩
  | 31 => ⟨S_, .f32⟩
  | 32 => ⟨S50000, .f32⟩
  | 33 => ⟨S50000, .f32⟩
  | 34 => ⟨S_, .i32⟩
  | 35 => ⟨S850000, .i32⟩
  | 36 => ⟨S850000, .i1⟩
  | 37 => ⟨S_, .i32⟩
  | 38 => ⟨S850000, .i32⟩
  | 39 => ⟨S850000, .i32⟩
  | 40 => ⟨S850000, .i32⟩
  | 41 => ⟨S850000x1, .i32⟩
  | 42 => ⟨S850000, .f32⟩
  | 43 => ⟨S_, .i32⟩
  | 44 => ⟨S850000, .i32⟩
  | 45 => ⟨S850000, .i1⟩
  | 46 => ⟨S_, .i32⟩
  | 47 => ⟨S850000, .i32⟩
  | 48 => ⟨S850000, .i32⟩
  | 49 => ⟨S850000, .i32⟩
  | 50 => ⟨S850000x1, .i32⟩
  | 51 => ⟨S850000, .f32⟩
  | 52 => ⟨S850000, .f32⟩
  | 53 => ⟨S1x800000, .i32⟩
  | 54 => ⟨S800000, .i32⟩
  | 55 => ⟨S1x800000, .i32⟩
  | 56 => ⟨S800000, .i32⟩
  | 57 => ⟨S1600000, .i32⟩
  | 58 => ⟨S1600000x64, .f32⟩
  | 59 => ⟨S_, .f32⟩
  | 60 => ⟨S50000x64, .f32⟩
  | 61 => ⟨S1600000x1, .i32⟩
  | 62 => ⟨S50000x64, .f32⟩
  | 63 => ⟨S_, .f32⟩
  | 64 => ⟨S1600000, .f32⟩
  | 65 => ⟨S_, .f32⟩
  | 66 => ⟨S50000, .f32⟩
  | 67 => ⟨S1600000x1, .i32⟩
  | 68 => ⟨S50000, .f32⟩
  | 69 => ⟨S_, .f32⟩
  | 70 => ⟨S50000, .f32⟩
  | 71 => ⟨S50000, .f32⟩
  | 72 => ⟨S50000x1, .f32⟩
  | 73 => ⟨S50000x64, .f32⟩
  | 74 => ⟨S50000x64, .f32⟩
  | 75 => ⟨S50000x128, .f32⟩
  | 76 => ⟨S_, .i32⟩
  | 77 => ⟨S850000, .i32⟩
  | 78 => ⟨S850000, .i1⟩
  | 79 => ⟨S_, .i32⟩
  | 80 => ⟨S850000, .i32⟩
  | 81 => ⟨S850000, .i32⟩
  | 82 => ⟨S850000, .i32⟩
  | 83 => ⟨S850000x1, .i32⟩
  | 84 => ⟨S850000x128, .f32⟩
  | 85 => ⟨S850000x1, .f32⟩
  | 86 => ⟨S850000x128, .f32⟩
  | 87 => ⟨S850000x128, .f32⟩
  | 88 => ⟨S_, .f32⟩
  | 89 => ⟨S50000x128, .f32⟩
  | 90 => ⟨S850000x1, .i32⟩
  | 91 => ⟨S50000x128, .f32⟩
  | 92 => ⟨S1x256, .f32⟩
  | 93 => ⟨S50000x256, .f32⟩
  | 94 => ⟨S50000x128, .f32⟩
  | 95 => ⟨S_, .i32⟩
  | 96 => ⟨S850000, .i32⟩
  | 97 => ⟨S850000, .i1⟩
  | 98 => ⟨S_, .i32⟩
  | 99 => ⟨S850000, .i32⟩
  | 100 => ⟨S850000, .i32⟩
  | 101 => ⟨S850000, .i32⟩
  | 102 => ⟨S850000x1, .i32⟩
  | 103 => ⟨S850000x128, .f32⟩
  | 104 => ⟨S850000x1, .f32⟩
  | 105 => ⟨S850000x128, .f32⟩
  | 106 => ⟨S850000x128, .f32⟩
  | 107 => ⟨S_, .f32⟩
  | 108 => ⟨S50000x128, .f32⟩
  | 109 => ⟨S850000x1, .i32⟩
  | 110 => ⟨S50000x128, .f32⟩
  | 111 => ⟨S1x128, .f32⟩
  | 112 => ⟨S50000x128, .f32⟩
  | 113 => ⟨S50000x128, .f32⟩
  | 114 => ⟨S_, .f32⟩
  | 115 => ⟨S50000x128, .f32⟩
  | 116 => ⟨S50000x128, .f32⟩
  | 117 => ⟨S_, .i32⟩
  | 118 => ⟨S850000, .i32⟩
  | 119 => ⟨S850000, .i1⟩
  | 120 => ⟨S_, .i32⟩
  | 121 => ⟨S850000, .i32⟩
  | 122 => ⟨S850000, .i32⟩
  | 123 => ⟨S850000, .i32⟩
  | 124 => ⟨S850000x1, .i32⟩
  | 125 => ⟨S850000x128, .f32⟩
  | 126 => ⟨S850000x1, .f32⟩
  | 127 => ⟨S850000x128, .f32⟩
  | _ => ⟨S50000x64, .f32⟩

abbrev hbmTy0_1 (i : Nat) : BufTy := match i % 128 with
  | 0 => ⟨S850000x128, .f32⟩
  | 1 => ⟨S_, .f32⟩
  | 2 => ⟨S50000x128, .f32⟩
  | 3 => ⟨S850000x1, .i32⟩
  | 4 => ⟨S50000x128, .f32⟩
  | 5 => ⟨S1x256, .f32⟩
  | 6 => ⟨S50000x256, .f32⟩
  | 7 => ⟨S50000x128, .f32⟩
  | 8 => ⟨S_, .i32⟩
  | 9 => ⟨S850000, .i32⟩
  | 10 => ⟨S850000, .i1⟩
  | 11 => ⟨S_, .i32⟩
  | 12 => ⟨S850000, .i32⟩
  | 13 => ⟨S850000, .i32⟩
  | 14 => ⟨S850000, .i32⟩
  | 15 => ⟨S850000x1, .i32⟩
  | 16 => ⟨S850000x128, .f32⟩
  | 17 => ⟨S850000x1, .f32⟩
  | 18 => ⟨S850000x128, .f32⟩
  | 19 => ⟨S850000x128, .f32⟩
  | 20 => ⟨S_, .f32⟩
  | 21 => ⟨S50000x128, .f32⟩
  | 22 => ⟨S850000x1, .i32⟩
  | 23 => ⟨S50000x128, .f32⟩
  | 24 => ⟨S1x128, .f32⟩
  | 25 => ⟨S50000x128, .f32⟩
  | 26 => ⟨S50000x128, .f32⟩
  | _ => ⟨S50000x64, .f32⟩

abbrev hbmTy (i : Nat) : BufTy := match i / 128 with
  | 0 => hbmTy0_0 i
  | 1 => hbmTy0_1 i
  | _ => ⟨S50000x64, .f32⟩

abbrev bufTy : (tb : Table) → Fin (tcTables nBuf tb) → BufTy
  | .hbm, ⟨i, _⟩ => hbmTy i
  | .local _ .vmem, ⟨0, _⟩ => ⟨S5000x128, .f32⟩
  | .local _ .vmem, ⟨1, _⟩ => ⟨S5000x128, .f32⟩
  | .local _ .vmem, ⟨2, _⟩ => ⟨S128x256, .f32⟩
  | .local _ .vmem, ⟨3, _⟩ => ⟨S1x256, .f32⟩
  | .local _ .vmem, ⟨4, _⟩ => ⟨S5000x256, .f32⟩
  | .local _ .vmem, ⟨5, _⟩ => ⟨S5000x256, .f32⟩
  | .local _ .vmem, ⟨6, _⟩ => ⟨S5000x256, .f32⟩
  | .local _ .vmem, ⟨7, _⟩ => ⟨S5000x256, .f32⟩
  | .local _ .vmem, ⟨8, _⟩ => ⟨S256x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S128x256, .f32⟩
  | .local _ .vmem, ⟨14, _⟩ => ⟨S1x256, .f32⟩
  | .local _ .vmem, ⟨15, _⟩ => ⟨S5000x256, .f32⟩
  | .local _ .vmem, ⟨16, _⟩ => ⟨S5000x256, .f32⟩
  | .local _ .vmem, ⟨17, _⟩ => ⟨S5000x256, .f32⟩
  | .local _ .vmem, ⟨18, _⟩ => ⟨S5000x256, .f32⟩
  | .local _ .vmem, ⟨19, _⟩ => ⟨S256x128, .f32⟩
  | .local _ .vmem, ⟨20, _⟩ => ⟨S5000x128, .f32⟩
  | .local _ .vmem, ⟨21, _⟩ => ⟨S5000x128, .f32⟩
  | _, _ => ⟨S50000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_call0_v0 : Ref sig .tc := ⟨.hbm, 11, rfl⟩
abbrev main_call0_v1 : Ref sig .tc := ⟨.hbm, 12, rfl⟩
abbrev main_call0_v2 : Ref sig .tc := ⟨.hbm, 13, rfl⟩
abbrev main_call0_v3 : Ref sig .tc := ⟨.hbm, 14, rfl⟩
abbrev main_call0_v4 : Ref sig .tc := ⟨.hbm, 15, rfl⟩
abbrev main_call0_v5 : Ref sig .tc := ⟨.hbm, 16, rfl⟩
abbrev main_call0_v6 : Ref sig .tc := ⟨.hbm, 17, rfl⟩
abbrev main_call0_cst : Ref sig .tc := ⟨.hbm, 18, rfl⟩
abbrev main_call0_v7 : Ref sig .tc := ⟨.hbm, 19, rfl⟩
abbrev main_call0_cst_0 : Ref sig .tc := ⟨.hbm, 20, rfl⟩
abbrev main_call0_v8 : Ref sig .tc := ⟨.hbm, 21, rfl⟩
abbrev main_call0_v9 : Ref sig .tc := ⟨.hbm, 22, rfl⟩
abbrev main_call0_v10 : Ref sig .tc := ⟨.hbm, 23, rfl⟩
abbrev main_call0_cst_1 : Ref sig .tc := ⟨.hbm, 24, rfl⟩
abbrev main_call0_v11 : Ref sig .tc := ⟨.hbm, 25, rfl⟩
abbrev main_call0_v12 : Ref sig .tc := ⟨.hbm, 26, rfl⟩
abbrev main_call0_cst_2 : Ref sig .tc := ⟨.hbm, 27, rfl⟩
abbrev main_call0_v13 : Ref sig .tc := ⟨.hbm, 28, rfl⟩
abbrev main_call0_v14 : Ref sig .tc := ⟨.hbm, 29, rfl⟩
abbrev main_call0_cst_3 : Ref sig .tc := ⟨.hbm, 30, rfl⟩
abbrev main_call0_call0_v0 : Ref sig .tc := ⟨.hbm, 31, rfl⟩
abbrev main_call0_call0_v1 : Ref sig .tc := ⟨.hbm, 32, rfl⟩
abbrev main_call0_v15 : Ref sig .tc := ⟨.hbm, 33, rfl⟩
abbrev main_call0_c : Ref sig .tc := ⟨.hbm, 34, rfl⟩
abbrev main_call0_v16 : Ref sig .tc := ⟨.hbm, 35, rfl⟩
abbrev main_call0_v17 : Ref sig .tc := ⟨.hbm, 36, rfl⟩
abbrev main_call0_c_4 : Ref sig .tc := ⟨.hbm, 37, rfl⟩
abbrev main_call0_v18 : Ref sig .tc := ⟨.hbm, 38, rfl⟩
abbrev main_call0_v19 : Ref sig .tc := ⟨.hbm, 39, rfl⟩
abbrev main_call0_v20 : Ref sig .tc := ⟨.hbm, 40, rfl⟩
abbrev main_call0_v21 : Ref sig .tc := ⟨.hbm, 41, rfl⟩
abbrev main_call0_v22 : Ref sig .tc := ⟨.hbm, 42, rfl⟩
abbrev main_call0_c_5 : Ref sig .tc := ⟨.hbm, 43, rfl⟩
abbrev main_call0_v23 : Ref sig .tc := ⟨.hbm, 44, rfl⟩
abbrev main_call0_v24 : Ref sig .tc := ⟨.hbm, 45, rfl⟩
abbrev main_call0_c_6 : Ref sig .tc := ⟨.hbm, 46, rfl⟩
abbrev main_call0_v25 : Ref sig .tc := ⟨.hbm, 47, rfl⟩
abbrev main_call0_v26 : Ref sig .tc := ⟨.hbm, 48, rfl⟩
abbrev main_call0_v27 : Ref sig .tc := ⟨.hbm, 49, rfl⟩
abbrev main_call0_v28 : Ref sig .tc := ⟨.hbm, 50, rfl⟩
abbrev main_call0_v29 : Ref sig .tc := ⟨.hbm, 51, rfl⟩
abbrev main_call0_v30 : Ref sig .tc := ⟨.hbm, 52, rfl⟩
abbrev main_call0_v31 : Ref sig .tc := ⟨.hbm, 53, rfl⟩
abbrev main_call0_v32 : Ref sig .tc := ⟨.hbm, 54, rfl⟩
abbrev main_call0_v33 : Ref sig .tc := ⟨.hbm, 55, rfl⟩
abbrev main_call0_v34 : Ref sig .tc := ⟨.hbm, 56, rfl⟩
abbrev main_call0_v35 : Ref sig .tc := ⟨.hbm, 57, rfl⟩
abbrev main_call0_v36 : Ref sig .tc := ⟨.hbm, 58, rfl⟩
abbrev main_call0_cst_7 : Ref sig .tc := ⟨.hbm, 59, rfl⟩
abbrev main_call0_v37 : Ref sig .tc := ⟨.hbm, 60, rfl⟩
abbrev main_call0_v38 : Ref sig .tc := ⟨.hbm, 61, rfl⟩
abbrev main_call0_v39 : Ref sig .tc := ⟨.hbm, 62, rfl⟩
abbrev main_call0_cst_8 : Ref sig .tc := ⟨.hbm, 63, rfl⟩
abbrev main_call0_v40 : Ref sig .tc := ⟨.hbm, 64, rfl⟩
abbrev main_call0_cst_9 : Ref sig .tc := ⟨.hbm, 65, rfl⟩
abbrev main_call0_v41 : Ref sig .tc := ⟨.hbm, 66, rfl⟩
abbrev main_call0_v42 : Ref sig .tc := ⟨.hbm, 67, rfl⟩
abbrev main_call0_v43 : Ref sig .tc := ⟨.hbm, 68, rfl⟩
abbrev main_call0_cst_10 : Ref sig .tc := ⟨.hbm, 69, rfl⟩
abbrev main_call0_v44 : Ref sig .tc := ⟨.hbm, 70, rfl⟩
abbrev main_call0_v45 : Ref sig .tc := ⟨.hbm, 71, rfl⟩
abbrev main_call0_v46 : Ref sig .tc := ⟨.hbm, 72, rfl⟩
abbrev main_call0_v47 : Ref sig .tc := ⟨.hbm, 73, rfl⟩
abbrev main_call0_v48 : Ref sig .tc := ⟨.hbm, 74, rfl⟩
abbrev main_call0_v49 : Ref sig .tc := ⟨.hbm, 75, rfl⟩
abbrev main_call0_c_11 : Ref sig .tc := ⟨.hbm, 76, rfl⟩
abbrev main_call0_v50 : Ref sig .tc := ⟨.hbm, 77, rfl⟩
abbrev main_call0_v51 : Ref sig .tc := ⟨.hbm, 78, rfl⟩
abbrev main_call0_c_12 : Ref sig .tc := ⟨.hbm, 79, rfl⟩
abbrev main_call0_v52 : Ref sig .tc := ⟨.hbm, 80, rfl⟩
abbrev main_call0_v53 : Ref sig .tc := ⟨.hbm, 81, rfl⟩
abbrev main_call0_v54 : Ref sig .tc := ⟨.hbm, 82, rfl⟩
abbrev main_call0_v55 : Ref sig .tc := ⟨.hbm, 83, rfl⟩
abbrev main_call0_v56 : Ref sig .tc := ⟨.hbm, 84, rfl⟩
abbrev main_call0_v57 : Ref sig .tc := ⟨.hbm, 85, rfl⟩
abbrev main_call0_v58 : Ref sig .tc := ⟨.hbm, 86, rfl⟩
abbrev main_call0_v59 : Ref sig .tc := ⟨.hbm, 87, rfl⟩
abbrev main_call0_cst_13 : Ref sig .tc := ⟨.hbm, 88, rfl⟩
abbrev main_call0_v60 : Ref sig .tc := ⟨.hbm, 89, rfl⟩
abbrev main_call0_v61 : Ref sig .tc := ⟨.hbm, 90, rfl⟩
abbrev main_call0_v62 : Ref sig .tc := ⟨.hbm, 91, rfl⟩
abbrev main_call0_v63 : Ref sig .tc := ⟨.hbm, 92, rfl⟩
abbrev main_call0_v64 : Ref sig .tc := ⟨.hbm, 93, rfl⟩
abbrev main_call0_v65 : Ref sig .tc := ⟨.hbm, 94, rfl⟩
abbrev main_call0_c_14 : Ref sig .tc := ⟨.hbm, 95, rfl⟩
abbrev main_call0_v66 : Ref sig .tc := ⟨.hbm, 96, rfl⟩
abbrev main_call0_v67 : Ref sig .tc := ⟨.hbm, 97, rfl⟩
abbrev main_call0_c_15 : Ref sig .tc := ⟨.hbm, 98, rfl⟩
abbrev main_call0_v68 : Ref sig .tc := ⟨.hbm, 99, rfl⟩
abbrev main_call0_v69 : Ref sig .tc := ⟨.hbm, 100, rfl⟩
abbrev main_call0_v70 : Ref sig .tc := ⟨.hbm, 101, rfl⟩
abbrev main_call0_v71 : Ref sig .tc := ⟨.hbm, 102, rfl⟩
abbrev main_call0_v72 : Ref sig .tc := ⟨.hbm, 103, rfl⟩
abbrev main_call0_v73 : Ref sig .tc := ⟨.hbm, 104, rfl⟩
abbrev main_call0_v74 : Ref sig .tc := ⟨.hbm, 105, rfl⟩
abbrev main_call0_v75 : Ref sig .tc := ⟨.hbm, 106, rfl⟩
abbrev main_call0_cst_16 : Ref sig .tc := ⟨.hbm, 107, rfl⟩
abbrev main_call0_v76 : Ref sig .tc := ⟨.hbm, 108, rfl⟩
abbrev main_call0_v77 : Ref sig .tc := ⟨.hbm, 109, rfl⟩
abbrev main_call0_v78 : Ref sig .tc := ⟨.hbm, 110, rfl⟩
abbrev main_call0_v79 : Ref sig .tc := ⟨.hbm, 111, rfl⟩
abbrev main_call0_v80 : Ref sig .tc := ⟨.hbm, 112, rfl⟩
abbrev main_call0_v81 : Ref sig .tc := ⟨.hbm, 113, rfl⟩
abbrev main_call0_call1_cst : Ref sig .tc := ⟨.hbm, 114, rfl⟩
abbrev main_call0_call1_v0 : Ref sig .tc := ⟨.hbm, 115, rfl⟩
abbrev main_call0_v82 : Ref sig .tc := ⟨.hbm, 116, rfl⟩
abbrev main_call0_c_17 : Ref sig .tc := ⟨.hbm, 117, rfl⟩
abbrev main_call0_v83 : Ref sig .tc := ⟨.hbm, 118, rfl⟩
abbrev main_call0_v84 : Ref sig .tc := ⟨.hbm, 119, rfl⟩
abbrev main_call0_c_18 : Ref sig .tc := ⟨.hbm, 120, rfl⟩
abbrev main_call0_v85 : Ref sig .tc := ⟨.hbm, 121, rfl⟩
abbrev main_call0_v86 : Ref sig .tc := ⟨.hbm, 122, rfl⟩
abbrev main_call0_v87 : Ref sig .tc := ⟨.hbm, 123, rfl⟩
abbrev main_call0_v88 : Ref sig .tc := ⟨.hbm, 124, rfl⟩
abbrev main_call0_v89 : Ref sig .tc := ⟨.hbm, 125, rfl⟩
abbrev main_call0_v90 : Ref sig .tc := ⟨.hbm, 126, rfl⟩
abbrev main_call0_v91 : Ref sig .tc := ⟨.hbm, 127, rfl⟩
abbrev main_call0_v92 : Ref sig .tc := ⟨.hbm, 128, rfl⟩
abbrev main_call0_cst_19 : Ref sig .tc := ⟨.hbm, 129, rfl⟩
abbrev main_call0_v93 : Ref sig .tc := ⟨.hbm, 130, rfl⟩
abbrev main_call0_v94 : Ref sig .tc := ⟨.hbm, 131, rfl⟩
abbrev main_call0_v95 : Ref sig .tc := ⟨.hbm, 132, rfl⟩
abbrev main_call0_v96 : Ref sig .tc := ⟨.hbm, 133, rfl⟩
abbrev main_call0_v97 : Ref sig .tc := ⟨.hbm, 134, rfl⟩
abbrev main_call0_v98 : Ref sig .tc := ⟨.hbm, 135, rfl⟩
abbrev main_call0_c_20 : Ref sig .tc := ⟨.hbm, 136, rfl⟩
abbrev main_call0_v99 : Ref sig .tc := ⟨.hbm, 137, rfl⟩
abbrev main_call0_v100 : Ref sig .tc := ⟨.hbm, 138, rfl⟩
abbrev main_call0_c_21 : Ref sig .tc := ⟨.hbm, 139, rfl⟩
abbrev main_call0_v101 : Ref sig .tc := ⟨.hbm, 140, rfl⟩
abbrev main_call0_v102 : Ref sig .tc := ⟨.hbm, 141, rfl⟩
abbrev main_call0_v103 : Ref sig .tc := ⟨.hbm, 142, rfl⟩
abbrev main_call0_v104 : Ref sig .tc := ⟨.hbm, 143, rfl⟩
abbrev main_call0_v105 : Ref sig .tc := ⟨.hbm, 144, rfl⟩
abbrev main_call0_v106 : Ref sig .tc := ⟨.hbm, 145, rfl⟩
abbrev main_call0_v107 : Ref sig .tc := ⟨.hbm, 146, rfl⟩
abbrev main_call0_v108 : Ref sig .tc := ⟨.hbm, 147, rfl⟩
abbrev main_call0_cst_22 : Ref sig .tc := ⟨.hbm, 148, rfl⟩
abbrev main_call0_v109 : Ref sig .tc := ⟨.hbm, 149, rfl⟩
abbrev main_call0_v110 : Ref sig .tc := ⟨.hbm, 150, rfl⟩
abbrev main_call0_v111 : Ref sig .tc := ⟨.hbm, 151, rfl⟩
abbrev main_call0_v112 : Ref sig .tc := ⟨.hbm, 152, rfl⟩
abbrev main_call0_v113 : Ref sig .tc := ⟨.hbm, 153, rfl⟩
abbrev main_v0 : Ref sig .tc := ⟨.hbm, 154, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg2_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg3_0 : Ref sig .tc := ⟨.vmem, 15, rfl⟩
abbrev cc2_stg3_1 : Ref sig .tc := ⟨.vmem, 16, rfl⟩
abbrev cc3_stg0_0 : Ref sig .tc := ⟨.vmem, 17, rfl⟩
abbrev cc3_stg0_1 : Ref sig .tc := ⟨.vmem, 18, rfl⟩
abbrev cc3_stg1_0 : Ref sig .tc := ⟨.vmem, 19, rfl⟩
abbrev cc3_stg2_0 : Ref sig .tc := ⟨.vmem, 20, rfl⟩
abbrev cc3_stg2_1 : Ref sig .tc := ⟨.vmem, 21, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem2_1 : DmaSem sig := 10
abbrev cc2_sem0_0 : DmaSem sig := 11
abbrev cc2_sem0_1 : DmaSem sig := 12
abbrev cc2_sem1_0 : DmaSem sig := 13
abbrev cc2_sem2_0 : DmaSem sig := 14
abbrev cc2_sem3_0 : DmaSem sig := 15
abbrev cc2_sem3_1 : DmaSem sig := 16
abbrev cc3_sem0_0 : DmaSem sig := 17
abbrev cc3_sem0_1 : DmaSem sig := 18
abbrev cc3_sem1_0 : DmaSem sig := 19
abbrev cc3_sem2_0 : DmaSem sig := 20
abbrev cc3_sem2_1 : DmaSem sig := 21

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S256x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x256 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x256 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S5000x256 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x256 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S256x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S5000x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  concatenates_S800000_S800000_S1600000_d0 : Shape.Concatenates [S800000, S800000] S1600000 0
  concatenates_S800000x64_S800000x64_S1600000x64_d0 : Shape.Concatenates [S800000x64, S800000x64] S1600000x64 0
  bcast_S_S50000x64 : S_.BroadcastsInDim S50000x64 (![] : Fin 0 → Fin S50000x64.rank)
  bcast_S1600000_S1600000x1_0 : S1600000.BroadcastsInDim S1600000x1 (![0] : Fin 1 → Fin S1600000x1.rank)
  bcast_S_S1600000 : S_.BroadcastsInDim S1600000 (![] : Fin 0 → Fin S1600000.rank)
  bcast_S50000_S50000x1_0 : S50000.BroadcastsInDim S50000x1 (![0] : Fin 1 → Fin S50000x1.rank)
  bcast_S50000x1_S50000x64_0_1 : S50000x1.BroadcastsInDim S50000x64 (![0, 1] : Fin 2 → Fin S50000x64.rank)
  concatenates_S50000x64_S50000x64_S50000x128_d1 : Shape.Concatenates [S50000x64, S50000x64] S50000x128 1
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  shapeCasts_S256_S1x256 : S256.ShapeCasts S1x256
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  bitsLt_bf16_f32 : FTy.bits .bf16 < FTy.bits .f32
  inb_S128x256_S128x256_0_0 : ∀ a, (![0, 0] : Fin 2 → Nat) a + S128x256.size a ≤ S128x256.size a
  h_S128x256 : 0 < S128x256.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S5000x256 : S1x256.Broadcasts S5000x256
  inb_S5000x256_S5000x256_0_0 : ∀ a, (![0, 0] : Fin 2 → Nat) a + S5000x256.size a ≤ S5000x256.size a
  h_S5000x256 : 0 < S5000x256.numel
  shapeCasts_S5000x256_S5000x256 : S5000x256.ShapeCasts S5000x256
  inb_S256x128_S256x128_0_0 : ∀ a, (![0, 0] : Fin 2 → Nat) a + S256x128.size a ≤ S256x128.size a
  h_S256x128 : 0 < S256x128.numel
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  scatter_S50000x64_S1600000x1_S1600000x64_1_0_0_1_wf : ScatterDims.WF S50000x64 S1600000x1 S1600000x64 [1] [0] [0] 1
  scatter_S50000_S1600000x1_S1600000_n_0_0_1_wf : ScatterDims.WF S50000 S1600000x1 S1600000 [] [0] [0] 1
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  dot_S5000x128_S128x256_S5000x256_1_0_0_1_n_n_wf : DotDims.WF S5000x128 S128x256 S5000x256 [1] [0] [0] [1] [] []
  dot_S5000x256_S256x128_S5000x128_1_0_0_1_n_n_wf : DotDims.WF S5000x256 S256x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x256.size a ≤ S128x256.size a
  hwx0_1 : ∀ i : grid0.Coords, EltTy.bits .f32 = 32 ∨ (Rect.block (s := S128x256) S128x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x256.size a ≤ S1x256.size a
  hwx0_2 : ∀ i : grid0.Coords, EltTy.bits .f32 = 32 ∨ (Rect.block (s := S1x256) S1x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x256.size a ≤ S50000x256.size a
  hwx0_3 : ∀ i : grid0.Coords, EltTy.bits .f32 = 32 ∨ (Rect.block (s := S50000x256) S5000x256.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x256.size a ≤ S50000x256.size a
  hwx1_0 : ∀ i : grid1.Coords, EltTy.bits .f32 = 32 ∨ (Rect.block (s := S50000x256) S5000x256.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S256x128.size a ≤ S256x128.size a
  hwx1_1 : ∀ i : grid1.Coords, EltTy.bits .f32 = 32 ∨ (Rect.block (s := S256x128) S256x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x128.size a ≤ S50000x128.size a
  hwx1_2 : ∀ i : grid1.Coords, EltTy.bits .f32 = 32 ∨ (Rect.block (s := S50000x128) S5000x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x256.size a ≤ S128x256.size a
  hwx2_1 : ∀ i : grid2.Coords, EltTy.bits .f32 = 32 ∨ (Rect.block (s := S128x256) S128x256.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x256.size a ≤ S1x256.size a
  hwx2_2 : ∀ i : grid2.Coords, EltTy.bits .f32 = 32 ∨ (Rect.block (s := S1x256) S1x256.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S5000x256.size a ≤ S50000x256.size a
  hwx2_3 : ∀ i : grid2.Coords, EltTy.bits .f32 = 32 ∨ (Rect.block (s := S50000x256) S5000x256.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x256.size a ≤ S50000x256.size a
  hwx3_0 : ∀ i : grid3.Coords, EltTy.bits .f32 = 32 ∨ (Rect.block (s := S50000x256) S5000x256.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S256x128.size a ≤ S256x128.size a
  hwx3_1 : ∀ i : grid3.Coords, EltTy.bits .f32 = 32 ∨ (Rect.block (s := S256x128) S256x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x128.size a ≤ S50000x128.size a
  hwx3_2 : ∀ i : grid3.Coords, EltTy.bits .f32 = 32 ∨ (Rect.block (s := S50000x128) S5000x128.size (cc3_transform_2 i) (hinb3_2 i)).WholeWords (EltTy.packing .f32)

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def scatter_S50000x64_S1600000x1_S1600000x64_1_0_0_1 : ScatterDims S50000x64 S1600000x1 S1600000x64 where
  updateWindowDims := [1]
  insertedWindowDims := [0]
  scatterDimsToOperandDims := [0]
  indexVectorDim := 1
  wf := scatter_S50000x64_S1600000x1_S1600000x64_1_0_0_1_wf
def scatter_S50000_S1600000x1_S1600000_n_0_0_1 : ScatterDims S50000 S1600000x1 S1600000 where
  updateWindowDims := []
  insertedWindowDims := [0]
  scatterDimsToOperandDims := [0]
  indexVectorDim := 1
  wf := scatter_S50000_S1600000x1_S1600000_n_0_0_1_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf
def dot_S5000x128_S128x256_S5000x256_1_0_0_1_n_n : DotDims S5000x128 S128x256 S5000x256 where
  lhsContracting := [1]
  rhsContracting := [0]
  lhsNonContracting := [0]
  rhsNonContracting := [1]
  lhsBatch := []
  rhsBatch := []
  wf := dot_S5000x128_S128x256_S5000x256_1_0_0_1_n_n_wf
def dot_S5000x256_S256x128_S5000x128_1_0_0_1_n_n : DotDims S5000x256 S256x128 S5000x128 where
  lhsContracting := [1]
  rhsContracting := [0]
  lhsNonContracting := [0]
  rhsNonContracting := [1]
  lhsBatch := []
  rhsBatch := []
  wf := dot_S5000x256_S256x128_S5000x128_1_0_0_1_n_n_wf

abbrev win0_0 : Pipeline.Window sig grid0 :=
  Pipeline.Window.ofSpec (Memref.whole main_call0_v62) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_call0_v63) S1x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_call0_v64) S5000x256.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_call0_v64) S5000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg5) S256x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_call0_v65) S5000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_call0_v95) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg7) S128x256.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_call0_v96) S1x256.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_call0_v97) S5000x256.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_call0_v97) S5000x256.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg9) S256x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_call0_v98) S5000x128.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

class Facts : Prop extends Facts₀ where

variable [Facts]
-- ==== ReferenceIdeal.lean ====
abbrev S50000x64 : Shape := ⟨2, ![50000, 64]⟩
abbrev S2x800000 : Shape := ⟨2, ![2, 800000]⟩
abbrev S800000x64 : Shape := ⟨2, ![800000, 64]⟩
abbrev S128x256 : Shape := ⟨2, ![128, 256]⟩
abbrev S256 : Shape := ⟨1, ![256]⟩
abbrev S256x128 : Shape := ⟨2, ![256, 128]⟩
abbrev S128 : Shape := ⟨1, ![128]⟩
abbrev S1x800000 : Shape := ⟨2, ![1, 800000]⟩
abbrev S800000 : Shape := ⟨1, ![800000]⟩
abbrev S1600000 : Shape := ⟨1, ![1600000]⟩
abbrev S1600000x64 : Shape := ⟨2, ![1600000, 64]⟩
abbrev S_ : Shape := ⟨0, ![]⟩
abbrev S1600000x1 : Shape := ⟨2, ![1600000, 1]⟩
abbrev S50000 : Shape := ⟨1, ![50000]⟩
abbrev S50000x1 : Shape := ⟨2, ![50000, 1]⟩
abbrev S50000x128 : Shape := ⟨2, ![50000, 128]⟩
abbrev S850000 : Shape := ⟨1, ![850000]⟩
abbrev S50000x256 : Shape := ⟨2, ![50000, 256]⟩
abbrev S850000x1 : Shape := ⟨2, ![850000, 1]⟩
abbrev S850000x256 : Shape := ⟨2, ![850000, 256]⟩
abbrev S1x256 : Shape := ⟨2, ![1, 256]⟩
abbrev S850000x128 : Shape := ⟨2, ![850000, 128]⟩
abbrev S1x128 : Shape := ⟨2, ![1, 128]⟩

abbrev nBuf : Space → Nat
  | .hbm => 291
  | .vmem => 0
  | .smem => 0
  | _ => 0

abbrev hbmTy0_0 (i : Nat) : BufTy := match i % 128 with
  | 0 => ⟨S50000x64, .f32⟩
  | 1 => ⟨S2x800000, .i32⟩
  | 2 => ⟨S800000x64, .f32⟩
  | 3 => ⟨S128x256, .f32⟩
  | 4 => ⟨S256, .f32⟩
  | 5 => ⟨S256x128, .f32⟩
  | 6 => ⟨S128, .f32⟩
  | 7 => ⟨S128x256, .f32⟩
  | 8 => ⟨S256, .f32⟩
  | 9 => ⟨S256x128, .f32⟩
  | 10 => ⟨S128, .f32⟩
  | 11 => ⟨S1x800000, .i32⟩
  | 12 => ⟨S800000, .i32⟩
  | 13 => ⟨S1x800000, .i32⟩
  | 14 => ⟨S800000, .i32⟩
  | 15 => ⟨S1600000, .i32⟩
  | 16 => ⟨S1600000x64, .f32⟩
  | 17 => ⟨S_, .f32⟩
  | 18 => ⟨S50000x64, .f32⟩
  | 19 => ⟨S1600000x1, .i32⟩
  | 20 => ⟨S50000x64, .f32⟩
  | 21 => ⟨S_, .f32⟩
  | 22 => ⟨S1600000, .f32⟩
  | 23 => ⟨S_, .f32⟩
  | 24 => ⟨S50000, .f32⟩
  | 25 => ⟨S1600000x1, .i32⟩
  | 26 => ⟨S50000, .f32⟩
  | 27 => ⟨S_, .f32⟩
  | 28 => ⟨S50000, .f32⟩
  | 29 => ⟨S50000, .f32⟩
  | 30 => ⟨S50000x1, .f32⟩
  | 31 => ⟨S50000x64, .f32⟩
  | 32 => ⟨S50000x64, .f32⟩
  | 33 => ⟨S50000x128, .f32⟩
  | 34 => ⟨S50000, .i32⟩
  | 35 => ⟨S1x800000, .i32⟩
  | 36 => ⟨S800000, .i32⟩
  | 37 => ⟨S850000, .i32⟩
  | 38 => ⟨S1x800000, .i32⟩
  | 39 => ⟨S800000, .i32⟩
  | 40 => ⟨S850000, .i32⟩
  | 41 => ⟨S50000x256, .f32⟩
  | 42 => ⟨S_, .f32⟩
  | 43 => ⟨S850000, .f32⟩
  | 44 => ⟨S_, .f32⟩
  | 45 => ⟨S50000, .f32⟩
  | 46 => ⟨S850000x1, .i32⟩
  | 47 => ⟨S50000, .f32⟩
  | 48 => ⟨S_, .f32⟩
  | 49 => ⟨S50000, .f32⟩
  | 50 => ⟨S50000, .i1⟩
  | 51 => ⟨S_, .f32⟩
  | 52 => ⟨S50000, .f32⟩
  | 53 => ⟨S50000, .f32⟩
  | 54 => ⟨S_, .f32⟩
  | 55 => ⟨S_, .f32⟩
  | 56 => ⟨S50000, .f32⟩
  | 57 => ⟨S50000, .f32⟩
  | 58 => ⟨S_, .i32⟩
  | 59 => ⟨S850000, .i32⟩
  | 60 => ⟨S850000, .i1⟩
  | 61 => ⟨S_, .i32⟩
  | 62 => ⟨S850000, .i32⟩
  | 63 => ⟨S850000, .i32⟩
  | 64 => ⟨S850000, .i32⟩
  | 65 => ⟨S850000x1, .i32⟩
  | 66 => ⟨S850000, .f32⟩
  | 67 => ⟨S_, .i32⟩
  | 68 => ⟨S850000, .i32⟩
  | 69 => ⟨S850000, .i1⟩
  | 70 => ⟨S_, .i32⟩
  | 71 => ⟨S850000, .i32⟩
  | 72 => ⟨S850000, .i32⟩
  | 73 => ⟨S850000, .i32⟩
  | 74 => ⟨S850000x1, .i32⟩
  | 75 => ⟨S850000, .f32⟩
  | 76 => ⟨S850000, .f32⟩
  | 77 => ⟨S_, .i32⟩
  | 78 => ⟨S850000, .i32⟩
  | 79 => ⟨S850000, .i1⟩
  | 80 => ⟨S_, .i32⟩
  | 81 => ⟨S850000, .i32⟩
  | 82 => ⟨S850000, .i32⟩
  | 83 => ⟨S850000, .i32⟩
  | 84 => ⟨S850000x1, .i32⟩
  | 85 => ⟨S850000x256, .f32⟩
  | 86 => ⟨S850000x1, .f32⟩
  | 87 => ⟨S850000x256, .f32⟩
  | 88 => ⟨S850000x256, .f32⟩
  | 89 => ⟨S_, .f32⟩
  | 90 => ⟨S50000x256, .f32⟩
  | 91 => ⟨S850000x1, .i32⟩
  | 92 => ⟨S50000x256, .f32⟩
  | 93 => ⟨S1x256, .f32⟩
  | 94 => ⟨S50000x256, .f32⟩
  | 95 => ⟨S50000x256, .f32⟩
  | 96 => ⟨S_, .f32⟩
  | 97 => ⟨S50000x256, .f32⟩
  | 98 => ⟨S50000x256, .f32⟩
  | 99 => ⟨S50000, .i32⟩
  | 100 => ⟨S1x800000, .i32⟩
  | 101 => ⟨S800000, .i32⟩
  | 102 => ⟨S850000, .i32⟩
  | 103 => ⟨S1x800000, .i32⟩
  | 104 => ⟨S800000, .i32⟩
  | 105 => ⟨S850000, .i32⟩
  | 106 => ⟨S50000x128, .f32⟩
  | 107 => ⟨S_, .f32⟩
  | 108 => ⟨S850000, .f32⟩
  | 109 => ⟨S_, .f32⟩
  | 110 => ⟨S50000, .f32⟩
  | 111 => ⟨S850000x1, .i32⟩
  | 112 => ⟨S50000, .f32⟩
  | 113 => ⟨S_, .f32⟩
  | 114 => ⟨S50000, .f32⟩
  | 115 => ⟨S50000, .i1⟩
  | 116 => ⟨S_, .f32⟩
  | 117 => ⟨S50000, .f32⟩
  | 118 => ⟨S50000, .f32⟩
  | 119 => ⟨S_, .f32⟩
  | 120 => ⟨S_, .f32⟩
  | 121 => ⟨S50000, .f32⟩
  | 122 => ⟨S50000, .f32⟩
  | 123 => ⟨S_, .i32⟩
  | 124 => ⟨S850000, .i32⟩
  | 125 => ⟨S850000, .i1⟩
  | 126 => ⟨S_, .i32⟩
  | 127 => ⟨S850000, .i32⟩
  | _ => ⟨S50000x64, .f32⟩

abbrev hbmTy0_1 (i : Nat) : BufTy := match i % 128 with
  | 0 => ⟨S850000, .i32⟩
  | 1 => ⟨S850000, .i32⟩
  | 2 => ⟨S850000x1, .i32⟩
  | 3 => ⟨S850000, .f32⟩
  | 4 => ⟨S_, .i32⟩
  | 5 => ⟨S850000, .i32⟩
  | 6 => ⟨S850000, .i1⟩
  | 7 => ⟨S_, .i32⟩
  | 8 => ⟨S850000, .i32⟩
  | 9 => ⟨S850000, .i32⟩
  | 10 => ⟨S850000, .i32⟩
  | 11 => ⟨S850000x1, .i32⟩
  | 12 => ⟨S850000, .f32⟩
  | 13 => ⟨S850000, .f32⟩
  | 14 => ⟨S_, .i32⟩
  | 15 => ⟨S850000, .i32⟩
  | 16 => ⟨S850000, .i1⟩
  | 17 => ⟨S_, .i32⟩
  | 18 => ⟨S850000, .i32⟩
  | 19 => ⟨S850000, .i32⟩
  | 20 => ⟨S850000, .i32⟩
  | 21 => ⟨S850000x1, .i32⟩
  | 22 => ⟨S850000x128, .f32⟩
  | 23 => ⟨S850000x1, .f32⟩
  | 24 => ⟨S850000x128, .f32⟩
  | 25 => ⟨S850000x128, .f32⟩
  | 26 => ⟨S_, .f32⟩
  | 27 => ⟨S50000x128, .f32⟩
  | 28 => ⟨S850000x1, .i32⟩
  | 29 => ⟨S50000x128, .f32⟩
  | 30 => ⟨S1x128, .f32⟩
  | 31 => ⟨S50000x128, .f32⟩
  | 32 => ⟨S50000x128, .f32⟩
  | 33 => ⟨S_, .f32⟩
  | 34 => ⟨S50000x128, .f32⟩
  | 35 => ⟨S50000x128, .f32⟩
  | 36 => ⟨S50000, .i32⟩
  | 37 => ⟨S1x800000, .i32⟩
  | 38 => ⟨S800000, .i32⟩
  | 39 => ⟨S850000, .i32⟩
  | 40 => ⟨S1x800000, .i32⟩
  | 41 => ⟨S800000, .i32⟩
  | 42 => ⟨S850000, .i32⟩
  | 43 => ⟨S50000x256, .f32⟩
  | 44 => ⟨S_, .f32⟩
  | 45 => ⟨S850000, .f32⟩
  | 46 => ⟨S_, .f32⟩
  | 47 => ⟨S50000, .f32⟩
  | 48 => ⟨S850000x1, .i32⟩
  | 49 => ⟨S50000, .f32⟩
  | 50 => ⟨S_, .f32⟩
  | 51 => ⟨S50000, .f32⟩
  | 52 => ⟨S50000, .i1⟩
  | 53 => ⟨S_, .f32⟩
  | 54 => ⟨S50000, .f32⟩
  | 55 => ⟨S50000, .f32⟩
  | 56 => ⟨S_, .f32⟩
  | 57 => ⟨S_, .f32⟩
  | 58 => ⟨S50000, .f32⟩
  | 59 => ⟨S50000, .f32⟩
  | 60 => ⟨S_, .i32⟩
  | 61 => ⟨S850000, .i32⟩
  | 62 => ⟨S850000, .i1⟩
  | 63 => ⟨S_, .i32⟩
  | 64 => ⟨S850000, .i32⟩
  | 65 => ⟨S850000, .i32⟩
  | 66 => ⟨S850000, .i32⟩
  | 67 => ⟨S850000x1, .i32⟩
  | 68 => ⟨S850000, .f32⟩
  | 69 => ⟨S_, .i32⟩
  | 70 => ⟨S850000, .i32⟩
  | 71 => ⟨S850000, .i1⟩
  | 72 => ⟨S_, .i32⟩
  | 73 => ⟨S850000, .i32⟩
  | 74 => ⟨S850000, .i32⟩
  | 75 => ⟨S850000, .i32⟩
  | 76 => ⟨S850000x1, .i32⟩
  | 77 => ⟨S850000, .f32⟩
  | 78 => ⟨S850000, .f32⟩
  | 79 => ⟨S_, .i32⟩
  | 80 => ⟨S850000, .i32⟩
  | 81 => ⟨S850000, .i1⟩
  | 82 => ⟨S_, .i32⟩
  | 83 => ⟨S850000, .i32⟩
  | 84 => ⟨S850000, .i32⟩
  | 85 => ⟨S850000, .i32⟩
  | 86 => ⟨S850000x1, .i32⟩
  | 87 => ⟨S850000x256, .f32⟩
  | 88 => ⟨S850000x1, .f32⟩
  | 89 => ⟨S850000x256, .f32⟩
  | 90 => ⟨S850000x256, .f32⟩
  | 91 => ⟨S_, .f32⟩
  | 92 => ⟨S50000x256, .f32⟩
  | 93 => ⟨S850000x1, .i32⟩
  | 94 => ⟨S50000x256, .f32⟩
  | 95 => ⟨S1x256, .f32⟩
  | 96 => ⟨S50000x256, .f32⟩
  | 97 => ⟨S50000x256, .f32⟩
  | 98 => ⟨S_, .f32⟩
  | 99 => ⟨S50000x256, .f32⟩
  | 100 => ⟨S50000x256, .f32⟩
  | 101 => ⟨S50000, .i32⟩
  | 102 => ⟨S1x800000, .i32⟩
  | 103 => ⟨S800000, .i32⟩
  | 104 => ⟨S850000, .i32⟩
  | 105 => ⟨S1x800000, .i32⟩
  | 106 => ⟨S800000, .i32⟩
  | 107 => ⟨S850000, .i32⟩
  | 108 => ⟨S50000x128, .f32⟩
  | 109 => ⟨S_, .f32⟩
  | 110 => ⟨S850000, .f32⟩
  | 111 => ⟨S_, .f32⟩
  | 112 => ⟨S50000, .f32⟩
  | 113 => ⟨S850000x1, .i32⟩
  | 114 => ⟨S50000, .f32⟩
  | 115 => ⟨S_, .f32⟩
  | 116 => ⟨S50000, .f32⟩
  | 117 => ⟨S50000, .i1⟩
  | 118 => ⟨S_, .f32⟩
  | 119 => ⟨S50000, .f32⟩
  | 120 => ⟨S50000, .f32⟩
  | 121 => ⟨S_, .f32⟩
  | 122 => ⟨S_, .f32⟩
  | 123 => ⟨S50000, .f32⟩
  | 124 => ⟨S50000, .f32⟩
  | 125 => ⟨S_, .i32⟩
  | 126 => ⟨S850000, .i32⟩
  | 127 => ⟨S850000, .i1⟩
  | _ => ⟨S50000x64, .f32⟩

abbrev hbmTy0_2 (i : Nat) : BufTy := match i % 128 with
  | 0 => ⟨S_, .i32⟩
  | 1 => ⟨S850000, .i32⟩
  | 2 => ⟨S850000, .i32⟩
  | 3 => ⟨S850000, .i32⟩
  | 4 => ⟨S850000x1, .i32⟩
  | 5 => ⟨S850000, .f32⟩
  | 6 => ⟨S_, .i32⟩
  | 7 => ⟨S850000, .i32⟩
  | 8 => ⟨S850000, .i1⟩
  | 9 => ⟨S_, .i32⟩
  | 10 => ⟨S850000, .i32⟩
  | 11 => ⟨S850000, .i32⟩
  | 12 => ⟨S850000, .i32⟩
  | 13 => ⟨S850000x1, .i32⟩
  | 14 => ⟨S850000, .f32⟩
  | 15 => ⟨S850000, .f32⟩
  | 16 => ⟨S_, .i32⟩
  | 17 => ⟨S850000, .i32⟩
  | 18 => ⟨S850000, .i1⟩
  | 19 => ⟨S_, .i32⟩
  | 20 => ⟨S850000, .i32⟩
  | 21 => ⟨S850000, .i32⟩
  | 22 => ⟨S850000, .i32⟩
  | 23 => ⟨S850000x1, .i32⟩
  | 24 => ⟨S850000x128, .f32⟩
  | 25 => ⟨S850000x1, .f32⟩
  | 26 => ⟨S850000x128, .f32⟩
  | 27 => ⟨S850000x128, .f32⟩
  | 28 => ⟨S_, .f32⟩
  | 29 => ⟨S50000x128, .f32⟩
  | 30 => ⟨S850000x1, .i32⟩
  | 31 => ⟨S50000x128, .f32⟩
  | 32 => ⟨S1x128, .f32⟩
  | 33 => ⟨S50000x128, .f32⟩
  | 34 => ⟨S50000x128, .f32⟩
  | _ => ⟨S50000x64, .f32⟩

abbrev hbmTy (i : Nat) : BufTy := match i / 128 with
  | 0 => hbmTy0_0 i
  | 1 => hbmTy0_1 i
  | 2 => hbmTy0_2 i
  | _ => ⟨S50000x64, .f32⟩

abbrev bufTy : (tb : Table) → Fin (tcTables nBuf tb) → BufTy
  | .hbm, ⟨i, _⟩ => hbmTy i
  | _, _ => ⟨S50000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_cst : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_cst_0 : Ref sig .tc := ⟨.hbm, 21, rfl⟩
abbrev main_v9 : Ref sig .tc := ⟨.hbm, 22, rfl⟩
abbrev main_cst_1 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_cst_2 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_cst_3 : Ref sig .tc := ⟨.hbm, 42, rfl⟩
abbrev main_v27 : Ref sig .tc := ⟨.hbm, 43, rfl⟩
abbrev main_cst_4 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_cst_5 : Ref sig .tc := ⟨.hbm, 48, rfl⟩
abbrev main_v31 : Ref sig .tc := ⟨.hbm, 49, rfl⟩
abbrev main_v32 : Ref sig .tc := ⟨.hbm, 50, rfl⟩
abbrev main_cst_6 : Ref sig .tc := ⟨.hbm, 51, rfl⟩
abbrev main_v33 : Ref sig .tc := ⟨.hbm, 52, rfl⟩
abbrev main_v34 : Ref sig .tc := ⟨.hbm, 53, rfl⟩
abbrev main_cst_7 : Ref sig .tc := ⟨.hbm, 54, rfl⟩
abbrev main_call0_v0 : Ref sig .tc := ⟨.hbm, 55, rfl⟩
abbrev main_call0_v1 : Ref sig .tc := ⟨.hbm, 56, rfl⟩
abbrev main_v35 : Ref sig .tc := ⟨.hbm, 57, rfl⟩
abbrev main_c : Ref sig .tc := ⟨.hbm, 58, rfl⟩
abbrev main_v36 : Ref sig .tc := ⟨.hbm, 59, rfl⟩
abbrev main_v37 : Ref sig .tc := ⟨.hbm, 60, rfl⟩
abbrev main_c_8 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_c_9 : Ref sig .tc := ⟨.hbm, 67, rfl⟩
abbrev main_v43 : Ref sig .tc := ⟨.hbm, 68, rfl⟩
abbrev main_v44 : Ref sig .tc := ⟨.hbm, 69, rfl⟩
abbrev main_c_10 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_c_11 : Ref sig .tc := ⟨.hbm, 77, rfl⟩
abbrev main_v51 : Ref sig .tc := ⟨.hbm, 78, rfl⟩
abbrev main_v52 : Ref sig .tc := ⟨.hbm, 79, rfl⟩
abbrev main_c_12 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_cst_13 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_call1_cst : Ref sig .tc := ⟨.hbm, 96, rfl⟩
abbrev main_call1_v0 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_cst_14 : Ref sig .tc := ⟨.hbm, 107, rfl⟩
abbrev main_v76 : Ref sig .tc := ⟨.hbm, 108, rfl⟩
abbrev main_cst_15 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_cst_16 : Ref sig .tc := ⟨.hbm, 113, rfl⟩
abbrev main_v80 : Ref sig .tc := ⟨.hbm, 114, rfl⟩
abbrev main_v81 : Ref sig .tc := ⟨.hbm, 115, rfl⟩
abbrev main_cst_17 : Ref sig .tc := ⟨.hbm, 116, rfl⟩
abbrev main_v82 : Ref sig .tc := ⟨.hbm, 117, rfl⟩
abbrev main_v83 : Ref sig .tc := ⟨.hbm, 118, rfl⟩
abbrev main_cst_18 : Ref sig .tc := ⟨.hbm, 119, rfl⟩
abbrev main_call2_v0 : Ref sig .tc := ⟨.hbm, 120, rfl⟩
abbrev main_call2_v1 : Ref sig .tc := ⟨.hbm, 121, rfl⟩
abbrev main_v84 : Ref sig .tc := ⟨.hbm, 122, rfl⟩
abbrev main_c_19 : Ref sig .tc := ⟨.hbm, 123, rfl⟩
abbrev main_v85 : Ref sig .tc := ⟨.hbm, 124, rfl⟩
abbrev main_v86 : Ref sig .tc := ⟨.hbm, 125, rfl⟩
abbrev main_c_20 : Ref sig .tc := ⟨.hbm, 126, rfl⟩
abbrev main_v87 : Ref sig .tc := ⟨.hbm, 127, rfl⟩
abbrev main_v88 : Ref sig .tc := ⟨.hbm, 128, rfl⟩
abbrev main_v89 : Ref sig .tc := ⟨.hbm, 129, rfl⟩
abbrev main_v90 : Ref sig .tc := ⟨.hbm, 130, rfl⟩
abbrev main_v91 : Ref sig .tc := ⟨.hbm, 131, rfl⟩
abbrev main_c_21 : Ref sig .tc := ⟨.hbm, 132, rfl⟩
abbrev main_v92 : Ref sig .tc := ⟨.hbm, 133, rfl⟩
abbrev main_v93 : Ref sig .tc := ⟨.hbm, 134, rfl⟩
abbrev main_c_22 : Ref sig .tc := ⟨.hbm, 135, rfl⟩
abbrev main_v94 : Ref sig .tc := ⟨.hbm, 136, rfl⟩
abbrev main_v95 : Ref sig .tc := ⟨.hbm, 137, rfl⟩
abbrev main_v96 : Ref sig .tc := ⟨.hbm, 138, rfl⟩
abbrev main_v97 : Ref sig .tc := ⟨.hbm, 139, rfl⟩
abbrev main_v98 : Ref sig .tc := ⟨.hbm, 140, rfl⟩
abbrev main_v99 : Ref sig .tc := ⟨.hbm, 141, rfl⟩
abbrev main_c_23 : Ref sig .tc := ⟨.hbm, 142, rfl⟩
abbrev main_v100 : Ref sig .tc := ⟨.hbm, 143, rfl⟩
abbrev main_v101 : Ref sig .tc := ⟨.hbm, 144, rfl⟩
abbrev main_c_24 : Ref sig .tc := ⟨.hbm, 145, rfl⟩
abbrev main_v102 : Ref sig .tc := ⟨.hbm, 146, rfl⟩
abbrev main_v103 : Ref sig .tc := ⟨.hbm, 147, rfl⟩
abbrev main_v104 : Ref sig .tc := ⟨.hbm, 148, rfl⟩
abbrev main_v105 : Ref sig .tc := ⟨.hbm, 149, rfl⟩
abbrev main_v106 : Ref sig .tc := ⟨.hbm, 150, rfl⟩
abbrev main_v107 : Ref sig .tc := ⟨.hbm, 151, rfl⟩
abbrev main_v108 : Ref sig .tc := ⟨.hbm, 152, rfl⟩
abbrev main_v109 : Ref sig .tc := ⟨.hbm, 153, rfl⟩
abbrev main_cst_25 : Ref sig .tc := ⟨.hbm, 154, rfl⟩
abbrev main_v110 : Ref sig .tc := ⟨.hbm, 155, rfl⟩
abbrev main_v111 : Ref sig .tc := ⟨.hbm, 156, rfl⟩
abbrev main_v112 : Ref sig .tc := ⟨.hbm, 157, rfl⟩
abbrev main_v113 : Ref sig .tc := ⟨.hbm, 158, rfl⟩
abbrev main_v114 : Ref sig .tc := ⟨.hbm, 159, rfl⟩
abbrev main_v115 : Ref sig .tc := ⟨.hbm, 160, rfl⟩
abbrev main_call3_cst : Ref sig .tc := ⟨.hbm, 161, rfl⟩
abbrev main_call3_v0 : Ref sig .tc := ⟨.hbm, 162, rfl⟩
abbrev main_v116 : Ref sig .tc := ⟨.hbm, 163, rfl⟩
abbrev main_v117 : Ref sig .tc := ⟨.hbm, 164, rfl⟩
abbrev main_v118 : Ref sig .tc := ⟨.hbm, 165, rfl⟩
abbrev main_v119 : Ref sig .tc := ⟨.hbm, 166, rfl⟩
abbrev main_v120 : Ref sig .tc := ⟨.hbm, 167, rfl⟩
abbrev main_v121 : Ref sig .tc := ⟨.hbm, 168, rfl⟩
abbrev main_v122 : Ref sig .tc := ⟨.hbm, 169, rfl⟩
abbrev main_v123 : Ref sig .tc := ⟨.hbm, 170, rfl⟩
abbrev main_v124 : Ref sig .tc := ⟨.hbm, 171, rfl⟩
abbrev main_cst_26 : Ref sig .tc := ⟨.hbm, 172, rfl⟩
abbrev main_v125 : Ref sig .tc := ⟨.hbm, 173, rfl⟩
abbrev main_cst_27 : Ref sig .tc := ⟨.hbm, 174, rfl⟩
abbrev main_v126 : Ref sig .tc := ⟨.hbm, 175, rfl⟩
abbrev main_v127 : Ref sig .tc := ⟨.hbm, 176, rfl⟩
abbrev main_v128 : Ref sig .tc := ⟨.hbm, 177, rfl⟩
abbrev main_cst_28 : Ref sig .tc := ⟨.hbm, 178, rfl⟩
abbrev main_v129 : Ref sig .tc := ⟨.hbm, 179, rfl⟩
abbrev main_v130 : Ref sig .tc := ⟨.hbm, 180, rfl⟩
abbrev main_cst_29 : Ref sig .tc := ⟨.hbm, 181, rfl⟩
abbrev main_v131 : Ref sig .tc := ⟨.hbm, 182, rfl⟩
abbrev main_v132 : Ref sig .tc := ⟨.hbm, 183, rfl⟩
abbrev main_cst_30 : Ref sig .tc := ⟨.hbm, 184, rfl⟩
abbrev main_call4_v0 : Ref sig .tc := ⟨.hbm, 185, rfl⟩
abbrev main_call4_v1 : Ref sig .tc := ⟨.hbm, 186, rfl⟩
abbrev main_v133 : Ref sig .tc := ⟨.hbm, 187, rfl⟩
abbrev main_c_31 : Ref sig .tc := ⟨.hbm, 188, rfl⟩
abbrev main_v134 : Ref sig .tc := ⟨.hbm, 189, rfl⟩
abbrev main_v135 : Ref sig .tc := ⟨.hbm, 190, rfl⟩
abbrev main_c_32 : Ref sig .tc := ⟨.hbm, 191, rfl⟩
abbrev main_v136 : Ref sig .tc := ⟨.hbm, 192, rfl⟩
abbrev main_v137 : Ref sig .tc := ⟨.hbm, 193, rfl⟩
abbrev main_v138 : Ref sig .tc := ⟨.hbm, 194, rfl⟩
abbrev main_v139 : Ref sig .tc := ⟨.hbm, 195, rfl⟩
abbrev main_v140 : Ref sig .tc := ⟨.hbm, 196, rfl⟩
abbrev main_c_33 : Ref sig .tc := ⟨.hbm, 197, rfl⟩
abbrev main_v141 : Ref sig .tc := ⟨.hbm, 198, rfl⟩
abbrev main_v142 : Ref sig .tc := ⟨.hbm, 199, rfl⟩
abbrev main_c_34 : Ref sig .tc := ⟨.hbm, 200, rfl⟩
abbrev main_v143 : Ref sig .tc := ⟨.hbm, 201, rfl⟩
abbrev main_v144 : Ref sig .tc := ⟨.hbm, 202, rfl⟩
abbrev main_v145 : Ref sig .tc := ⟨.hbm, 203, rfl⟩
abbrev main_v146 : Ref sig .tc := ⟨.hbm, 204, rfl⟩
abbrev main_v147 : Ref sig .tc := ⟨.hbm, 205, rfl⟩
abbrev main_v148 : Ref sig .tc := ⟨.hbm, 206, rfl⟩
abbrev main_c_35 : Ref sig .tc := ⟨.hbm, 207, rfl⟩
abbrev main_v149 : Ref sig .tc := ⟨.hbm, 208, rfl⟩
abbrev main_v150 : Ref sig .tc := ⟨.hbm, 209, rfl⟩
abbrev main_c_36 : Ref sig .tc := ⟨.hbm, 210, rfl⟩
abbrev main_v151 : Ref sig .tc := ⟨.hbm, 211, rfl⟩
abbrev main_v152 : Ref sig .tc := ⟨.hbm, 212, rfl⟩
abbrev main_v153 : Ref sig .tc := ⟨.hbm, 213, rfl⟩
abbrev main_v154 : Ref sig .tc := ⟨.hbm, 214, rfl⟩
abbrev main_v155 : Ref sig .tc := ⟨.hbm, 215, rfl⟩
abbrev main_v156 : Ref sig .tc := ⟨.hbm, 216, rfl⟩
abbrev main_v157 : Ref sig .tc := ⟨.hbm, 217, rfl⟩
abbrev main_v158 : Ref sig .tc := ⟨.hbm, 218, rfl⟩
abbrev main_cst_37 : Ref sig .tc := ⟨.hbm, 219, rfl⟩
abbrev main_v159 : Ref sig .tc := ⟨.hbm, 220, rfl⟩
abbrev main_v160 : Ref sig .tc := ⟨.hbm, 221, rfl⟩
abbrev main_v161 : Ref sig .tc := ⟨.hbm, 222, rfl⟩
abbrev main_v162 : Ref sig .tc := ⟨.hbm, 223, rfl⟩
abbrev main_v163 : Ref sig .tc := ⟨.hbm, 224, rfl⟩
abbrev main_v164 : Ref sig .tc := ⟨.hbm, 225, rfl⟩
abbrev main_call5_cst : Ref sig .tc := ⟨.hbm, 226, rfl⟩
abbrev main_call5_v0 : Ref sig .tc := ⟨.hbm, 227, rfl⟩
abbrev main_v165 : Ref sig .tc := ⟨.hbm, 228, rfl⟩
abbrev main_v166 : Ref sig .tc := ⟨.hbm, 229, rfl⟩
abbrev main_v167 : Ref sig .tc := ⟨.hbm, 230, rfl⟩
abbrev main_v168 : Ref sig .tc := ⟨.hbm, 231, rfl⟩
abbrev main_v169 : Ref sig .tc := ⟨.hbm, 232, rfl⟩
abbrev main_v170 : Ref sig .tc := ⟨.hbm, 233, rfl⟩
abbrev main_v171 : Ref sig .tc := ⟨.hbm, 234, rfl⟩
abbrev main_v172 : Ref sig .tc := ⟨.hbm, 235, rfl⟩
abbrev main_v173 : Ref sig .tc := ⟨.hbm, 236, rfl⟩
abbrev main_cst_38 : Ref sig .tc := ⟨.hbm, 237, rfl⟩
abbrev main_v174 : Ref sig .tc := ⟨.hbm, 238, rfl⟩
abbrev main_cst_39 : Ref sig .tc := ⟨.hbm, 239, rfl⟩
abbrev main_v175 : Ref sig .tc := ⟨.hbm, 240, rfl⟩
abbrev main_v176 : Ref sig .tc := ⟨.hbm, 241, rfl⟩
abbrev main_v177 : Ref sig .tc := ⟨.hbm, 242, rfl⟩
abbrev main_cst_40 : Ref sig .tc := ⟨.hbm, 243, rfl⟩
abbrev main_v178 : Ref sig .tc := ⟨.hbm, 244, rfl⟩
abbrev main_v179 : Ref sig .tc := ⟨.hbm, 245, rfl⟩
abbrev main_cst_41 : Ref sig .tc := ⟨.hbm, 246, rfl⟩
abbrev main_v180 : Ref sig .tc := ⟨.hbm, 247, rfl⟩
abbrev main_v181 : Ref sig .tc := ⟨.hbm, 248, rfl⟩
abbrev main_cst_42 : Ref sig .tc := ⟨.hbm, 249, rfl⟩
abbrev main_call6_v0 : Ref sig .tc := ⟨.hbm, 250, rfl⟩
abbrev main_call6_v1 : Ref sig .tc := ⟨.hbm, 251, rfl⟩
abbrev main_v182 : Ref sig .tc := ⟨.hbm, 252, rfl⟩
abbrev main_c_43 : Ref sig .tc := ⟨.hbm, 253, rfl⟩
abbrev main_v183 : Ref sig .tc := ⟨.hbm, 254, rfl⟩
abbrev main_v184 : Ref sig .tc := ⟨.hbm, 255, rfl⟩
abbrev main_c_44 : Ref sig .tc := ⟨.hbm, 256, rfl⟩
abbrev main_v185 : Ref sig .tc := ⟨.hbm, 257, rfl⟩
abbrev main_v186 : Ref sig .tc := ⟨.hbm, 258, rfl⟩
abbrev main_v187 : Ref sig .tc := ⟨.hbm, 259, rfl⟩
abbrev main_v188 : Ref sig .tc := ⟨.hbm, 260, rfl⟩
abbrev main_v189 : Ref sig .tc := ⟨.hbm, 261, rfl⟩
abbrev main_c_45 : Ref sig .tc := ⟨.hbm, 262, rfl⟩
abbrev main_v190 : Ref sig .tc := ⟨.hbm, 263, rfl⟩
abbrev main_v191 : Ref sig .tc := ⟨.hbm, 264, rfl⟩
abbrev main_c_46 : Ref sig .tc := ⟨.hbm, 265, rfl⟩
abbrev main_v192 : Ref sig .tc := ⟨.hbm, 266, rfl⟩
abbrev main_v193 : Ref sig .tc := ⟨.hbm, 267, rfl⟩
abbrev main_v194 : Ref sig .tc := ⟨.hbm, 268, rfl⟩
abbrev main_v195 : Ref sig .tc := ⟨.hbm, 269, rfl⟩
abbrev main_v196 : Ref sig .tc := ⟨.hbm, 270, rfl⟩
abbrev main_v197 : Ref sig .tc := ⟨.hbm, 271, rfl⟩
abbrev main_c_47 : Ref sig .tc := ⟨.hbm, 272, rfl⟩
abbrev main_v198 : Ref sig .tc := ⟨.hbm, 273, rfl⟩
abbrev main_v199 : Ref sig .tc := ⟨.hbm, 274, rfl⟩
abbrev main_c_48 : Ref sig .tc := ⟨.hbm, 275, rfl⟩
abbrev main_v200 : Ref sig .tc := ⟨.hbm, 276, rfl⟩
abbrev main_v201 : Ref sig .tc := ⟨.hbm, 277, rfl⟩
abbrev main_v202 : Ref sig .tc := ⟨.hbm, 278, rfl⟩
abbrev main_v203 : Ref sig .tc := ⟨.hbm, 279, rfl⟩
abbrev main_v204 : Ref sig .tc := ⟨.hbm, 280, rfl⟩
abbrev main_v205 : Ref sig .tc := ⟨.hbm, 281, rfl⟩
abbrev main_v206 : Ref sig .tc := ⟨.hbm, 282, rfl⟩
abbrev main_v207 : Ref sig .tc := ⟨.hbm, 283, rfl⟩
abbrev main_cst_49 : Ref sig .tc := ⟨.hbm, 284, rfl⟩
abbrev main_v208 : Ref sig .tc := ⟨.hbm, 285, rfl⟩
abbrev main_v209 : Ref sig .tc := ⟨.hbm, 286, rfl⟩
abbrev main_v210 : Ref sig .tc := ⟨.hbm, 287, rfl⟩
abbrev main_v211 : Ref sig .tc := ⟨.hbm, 288, rfl⟩
abbrev main_v212 : Ref sig .tc := ⟨.hbm, 289, rfl⟩
abbrev main_v213 : Ref sig .tc := ⟨.hbm, 290, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  concatenates_S800000_S800000_S1600000_d0 : Shape.Concatenates [S800000, S800000] S1600000 0
  concatenates_S800000x64_S800000x64_S1600000x64_d0 : Shape.Concatenates [S800000x64, S800000x64] S1600000x64 0
  bcast_S_S50000x64 : S_.BroadcastsInDim S50000x64 (![] : Fin 0 → Fin S50000x64.rank)
  bcast_S1600000_S1600000x1_0 : S1600000.BroadcastsInDim S1600000x1 (![0] : Fin 1 → Fin S1600000x1.rank)
  bcast_S_S1600000 : S_.BroadcastsInDim S1600000 (![] : Fin 0 → Fin S1600000.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x64_0_1 : S50000x1.BroadcastsInDim S50000x64 (![0, 1] : Fin 2 → Fin S50000x64.rank)
  concatenates_S50000x64_S50000x64_S50000x128_d1 : Shape.Concatenates [S50000x64, S50000x64] S50000x128 1
  concatenates_S800000_S50000_S850000_d0 : Shape.Concatenates [S800000, S50000] S850000 0
  bcast_S_S850000 : S_.BroadcastsInDim S850000 (![] : Fin 0 → Fin S850000.rank)
  bcast_S850000_S850000x1_0 : S850000.BroadcastsInDim S850000x1 (![0] : Fin 1 → Fin S850000x1.rank)
  bcast_S850000x1_S850000x256_0_1 : S850000x1.BroadcastsInDim S850000x256 (![0, 1] : Fin 2 → Fin S850000x256.rank)
  bcast_S_S50000x256 : S_.BroadcastsInDim S50000x256 (![] : Fin 0 → Fin S50000x256.rank)
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  scatter_S50000x64_S1600000x1_S1600000x64_1_0_0_1_wf : ScatterDims.WF S50000x64 S1600000x1 S1600000x64 [1] [0] [0] 1
  scatter_S50000_S1600000x1_S1600000_n_0_0_1_wf : ScatterDims.WF S50000 S1600000x1 S1600000 [] [0] [0] 1
  dot_S50000x128_S128x256_S50000x256_1_0_0_1_n_n_wf : DotDims.WF S50000x128 S128x256 S50000x256 [1] [0] [0] [1] [] []
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  gather_S50000x256_S850000x1_S850000x256_1_0_n_n_0_1_1256_wf : GatherDims.WF S50000x256 S850000x1 S850000x256 [1] [0] [] [0] [] 1 ![1, 256]
  scatter_S50000x256_S850000x1_S850000x256_1_0_0_1_wf : ScatterDims.WF S50000x256 S850000x1 S850000x256 [1] [0] [0] 1
  dot_S50000x256_S256x128_S50000x128_1_0_0_1_n_n_wf : DotDims.WF S50000x256 S256x128 S50000x128 [1] [0] [0] [1] [] []
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1

variable [Facts₀]

def scatter_S50000x64_S1600000x1_S1600000x64_1_0_0_1 : ScatterDims S50000x64 S1600000x1 S1600000x64 where
  updateWindowDims := [1]
  insertedWindowDims := [0]
  scatterDimsToOperandDims := [0]
  indexVectorDim := 1
  wf := scatter_S50000x64_S1600000x1_S1600000x64_1_0_0_1_wf
def scatter_S50000_S1600000x1_S1600000_n_0_0_1 : ScatterDims S50000 S1600000x1 S1600000 where
  updateWindowDims := []
  insertedWindowDims := [0]
  scatterDimsToOperandDims := [0]
  indexVectorDim := 1
  wf := scatter_S50000_S1600000x1_S1600000_n_0_0_1_wf
def dot_S50000x128_S128x256_S50000x256_1_0_0_1_n_n : DotDims S50000x128 S128x256 S50000x256 where
  lhsContracting := [1]
  rhsContracting := [0]
  lhsNonContracting := [0]
  rhsNonContracting := [1]
  lhsBatch := []
  rhsBatch := []
  wf := dot_S50000x128_S128x256_S50000x256_1_0_0_1_n_n_wf
def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def gather_S50000x256_S850000x1_S850000x256_1_0_n_n_0_1_1256 : GatherDims S50000x256 S850000x1 S850000x256 where
  offsetDims := [1]
  collapsedSliceDims := [0]
  operandBatchingDims := []
  startIndicesBatchingDims := []
  startIndexMap := [0]
  indexVectorDim := 1
  sliceSizes := ![1, 256]
  wf := gather_S50000x256_S850000x1_S850000x256_1_0_n_n_0_1_1256_wf
def scatter_S50000x256_S850000x1_S850000x256_1_0_0_1 : ScatterDims S50000x256 S850000x1 S850000x256 where
  updateWindowDims := [1]
  insertedWindowDims := [0]
  scatterDimsToOperandDims := [0]
  indexVectorDim := 1
  wf := scatter_S50000x256_S850000x1_S850000x256_1_0_0_1_wf
def dot_S50000x256_S256x128_S50000x128_1_0_0_1_n_n : DotDims S50000x256 S256x128 S50000x128 where
  lhsContracting := [1]
  rhsContracting := [0]
  lhsNonContracting := [0]
  rhsNonContracting := [1]
  lhsBatch := []
  rhsBatch := []
  wf := dot_S50000x256_S256x128_S50000x128_1_0_0_1_n_n_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf

class Facts : Prop extends Facts₀ where

variable [Facts]
-- ==== Proof.Spec.lean ====
/-
  The two programs as compositions of named stages, at the ideal values (floats are extended reals).

  The graph: 50000 nodes, 800000 edges given by a 2×800000 integer array (sources in line 0, targets in line 1), and a
  self-loop at every node, so 850000 entries in all. `rowV` / `colV` are the sources / targets with the self-loops appended;
  `degV` counts, per node, the entries whose target is the node; `dinvV` is deg^(-1/2) where deg > 0 and 0 elsewhere;
  `normV` is the per-entry weight dinv(source) · dinv(target). A negative index is wrapped once by 50000 before a lookup
  (`wrapIdx`); a lookup clamps, an accumulation drops what falls outside.

  One propagation step at width C (`agg128`, `agg256`): row n of the result is the sum, over the entries e whose target is n,
  of norm(e) times row source(e) of the operand. The node features `h0V` are the 64 given columns joined with 64 columns of
  averaged edge attributes.

  The reference does four layers "product with the weights, then propagate, then add the bias" (`refOut`). The kernel
  does the first and third layer in the other order — propagate at the narrow width, then the product with the bias and
  the rectifier fused (`denseRelu`) — and the second and fourth as the reference does, with the product `dense` computed
  blockwise (`kerOut`). That `kerOut` and `refOut` agree on real inputs is the associativity
  (A·X)·W = A·(X·W) of the propagation matrix A, the features X and the weights W.
-/
import proofs.«155732_j35897336660442_2_alg».proof.Proof.Gen.KernelIdeal
import proofs.«155732_j35897336660442_2_alg».proof.Proof.Gen.ReferenceIdeal
import Idealize.ShloMosaic.PureOps.Ideal
import Idealize.ShloMosaic.Lib.ValueIdx

noncomputable section

open scoped BigOperators

namespace Cert.Spec

open Idealize.ShloMosaic Idealize.ShloMosaic.ValueIdx Cert.ReferenceIdeal Cert.ReferenceIdeal.Facts₀

/-- Sources of the 800000 edges, then the 50000 self-loops. -/
def rowV (ei : IVec S2x800000 32) : IVec S850000 32 :=
  concatenate S850000 0 [⟨S800000, (shapeCast _ (extractStridedSlice S1x800000 ![0, 0] ei slices_S2x800000_S1x800000_0_0) shapeCasts_S1x800000_S800000)⟩, ⟨S50000, (iotaInDim S50000 32 0)⟩] concatenates_S800000_S50000_S850000_d0

/-- Targets of the 800000 edges, then the 50000 self-loops. -/
def colV (ei : IVec S2x800000 32) : IVec S850000 32 :=
  concatenate S850000 0 [⟨S800000, (shapeCast _ (extractStridedSlice S1x800000 ![1, 0] ei slices_S2x800000_S1x800000_1_0) shapeCasts_S1x800000_S800000)⟩, ⟨S50000, (iotaInDim S50000 32 0)⟩] concatenates_S800000_S50000_S850000_d0

/-- An index vector as a column of lookup positions: a negative entry is increased by 50000 first. -/
def wrapIdx (v : IVec S850000 32) : IVec S850000x1 32 :=
  broadcastInDim S850000x1 ![0] bcast_S850000_S850000x1_0 (select (cmpi .slt v (broadcastInDim S850000 ![] bcast_S_S850000 (constantI S_ 32 0#32))) (addi v (broadcastInDim S850000 ![] bcast_S_S850000 (constantI S_ 32 50000#32))) v)

/-- The targets as a column of accumulation positions (not wrapped). -/
def colIdx (ei : IVec S2x800000 32) : IVec S850000x1 32 :=
  broadcastInDim S850000x1 ![0] bcast_S850000_S850000x1_0 (colV ei)

/-- Per node, the number of entries whose target it is. -/
def degV (ei : IVec S2x800000 32) : FVec Ideal S50000 .f32 :=
  Host.scatterAdd scatter_S50000_S850000x1_S850000_n_0_0_1 (broadcastInDim S50000 ![] bcast_S_S50000 (constant S_ .f32 0x00000000#32)) (colIdx ei) (broadcastInDim S850000 ![] bcast_S_S850000 (constant S_ .f32 0x3F800000#32))

/-- deg^(-1/2) where deg > 0, and 0 elsewhere. -/
def dinvV (ei : IVec S2x800000 32) : FVec Ideal S50000 .f32 :=
  select (cmpf (F := Ideal) .ogt (degV ei) (broadcastInDim S50000 ![] bcast_S_S50000 (constant S_ .f32 0x00000000#32))) (Host.powf (degV ei) (broadcastInDim S50000 ![] bcast_S_S50000 (constant S_ .f32 0xBF000000#32))) (broadcastInDim S50000 ![] bcast_S_S50000 (id (constant S_ .f32 0x00000000#32)))

/-- The weight of entry e: dinv at its source times dinv at its target. -/
def normV (ei : IVec S2x800000 32) : FVec Ideal S850000 .f32 :=
  mulf (Host.gather gather_S50000_S850000x1_S850000_n_0_n_n_0_1_1 (dinvV ei) (wrapIdx (rowV ei))) (Host.gather gather_S50000_S850000x1_S850000_n_0_n_n_0_1_1 (dinvV ei) (wrapIdx (colV ei)))

/-- One propagation step at width 128. -/
def agg128 (ei : IVec S2x800000 32) (X : FVec Ideal S50000x128 .f32) : FVec Ideal S50000x128 .f32 :=
  Host.scatterAdd scatter_S50000x128_S850000x1_S850000x128_1_0_0_1 (broadcastInDim S50000x128 ![] bcast_S_S50000x128 (constant S_ .f32 0x00000000#32)) (colIdx ei) (mulf (Host.gather gather_S50000x128_S850000x1_S850000x128_1_0_n_n_0_1_1128 X (wrapIdx (rowV ei))) (broadcastInDim S850000x128 ![0, 1] bcast_S850000x1_S850000x128_0_1 (broadcastInDim S850000x1 ![0] bcast_S850000_S850000x1_0 (normV ei))))

/-- One propagation step at width 256. -/
def agg256 (ei : IVec S2x800000 32) (X : FVec Ideal S50000x256 .f32) : FVec Ideal S50000x256 .f32 :=
  Host.scatterAdd scatter_S50000x256_S850000x1_S850000x256_1_0_0_1 (broadcastInDim S50000x256 ![] bcast_S_S50000x256 (constant S_ .f32 0x00000000#32)) (colIdx ei) (mulf (Host.gather gather_S50000x256_S850000x1_S850000x256_1_0_n_n_0_1_1256 X (wrapIdx (rowV ei))) (broadcastInDim S850000x256 ![0, 1] bcast_S850000x1_S850000x256_0_1 (broadcastInDim S850000x1 ![0] bcast_S850000_S850000x1_0 (normV ei))))

/-- The node features: the given 64 columns, then per node the sum of the attributes of its incident edges (each edge
    counted at both ends) over the number of such incidences plus 1e-8. -/
def h0V (x : FVec Ideal S50000x64 .f32) (ei : IVec S2x800000 32) (ea : FVec Ideal S800000x64 .f32) : FVec Ideal S50000x128 .f32 :=
  concatenate S50000x128 1 [⟨S50000x64, x⟩, ⟨S50000x64, (Host.divf (Host.scatterAdd scatter_S50000x64_S1600000x1_S1600000x64_1_0_0_1 (broadcastInDim S50000x64 ![] bcast_S_S50000x64 (constant S_ .f32 0x00000000#32)) (broadcastInDim S1600000x1 ![0] bcast_S1600000_S1600000x1_0 (concatenate S1600000 0 [⟨S800000, (shapeCast _ (extractStridedSlice S1x800000 ![0, 0] ei slices_S2x800000_S1x800000_0_0) shapeCasts_S1x800000_S800000)⟩, ⟨S800000, (shapeCast _ (extractStridedSlice S1x800000 ![1, 0] ei slices_S2x800000_S1x800000_1_0) shapeCasts_S1x800000_S800000)⟩] concatenates_S800000_S800000_S1600000_d0)) (concatenate S1600000x64 0 [⟨S800000x64, ea⟩, ⟨S800000x64, ea⟩] concatenates_S800000x64_S800000x64_S1600000x64_d0)) (broadcastInDim S50000x64 ![0, 1] bcast_S50000x1_S50000x64_0_1 (broadcastInDim S50000x1 ![0] bcast_S50000_S50000x1_0 (addf (Host.scatterAdd scatter_S50000_S1600000x1_S1600000_n_0_0_1 (broadcastInDim S50000 ![] bcast_S_S50000 (constant S_ .f32 0x00000000#32)) (broadcastInDim S1600000x1 ![0] bcast_S1600000_S1600000x1_0 (concatenate S1600000 0 [⟨S800000, (shapeCast _ (extractStridedSlice S1x800000 ![0, 0] ei slices_S2x800000_S1x800000_0_0) shapeCasts_S1x800000_S800000)⟩, ⟨S800000, (shapeCast _ (extractStridedSlice S1x800000 ![1, 0] ei slices_S2x800000_S1x800000_1_0) shapeCasts_S1x800000_S800000)⟩] concatenates_S800000_S800000_S1600000_d0)) (broadcastInDim S1600000 ![] bcast_S_S1600000 (constant S_ .f32 0x3F800000#32))) (broadcastInDim S50000 ![] bcast_S_S50000 (constant S_ .f32 0x322BCC77#32))))))⟩] concatenates_S50000x64_S50000x64_S50000x128_d1

/-- Adding a bias of 256 entries to every row. -/
def bias256 (X : FVec Ideal S50000x256 .f32) (b : FVec Ideal S256 .f32) : FVec Ideal S50000x256 .f32 :=
  addf X (broadcastInDim S50000x256 ![0, 1] bcast_S1x256_S50000x256_0_1 (broadcastInDim S1x256 ![1] bcast_S256_S1x256_1 b))

/-- Adding a bias of 128 entries to every row. -/
def bias128 (X : FVec Ideal S50000x128 .f32) (b : FVec Ideal S128 .f32) : FVec Ideal S50000x128 .f32 :=
  addf X (broadcastInDim S50000x128 ![0, 1] bcast_S1x128_S50000x128_0_1 (broadcastInDim S1x128 ![1] bcast_S128_S1x128_1 b))

/-- The rectifier max(·, 0), width 256. -/
def relu256 (X : FVec Ideal S50000x256 .f32) : FVec Ideal S50000x256 .f32 :=
  maximumf X (broadcastInDim S50000x256 ![] bcast_S_S50000x256 (constant S_ .f32 0x00000000#32))

/-- The rectifier max(·, 0), width 128. -/
def relu128 (X : FVec Ideal S50000x128 .f32) : FVec Ideal S50000x128 .f32 :=
  maximumf X (broadcastInDim S50000x128 ![] bcast_S_S50000x128 (constant S_ .f32 0x00000000#32))

/-- The host's product of a 50000×128 by a 128×256 matrix. -/
def mmA (X : FVec Ideal S50000x128 .f32) (W : FVec Ideal S128x256 .f32) : FVec Ideal S50000x256 .f32 :=
  Host.dotGeneral dot_S50000x128_S128x256_S50000x256_1_0_0_1_n_n none X W

/-- The host's product of a 50000×256 by a 256×128 matrix. -/
def mmB (X : FVec Ideal S50000x256 .f32) (W : FVec Ideal S256x128 .f32) : FVec Ideal S50000x128 .f32 :=
  Host.dotGeneral dot_S50000x256_S256x128_S50000x128_1_0_0_1_n_n none X W

/-- The reference: four layers, each "product, propagate, add the bias", a rectifier after the first three. -/
def refOut (x : FVec Ideal S50000x64 .f32) (ei : IVec S2x800000 32) (ea : FVec Ideal S800000x64 .f32)
    (W1 : FVec Ideal S128x256 .f32) (b1 : FVec Ideal S256 .f32) (W2 : FVec Ideal S256x128 .f32) (b2 : FVec Ideal S128 .f32)
    (Wd1 : FVec Ideal S128x256 .f32) (bd1 : FVec Ideal S256 .f32) (Wd2 : FVec Ideal S256x128 .f32) (bd2 : FVec Ideal S128 .f32) :
    FVec Ideal S50000x128 .f32 :=
  bias128 (agg128 ei (mmB (relu256 (bias256 (agg256 ei (mmA (relu128 (bias128 (agg128 ei (mmB (relu256 (bias256 (agg256 ei
    (mmA (h0V x ei ea) W1)) b1)) W2)) b2)) Wd1)) bd1)) Wd2)) bd2

/-- What the kernel's first and third calls leave, as one array: max((X·W)(r, c) + b(0, c), 0). -/
def denseRelu (X : FVec Ideal S50000x128 .f32) (W : FVec Ideal S128x256 .f32) (b : FVec Ideal S1x256 .f32) : FVec Ideal S50000x256 .f32 :=
  fun i => max ((∑ k : Fin 128, X (ix2 (i 0) k) * W (ix2 k (i 1))) + b (ix2 (0 : Fin 1) (i 1))) (Ideal.ofBits .f32 0x00000000#32)

/-- What the kernel's second and fourth calls leave, as one array: (X·W)(r, c). -/
def dense (X : FVec Ideal S50000x256 .f32) (W : FVec Ideal S256x128 .f32) : FVec Ideal S50000x128 .f32 :=
  fun i => ∑ k : Fin 256, X (ix2 (i 0) k) * W (ix2 k (i 1))

/-- A bias of 256 entries viewed as a 1×256 row (the kernel's host side reshapes it). -/
def biasRow (b : FVec Ideal S256 .f32) : FVec Ideal S1x256 .f32 :=
  shapeCast S1x256 b Cert.KernelIdeal.Facts₀.shapeCasts_S256_S1x256

/-- The kernel: layers one and three propagate first and then take the fused product; layers two and four take the
    product first. -/
def kerOut (x : FVec Ideal S50000x64 .f32) (ei : IVec S2x800000 32) (ea : FVec Ideal S800000x64 .f32)
    (W1 : FVec Ideal S128x256 .f32) (b1 : FVec Ideal S256 .f32) (W2 : FVec Ideal S256x128 .f32) (b2 : FVec Ideal S128 .f32)
    (Wd1 : FVec Ideal S128x256 .f32) (bd1 : FVec Ideal S256 .f32) (Wd2 : FVec Ideal S256x128 .f32) (bd2 : FVec Ideal S128 .f32) :
    FVec Ideal S50000x128 .f32 :=
  bias128 (agg128 ei (dense (denseRelu (agg128 ei (relu128 (bias128 (agg128 ei (dense (denseRelu (agg128 ei (h0V x ei ea))
    W1 (biasRow b1)) W2)) b2))) Wd1 (biasRow bd1)) Wd2)) bd2

/-- Every entry of the array is a real number (neither infinity). -/
def AllReal {s : Shape} {φ : FTy} (v : FVec Ideal s φ) : Prop := ∀ i, ∃ r : ℝ, v i = (r : EReal)

end Cert.Spec

end
-- ==== Proof.RefValue.lean ====
/-
  The reference's result, as the run states it, is the four-layer composition `Spec.refOut` of its eleven argument arrays:
  the run's term is the same operations written out in one line, so the two agree by unfolding the named stages.
-/
import proofs.«155732_j35897336660442_2_alg».proof.Proof.RefRun
import proofs.«155732_j35897336660442_2_alg».proof.Proof.Spec

set_option maxRecDepth 16384

noncomputable section

namespace Cert.RefValue

open Idealize.ShloMosaic Idealize.SL.Sem

/-- The reference's result buffer after the run is `Spec.refOut` of the launch contents of the arguments. -/
theorem res_eq (m : (ℓ : Loc Cert.ReferenceIdeal.nD Cert.ReferenceIdeal.τ Cert.ReferenceIdeal.sig) → Buf (Elt Ideal) ℓ)
    (c : Dev Cert.ReferenceIdeal.nD) :
    Cert.ReferenceIdeal.ValueP.res_main_v213 (F := Ideal) m c
      = Cert.Spec.refOut (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) := by
  unfold Cert.ReferenceIdeal.ValueP.res_main_v213 Cert.Spec.refOut Cert.Spec.bias128 Cert.Spec.bias256 Cert.Spec.relu128 Cert.Spec.relu256
    Cert.Spec.mmA Cert.Spec.mmB Cert.Spec.agg128 Cert.Spec.agg256 Cert.Spec.h0V Cert.Spec.normV Cert.Spec.dinvV Cert.Spec.degV
    Cert.Spec.colIdx Cert.Spec.wrapIdx Cert.Spec.rowV Cert.Spec.colV
  rfl

end Cert.RefValue

end
-- ==== Proof.KerRun.lean ====
/-
  The idealized kernel's run with its result named.

  @main is seven segments: a stretch of host operations, two kernel calls, a second stretch, two more calls, a last
  stretch. The buffer contents after each segment are a fold from the launch memory; the last of them, at the result
  buffer, is what every terminating execution leaves there. This module states the run with that value in its
  postcondition, beside the argument arrays ending as launched.
-/
import proofs.«155732_j35897336660442_2_alg».proof.Proof.Gen.KernelIdeal.Frame

set_option maxRecDepth 16384

noncomputable section

namespace Cert.KerRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates without a fault; the result buffer then holds the last segment
    boundary's contents at that buffer, and every argument array is as launched. -/
theorem run_value : θ_run defs (onTc (τ := τ) (main (F := F))) ⟨m, fun _ => 0, ρ⟩ (fun r => ∀ c : Dev nD,
      r.2.mem ((c.tc : Thread nD τ).loc main_v0) = W7 m ρ c (Proc.devRef .tc main_v0)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h c =>
      ⟨h c _ (mem_uc main_v0 (by decide)),
       (h c _ (mem_uc main_arg0 (by decide))).trans (W7_main_arg0 m ρ c),
       (h c _ (mem_uc main_arg1 (by decide))).trans (W7_main_arg1 m ρ c),
       (h c _ (mem_uc main_arg2 (by decide))).trans (W7_main_arg2 m ρ c),
       (h c _ (mem_uc main_arg3 (by decide))).trans (W7_main_arg3 m ρ c),
       (h c _ (mem_uc main_arg4 (by decide))).trans (W7_main_arg4 m ρ c),
       (h c _ (mem_uc main_arg5 (by decide))).trans (W7_main_arg5 m ρ c),
       (h c _ (mem_uc main_arg6 (by decide))).trans (W7_main_arg6 m ρ c),
       (h c _ (mem_uc main_arg7 (by decide))).trans (W7_main_arg7 m ρ c),
       (h c _ (mem_uc main_arg8 (by decide))).trans (W7_main_arg8 m ρ c),
       (h c _ (mem_uc main_arg9 (by decide))).trans (W7_main_arg9 m ρ c),
       (h c _ (mem_uc main_arg10 (by decide))).trans (W7_main_arg10 m ρ c)⟩)

end Cert.KerRun

end
-- ==== Proof.KerHost.lean ====
/-
  What the idealized kernel's first stretch of host operations computes, from an arbitrary assignment of contents to the
  buffers it starts from.

  The stretch builds the edge data — the sources and targets with the self-loops appended, the degree of every node, its
  power -1/2 (zero where the degree is not positive), the per-entry weights —, the node features (the given columns joined
  with the averaged edge attributes) and their first propagation, and views the first bias as a row. Each result is the
  composition of the stretch's operations, read off the list operation by operation. The compositions are the stages of
  the specification: an earlier stage's composed term is replaced by its name before the next stage is compared, so that
  every comparison is between two single operations over named operands.
-/
import proofs.«155732_j35897336660442_2_alg».proof.Proof.Gen.KernelIdeal.Launch
import proofs.«155732_j35897336660442_2_alg».proof.Proof.Spec
import Idealize.ShloMosaic.Lib.StableHlo.Run

set_option maxRecDepth 16384

noncomputable section

namespace Cert.KerHost

open Cert.KernelIdeal Cert.KernelIdeal.Gen
open Idealize.ShloMosaic Idealize.ShloMosaic.StableHlo Idealize.SL.Sem

/-- A concatenation of two pieces depends on the pieces only through their values: rewriting a piece rewrites the
    concatenation (the side condition speaks of the pieces' shapes alone). -/
theorem concatenate_pair_congr {α : Type} {t s₁ s₂ : Shape} (a : Fin t.rank) (x₁ x₁' : s₁.Idx → α) (x₂ x₂' : s₂.Idx → α)
    (h : Shape.Concatenates [s₁, s₂] t a) (e₁ : x₁ = x₁') (e₂ : x₂ = x₂') :
    concatenate t a [⟨s₁, x₁⟩, ⟨s₂, x₂⟩] h = concatenate t a [⟨s₁, x₁'⟩, ⟨s₂, x₂'⟩] h := by
  subst e₁; subst e₂; rfl

attribute [local congr] concatenate_pair_congr

/-- A transport there and back is the identity. -/
theorem cast_roundtrip {α β : Sort _} (h : α = β) (h' : β = α) (x : α) : cast h' (cast h x) = x := by
  subst h; rfl

/-- The fold of a stretch at a buffer, opened operation by operation, in a hypothesis. -/
macro "results_at " h:ident : tactic =>
  `(tactic| simp (disch := decide) only [after_cons, after_nil,
      nullary_result', unary_result', binary_result', ternary_result', quaternary_result', reshape_result', nary4_result', nary_result',
      unaryIndexed_result', binaryIndexed_result',
      nullary_result_ne', unary_result_ne', binary_result_ne', ternary_result_ne', quaternary_result_ne', reshape_result_ne',
      nary_result_ne', unaryIndexed_result_ne', binaryIndexed_result_ne'] at $h:ident)

/-- The transports between a buffer's type and its value's type, which are identities, removed in a hypothesis. -/
macro "casts_at " h:ident : tactic =>
  `(tactic| (try simp only [TRef.ofBuf, TRef.toBuf, cast_roundtrip] at $h:ident
             try simp only [cast_eq] at $h:ident))

/-- The same in the goal. -/
macro "casts_goal" : tactic =>
  `(tactic| (try simp only [TRef.ofBuf, TRef.toBuf, cast_roundtrip]
             try simp only [cast_eq]))

/-- Both ends of every edge: the sources, then the targets. -/
def idxV (ei : IVec S2x800000 32) : IVec S1600000 32 :=
  concatenate S1600000 0 [⟨S800000, (shapeCast _ (extractStridedSlice S1x800000 ![0, 0] ei slices_S2x800000_S1x800000_0_0) shapeCasts_S1x800000_S800000)⟩, ⟨S800000, (shapeCast _ (extractStridedSlice S1x800000 ![1, 0] ei slices_S2x800000_S1x800000_1_0) shapeCasts_S1x800000_S800000)⟩] concatenates_S800000_S800000_S1600000_d0

variable (W : Valuation τ sig (Elt Ideal))

set_option maxHeartbeats 4000000 in
/-- After the first stretch the sources buffer holds the sources with the self-loops appended. -/
theorem host0_row :
    StableHlo.after hostOps0 W (Proc.devRef .tc main_call0_v3) = Spec.rowV (W (Proc.devRef .tc main_arg1)) := by
  show StableHlo.after hostOps0 W (Proc.devRef .tc main_call0_v3) = _
  after_results_simp
  casts_goal
  rfl

set_option maxHeartbeats 4000000 in
/-- After the first stretch the targets buffer holds the targets with the self-loops appended. -/
theorem host0_col :
    StableHlo.after hostOps0 W (Proc.devRef .tc main_call0_v6) = Spec.colV (W (Proc.devRef .tc main_arg1)) := by
  show StableHlo.after hostOps0 W (Proc.devRef .tc main_call0_v6) = _
  after_results_simp
  casts_goal
  rfl

set_option maxHeartbeats 4000000 in
/-- After the first stretch the degree buffer holds, per node, the number of entries whose target it is. -/
theorem host0_deg :
    StableHlo.after hostOps0 W (Proc.devRef .tc main_call0_v10) = Spec.degV (W (Proc.devRef .tc main_arg1)) := by
  have h0 := host0_col W
  results_at h0
  casts_at h0
  show StableHlo.after hostOps0 W (Proc.devRef .tc main_call0_v10) = _
  after_results_simp
  casts_goal
  rw [h0]
  rfl

set_option maxHeartbeats 4000000 in
/-- After the first stretch the buffer of the select's result holds deg^(-1/2) where the degree is positive and zero elsewhere. -/
theorem host0_dinv :
    StableHlo.after hostOps0 W (Proc.devRef .tc main_call0_v15) = Spec.dinvV (W (Proc.devRef .tc main_arg1)) := by
  have h0 := host0_deg W
  results_at h0
  casts_at h0
  show StableHlo.after hostOps0 W (Proc.devRef .tc main_call0_v15) = _
  after_results_simp
  casts_goal
  rw [h0]
  rfl

set_option maxHeartbeats 4000000 in
/-- After the first stretch the weights buffer holds the per-entry weights. -/
theorem host0_norm :
    StableHlo.after hostOps0 W (Proc.devRef .tc main_call0_v30) = Spec.normV (W (Proc.devRef .tc main_arg1)) := by
  have h0 := host0_dinv W
  results_at h0
  casts_at h0
  have h1 := host0_row W
  results_at h1
  casts_at h1
  have h2 := host0_col W
  results_at h2
  casts_at h2
  show StableHlo.after hostOps0 W (Proc.devRef .tc main_call0_v30) = _
  after_results_simp
  casts_goal
  rw [h0, h1, h2]
  rfl

set_option maxHeartbeats 4000000 in
/-- After the first stretch the buffer of both ends holds the sources, then the targets. -/
theorem host0_idx :
    StableHlo.after hostOps0 W (Proc.devRef .tc main_call0_v35) = idxV (W (Proc.devRef .tc main_arg1)) := by
  show StableHlo.after hostOps0 W (Proc.devRef .tc main_call0_v35) = _
  after_results_simp
  casts_goal
  rfl

set_option maxHeartbeats 4000000 in
/-- After the first stretch the features buffer holds the given columns joined with the averaged edge attributes. -/
theorem host0_h0 :
    StableHlo.after hostOps0 W (Proc.devRef .tc main_call0_v49) = Spec.h0V (W (Proc.devRef .tc main_arg0)) (W (Proc.devRef .tc main_arg1)) (W (Proc.devRef .tc main_arg2)) := by
  have h0 := host0_idx W
  results_at h0
  casts_at h0
  show StableHlo.after hostOps0 W (Proc.devRef .tc main_call0_v49) = _
  after_results_simp
  casts_goal
  rw [h0]
  rfl

set_option maxHeartbeats 4000000 in
/-- After the first stretch the first call's operand holds one propagation step of the node features. -/
theorem host0_agg :
    StableHlo.after hostOps0 W (Proc.devRef .tc main_call0_v62) = Spec.agg128 (W (Proc.devRef .tc main_arg1)) (Spec.h0V (W (Proc.devRef .tc main_arg0)) (W (Proc.devRef .tc main_arg1)) (W (Proc.devRef .tc main_arg2))) := by
  have h0 := host0_h0 W
  results_at h0
  casts_at h0
  have h1 := host0_norm W
  results_at h1
  casts_at h1
  have h2 := host0_row W
  results_at h2
  casts_at h2
  have h3 := host0_col W
  results_at h3
  casts_at h3
  show StableHlo.after hostOps0 W (Proc.devRef .tc main_call0_v62) = _
  after_results_simp
  casts_goal
  rw [h0, h1, h2, h3]
  rfl

set_option maxHeartbeats 4000000 in
/-- After the first stretch the first bias is viewed as a row. -/
theorem host0_bias :
    StableHlo.after hostOps0 W (Proc.devRef .tc main_call0_v63) = Spec.biasRow (W (Proc.devRef .tc main_arg4)) := by
  show StableHlo.after hostOps0 W (Proc.devRef .tc main_call0_v63) = _
  after_results_simp
  casts_goal
  rfl

end Cert.KerHost

end
-- ==== Proof.KerHostB.lean ====
/-
  What the idealized kernel's second and third stretches of host operations compute, from an arbitrary starting valuation.

  The second stretch takes the output of the second blockwise call through one propagation step, adds a bias of 128 entries to
  every row, applies the rectifier max(·, 0), and takes the result through a second propagation step; it also views the next
  bias of 256 entries as a 1×256 row. The third stretch takes the output of the fourth blockwise call through one propagation
  step and adds the last bias. A propagation step reads, for every entry e of the edge list, row source(e) of its operand
  (a negative source increased by 50000 first), scales it by the weight of e, and accumulates it into row target(e) of a zero
  array. The stretches recompute the wrapped sources each time; the three edge arrays (sources, targets, weights) are read
  from the valuation, so a step is stated here with them as parameters.
-/
import proofs.«155732_j35897336660442_2_alg».proof.Proof.Gen.KernelIdeal.Launch
import proofs.«155732_j35897336660442_2_alg».proof.Proof.Spec
import Idealize.ShloMosaic.Lib.StableHlo.Run

noncomputable section

namespace Cert.KerHostB

section Stage

open Idealize.ShloMosaic Cert.ReferenceIdeal Cert.ReferenceIdeal.Facts₀

/-- One propagation step at width 128 with the edge data as parameters: sources row, targets col, weights nrm. -/
def aggG (row col : IVec S850000 32) (nrm : FVec Ideal S850000 .f32) (X : FVec Ideal S50000x128 .f32) : FVec Ideal S50000x128 .f32 :=
  Host.scatterAdd scatter_S50000x128_S850000x1_S850000x128_1_0_0_1 (broadcastInDim S50000x128 ![] bcast_S_S50000x128 (constant S_ .f32 0x00000000#32)) (broadcastInDim S850000x1 ![0] bcast_S850000_S850000x1_0 col) (mulf (Host.gather gather_S50000x128_S850000x1_S850000x128_1_0_n_n_0_1_1128 X (Spec.wrapIdx row)) (broadcastInDim S850000x128 ![0, 1] bcast_S850000x1_S850000x128_0_1 (broadcastInDim S850000x1 ![0] bcast_S850000_S850000x1_0 nrm)))

/-- At the edge data of an edge list it is the propagation step of that edge list. -/
theorem aggG_spec (ei : IVec S2x800000 32) (X : FVec Ideal S50000x128 .f32) :
    aggG (Spec.rowV ei) (Spec.colV ei) (Spec.normV ei) X = Spec.agg128 ei X := rfl

end Stage

/-- Transporting along an equality of types and back is the identity. -/
theorem cast_roundtrip {α β : Sort _} (h : α = β) (h' : β = α) (x : α) : cast h' (cast h x) = x := by
  subst h; rfl

section KernelStage

open Idealize.ShloMosaic Cert.KernelIdeal Cert.KernelIdeal.Facts₀

/-- The propagation step as the kernel's host operations spell it: the same operations over the kernel's own dimension records. -/
def aggK (row col : IVec S850000 32) (nrm : FVec Ideal S850000 .f32) (X : FVec Ideal S50000x128 .f32) : FVec Ideal S50000x128 .f32 :=
  Host.scatterAdd scatter_S50000x128_S850000x1_S850000x128_1_0_0_1 (broadcastInDim S50000x128 ![] bcast_S_S50000x128 (constant S_ .f32 0x00000000#32)) (broadcastInDim S850000x1 ![0] bcast_S850000_S850000x1_0 col) (mulf (Host.gather gather_S50000x128_S850000x1_S850000x128_1_0_n_n_0_1_1128 X (broadcastInDim S850000x1 ![0] bcast_S850000_S850000x1_0 (select (cmpi .slt row (broadcastInDim S850000 ![] bcast_S_S850000 (constantI S_ 32 0#32))) (addi row (broadcastInDim S850000 ![] bcast_S_S850000 (constantI S_ 32 50000#32))) row))) (broadcastInDim S850000x128 ![0, 1] bcast_S850000x1_S850000x128_0_1 (broadcastInDim S850000x1 ![0] bcast_S850000_S850000x1_0 nrm)))

/-- The two programs' accumulation records are the same record. -/
theorem scatter_eq : Cert.KernelIdeal.scatter_S50000x128_S850000x1_S850000x128_1_0_0_1 = Cert.ReferenceIdeal.scatter_S50000x128_S850000x1_S850000x128_1_0_0_1 := rfl
/-- The two programs' lookup records are the same record. -/
theorem gather_eq : Cert.KernelIdeal.gather_S50000x128_S850000x1_S850000x128_1_0_n_n_0_1_1128 = Cert.ReferenceIdeal.gather_S50000x128_S850000x1_S850000x128_1_0_n_n_0_1_1128 := rfl

/-- The kernel's spelling of the step is the step. -/
theorem aggK_eq (row col : IVec S850000 32) (nrm : FVec Ideal S850000 .f32) (X : FVec Ideal S50000x128 .f32) :
    aggK row col nrm X = aggG row col nrm X := by
  unfold aggK aggG Spec.wrapIdx
  rw [scatter_eq, gather_eq]

end KernelStage
section Host

open Cert.KernelIdeal Cert.KernelIdeal.Gen Idealize.ShloMosaic Idealize.ShloMosaic.StableHlo Idealize.SL.Sem

set_option maxHeartbeats 4000000 in
/-- The second stretch leaves, as the bias row of the next call, the 256 bias entries viewed as a 1×256 row. -/
theorem host2_bias (W : Valuation τ sig (Elt Ideal)) :
    StableHlo.after (hostOps2 (F := Ideal)) W (Proc.devRef .tc main_call0_v96) = Spec.biasRow (W (Proc.devRef .tc main_arg8)) := by
  after_results_simp
  rfl

set_option maxHeartbeats 4000000 in
/-- The third stretch leaves, as the kernel's result, one propagation step of the fourth call's output plus the last bias. -/
theorem host4_out (W : Valuation τ sig (Elt Ideal)) :
    StableHlo.after (hostOps4 (F := Ideal)) W (Proc.devRef .tc main_v0)
      = Spec.bias128 (aggG (W (Proc.devRef .tc main_call0_v3)) (W (Proc.devRef .tc main_call0_v6)) (W (Proc.devRef .tc main_call0_v30)) (W (Proc.devRef .tc main_call0_v98))) (W (Proc.devRef .tc main_arg10)) := by
  after_results_simp
  simp only [TRef.ofBuf, TRef.toBuf, cast_roundtrip]
  simp only [cast_eq]
  refine (show _ = Spec.bias128 (aggK (W (Proc.devRef .tc main_call0_v3)) (W (Proc.devRef .tc main_call0_v6)) (W (Proc.devRef .tc main_call0_v30)) (W (Proc.devRef .tc main_call0_v98))) (W (Proc.devRef .tc main_arg10)) from rfl).trans ?_
  rw [aggK_eq]

set_option maxHeartbeats 8000000 in
/-- The second stretch leaves, as the operand of the next call: one propagation step of the second call's output, plus the
    bias of 128 entries, through the rectifier, through a second propagation step. -/
theorem host2_agg (W : Valuation τ sig (Elt Ideal)) :
    StableHlo.after (hostOps2 (F := Ideal)) W (Proc.devRef .tc main_call0_v95)
      = aggG (W (Proc.devRef .tc main_call0_v3)) (W (Proc.devRef .tc main_call0_v6)) (W (Proc.devRef .tc main_call0_v30))
          (Spec.relu128 (Spec.bias128 (aggG (W (Proc.devRef .tc main_call0_v3)) (W (Proc.devRef .tc main_call0_v6)) (W (Proc.devRef .tc main_call0_v30)) (W (Proc.devRef .tc main_call0_v65))) (W (Proc.devRef .tc main_arg6)))) := by
  after_results_simp
  simp only [TRef.ofBuf, TRef.toBuf, cast_roundtrip]
  simp only [cast_eq]
  refine (show _ = aggK (W (Proc.devRef .tc main_call0_v3)) (W (Proc.devRef .tc main_call0_v6)) (W (Proc.devRef .tc main_call0_v30))
          (Spec.relu128 (Spec.bias128 (aggK (W (Proc.devRef .tc main_call0_v3)) (W (Proc.devRef .tc main_call0_v6)) (W (Proc.devRef .tc main_call0_v30)) (W (Proc.devRef .tc main_call0_v65))) (W (Proc.devRef .tc main_arg6)))) from rfl).trans ?_
  simp only [aggK_eq]

end Host

end Cert.KerHostB

end
-- ==== Proof.KerCarry.lean ====
/-
  Buffers that pass unchanged through segments of the kernel's main function.

  The main function is a chain of segments: a first stretch of host operations, two pipelined regions, a second
  stretch of host operations, two more pipelined regions, a last stretch of host operations. The contents of the buffers
  at the segment boundaries are the fold W0 (the launch memory), W1 (after the first host stretch), W2 and W3 (the exits of
  the first two regions), W4 (after the second host stretch), W5 and W6 (the exits of the last two regions), W7.

  A host stretch changes only the buffers its operations write, and a region only its output window's array; an input
  window's array and every buffer that is none of the region's arrays hold at the exit what they held at the entry. So
  * the graph's source vector, target vector and entry weights, computed once by the first host stretch, are still what
    it left when the later host stretches read them again (at W3 and at W6), and
  * each argument the later segments read is, at the boundary where it is read, still the launch memory's.
-/
import proofs.«155732_j35897336660442_2_alg».proof.Proof.Gen.KernelIdeal.Frame

set_option maxRecDepth 16384

noncomputable section

namespace Cert.KerCarry

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-! ## What the host stretches leave alone -/

set_option maxHeartbeats 4000000 in
/-- No operation of the first host stretch writes argument 3: it holds after the stretch what it held before, whatever the
    contents the stretch starts from. -/
theorem host0_keeps_arg3 (V : Valuation τ sig (Elt F)) :
    StableHlo.after hostOps0 V (Proc.devRef .tc main_arg3) = V (Proc.devRef .tc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes,
      StableHlo.ternary_writes, StableHlo.quaternary_writes, StableHlo.reshape_writes, StableHlo.binaryIndexed_writes,
      Finset.mem_singleton]
    repeat' apply And.intro
    all_goals exact StableHlo.devRef_ne_of_ne (by decide)))

set_option maxHeartbeats 4000000 in
/-- No operation of the first host stretch writes argument 5: it holds after the stretch what it held before, whatever the
    contents the stretch starts from. -/
theorem host0_keeps_arg5 (V : Valuation τ sig (Elt F)) :
    StableHlo.after hostOps0 V (Proc.devRef .tc main_arg5) = V (Proc.devRef .tc main_arg5) :=
  StableHlo.after_of_forall_not_mem (b := Proc.devRef .tc main_arg5) _ _ (List.forall_iff_forall_mem.mp (by
    simp only [hostOps0, List.flatten_cons, List.flatten_nil, List.append_nil, List.cons_append,
      List.nil_append, List.Forall, StableHlo.nullary_writes, StableHlo.unary_writes, StableHlo.binary_writes,
      StableHlo.ternary_writes, StableHlo.quaternary_writes, StableHlo.reshape_writes, StableHlo.binaryIndexed_writes,
      Finset.mem_singleton]
    repeat' apply And.intro
    all_goals exact StableHlo.devRef_ne_of_ne (by decide)))

set_option maxHeartbeats 4000000 in
/-- No operation of the first host stretch writes argument 6: it holds after the stretch what it held before, whatever the
    contents the stretch starts from. -/
theorem host0_keeps_arg6 (V : Valuation τ sig (Elt F)) :
    StableHlo.after hostOps0 V (Proc.devRef .tc main_arg6) = V (Proc.devRef .tc main_arg6) :=
  StableHlo.after_of_forall_not_mem (b := Proc.devRef .tc main_arg6) _ _ (List.forall_iff_forall_mem.mp (by
    simp only [hostOps0, List.flatten_cons, List.flatten_nil, List.append_nil, List.cons_append,
      List.nil_append, List.Forall, StableHlo.nullary_writes, StableHlo.unary_writes, StableHlo.binary_writes,
      StableHlo.ternary_writes, StableHlo.quaternary_writes, StableHlo.reshape_writes, StableHlo.binaryIndexed_writes,
      Finset.mem_singleton]
    repeat' apply And.intro
    all_goals exact StableHlo.devRef_ne_of_ne (by decide)))

set_option maxHeartbeats 4000000 in
/-- No operation of the first host stretch writes argument 7: it holds after the stretch what it held before, whatever the
    contents the stretch starts from. -/
theorem host0_keeps_arg7 (V : Valuation τ sig (Elt F)) :
    StableHlo.after hostOps0 V (Proc.devRef .tc main_arg7) = V (Proc.devRef .tc main_arg7) :=
  StableHlo.after_of_forall_not_mem (b := Proc.devRef .tc main_arg7) _ _ (List.forall_iff_forall_mem.mp (by
    simp only [hostOps0, List.flatten_cons, List.flatten_nil, List.append_nil, List.cons_append,
      List.nil_append, List.Forall, StableHlo.nullary_writes, StableHlo.unary_writes, StableHlo.binary_writes,
      StableHlo.ternary_writes, StableHlo.quaternary_writes, StableHlo.reshape_writes, StableHlo.binaryIndexed_writes,
      Finset.mem_singleton]
    repeat' apply And.intro
    all_goals exact StableHlo.devRef_ne_of_ne (by decide)))

set_option maxHeartbeats 4000000 in
/-- No operation of the first host stretch writes argument 8: it holds after the stretch what it held before, whatever the
    contents the stretch starts from. -/
theorem host0_keeps_arg8 (V : Valuation τ sig (Elt F)) :
    StableHlo.after hostOps0 V (Proc.devRef .tc main_arg8) = V (Proc.devRef .tc main_arg8) :=
  StableHlo.after_of_forall_not_mem (b := Proc.devRef .tc main_arg8) _ _ (List.forall_iff_forall_mem.mp (by
    simp only [hostOps0, List.flatten_cons, List.flatten_nil, List.append_nil, List.cons_append,
      List.nil_append, List.Forall, StableHlo.nullary_writes, StableHlo.unary_writes, StableHlo.binary_writes,
      StableHlo.ternary_writes, StableHlo.quaternary_writes, StableHlo.reshape_writes, StableHlo.binaryIndexed_writes,
      Finset.mem_singleton]
    repeat' apply And.intro
    all_goals exact StableHlo.devRef_ne_of_ne (by decide)))

set_option maxHeartbeats 4000000 in
/-- No operation of the first host stretch writes argument 9: it holds after the stretch what it held before, whatever the
    contents the stretch starts from. -/
theorem host0_keeps_arg9 (V : Valuation τ sig (Elt F)) :
    StableHlo.after hostOps0 V (Proc.devRef .tc main_arg9) = V (Proc.devRef .tc main_arg9) :=
  StableHlo.after_of_forall_not_mem (b := Proc.devRef .tc main_arg9) _ _ (List.forall_iff_forall_mem.mp (by
    simp only [hostOps0, List.flatten_cons, List.flatten_nil, List.append_nil, List.cons_append,
      List.nil_append, List.Forall, StableHlo.nullary_writes, StableHlo.unary_writes, StableHlo.binary_writes,
      StableHlo.ternary_writes, StableHlo.quaternary_writes, StableHlo.reshape_writes, StableHlo.binaryIndexed_writes,
      Finset.mem_singleton]
    repeat' apply And.intro
    all_goals exact StableHlo.devRef_ne_of_ne (by decide)))

set_option maxHeartbeats 4000000 in
/-- No operation of the first host stretch writes argument 10: it holds after the stretch what it held before, whatever the
    contents the stretch starts from. -/
theorem host0_keeps_arg10 (V : Valuation τ sig (Elt F)) :
    StableHlo.after hostOps0 V (Proc.devRef .tc main_arg10) = V (Proc.devRef .tc main_arg10) :=
  StableHlo.after_of_forall_not_mem (b := Proc.devRef .tc main_arg10) _ _ (List.forall_iff_forall_mem.mp (by
    simp only [hostOps0, List.flatten_cons, List.flatten_nil, List.append_nil, List.cons_append,
      List.nil_append, List.Forall, StableHlo.nullary_writes, StableHlo.unary_writes, StableHlo.binary_writes,
      StableHlo.ternary_writes, StableHlo.quaternary_writes, StableHlo.reshape_writes, StableHlo.binaryIndexed_writes,
      Finset.mem_singleton]
    repeat' apply And.intro
    all_goals exact StableHlo.devRef_ne_of_ne (by decide)))

set_option maxHeartbeats 4000000 in
/-- No operation of the second host stretch writes the source vector: it holds after the stretch what it held before, whatever the
    contents the stretch starts from. -/
theorem host2_keeps_row (V : Valuation τ sig (Elt F)) :
    StableHlo.after hostOps2 V (Proc.devRef .tc main_call0_v3) = V (Proc.devRef .tc main_call0_v3) :=
  StableHlo.after_of_forall_not_mem (b := Proc.devRef .tc main_call0_v3) _ _ (List.forall_iff_forall_mem.mp (by
    simp only [hostOps2, List.flatten_cons, List.flatten_nil, List.append_nil, List.cons_append,
      List.nil_append, List.Forall, StableHlo.nullary_writes, StableHlo.unary_writes, StableHlo.binary_writes,
      StableHlo.ternary_writes, StableHlo.quaternary_writes, StableHlo.reshape_writes, StableHlo.binaryIndexed_writes,
      Finset.mem_singleton]
    repeat' apply And.intro
    all_goals exact StableHlo.devRef_ne_of_ne (by decide)))

set_option maxHeartbeats 4000000 in
/-- No operation of the second host stretch writes the target vector: it holds after the stretch what it held before, whatever the
    contents the stretch starts from. -/
theorem host2_keeps_col (V : Valuation τ sig (Elt F)) :
    StableHlo.after hostOps2 V (Proc.devRef .tc main_call0_v6) = V (Proc.devRef .tc main_call0_v6) :=
  StableHlo.after_of_forall_not_mem (b := Proc.devRef .tc main_call0_v6) _ _ (List.forall_iff_forall_mem.mp (by
    simp only [hostOps2, List.flatten_cons, List.flatten_nil, List.append_nil, List.cons_append,
      List.nil_append, List.Forall, StableHlo.nullary_writes, StableHlo.unary_writes, StableHlo.binary_writes,
      StableHlo.ternary_writes, StableHlo.quaternary_writes, StableHlo.reshape_writes, StableHlo.binaryIndexed_writes,
      Finset.mem_singleton]
    repeat' apply And.intro
    all_goals exact StableHlo.devRef_ne_of_ne (by decide)))

set_option maxHeartbeats 4000000 in
/-- No operation of the second host stretch writes the entry weights: it holds after the stretch what it held before, whatever the
    contents the stretch starts from. -/
theorem host2_keeps_norm (V : Valuation τ sig (Elt F)) :
    StableHlo.after hostOps2 V (Proc.devRef .tc main_call0_v30) = V (Proc.devRef .tc main_call0_v30) :=
  StableHlo.after_of_forall_not_mem (b := Proc.devRef .tc main_call0_v30) _ _ (List.forall_iff_forall_mem.mp (by
    simp only [hostOps2, List.flatten_cons, List.flatten_nil, List.append_nil, List.cons_append,
      List.nil_append, List.Forall, StableHlo.nullary_writes, StableHlo.unary_writes, StableHlo.binary_writes,
      StableHlo.ternary_writes, StableHlo.quaternary_writes, StableHlo.reshape_writes, StableHlo.binaryIndexed_writes,
      Finset.mem_singleton]
    repeat' apply And.intro
    all_goals exact StableHlo.devRef_ne_of_ne (by decide)))

set_option maxHeartbeats 4000000 in
/-- No operation of the second host stretch writes argument 7: it holds after the stretch what it held before, whatever the
    contents the stretch starts from. -/
theorem host2_keeps_arg7 (V : Valuation τ sig (Elt F)) :
    StableHlo.after hostOps2 V (Proc.devRef .tc main_arg7) = V (Proc.devRef .tc main_arg7) :=
  StableHlo.after_of_forall_not_mem (b := Proc.devRef .tc main_arg7) _ _ (List.forall_iff_forall_mem.mp (by
    simp only [hostOps2, List.flatten_cons, List.flatten_nil, List.append_nil, List.cons_append,
      List.nil_append, List.Forall, StableHlo.nullary_writes, StableHlo.unary_writes, StableHlo.binary_writes,
      StableHlo.ternary_writes, StableHlo.quaternary_writes, StableHlo.reshape_writes, StableHlo.binaryIndexed_writes,
      Finset.mem_singleton]
    repeat' apply And.intro
    all_goals exact StableHlo.devRef_ne_of_ne (by decide)))

set_option maxHeartbeats 4000000 in
/-- No operation of the second host stretch writes argument 9: it holds after the stretch what it held before, whatever the
    contents the stretch starts from. -/
theorem host2_keeps_arg9 (V : Valuation τ sig (Elt F)) :
    StableHlo.after hostOps2 V (Proc.devRef .tc main_arg9) = V (Proc.devRef .tc main_arg9) :=
  StableHlo.after_of_forall_not_mem (b := Proc.devRef .tc main_arg9) _ _ (List.forall_iff_forall_mem.mp (by
    simp only [hostOps2, List.flatten_cons, List.flatten_nil, List.append_nil, List.cons_append,
      List.nil_append, List.Forall, StableHlo.nullary_writes, StableHlo.unary_writes, StableHlo.binary_writes,
      StableHlo.ternary_writes, StableHlo.quaternary_writes, StableHlo.reshape_writes, StableHlo.binaryIndexed_writes,
      Finset.mem_singleton]
    repeat' apply And.intro
    all_goals exact StableHlo.devRef_ne_of_ne (by decide)))

set_option maxHeartbeats 4000000 in
/-- No operation of the second host stretch writes argument 10: it holds after the stretch what it held before, whatever the
    contents the stretch starts from. -/
theorem host2_keeps_arg10 (V : Valuation τ sig (Elt F)) :
    StableHlo.after hostOps2 V (Proc.devRef .tc main_arg10) = V (Proc.devRef .tc main_arg10) :=
  StableHlo.after_of_forall_not_mem (b := Proc.devRef .tc main_arg10) _ _ (List.forall_iff_forall_mem.mp (by
    simp only [hostOps2, List.flatten_cons, List.flatten_nil, List.append_nil, List.cons_append,
      List.nil_append, List.Forall, StableHlo.nullary_writes, StableHlo.unary_writes, StableHlo.binary_writes,
      StableHlo.ternary_writes, StableHlo.quaternary_writes, StableHlo.reshape_writes, StableHlo.binaryIndexed_writes,
      Finset.mem_singleton]
    repeat' apply And.intro
    all_goals exact StableHlo.devRef_ne_of_ne (by decide)))

variable (m : (ℓ : Loc nD τ sig) → Buf (Elt F) ℓ) (ρ : Dev nD → PrngReg)

/-! ## The source vector, the target vector and the entry weights at the later boundaries -/

/-- At the second region's exit the source vector is what the first host stretch left: neither of the first two regions has
    it among its arrays. -/
theorem row_at_W3 (c : Dev nD) : W3 m ρ c (Proc.devRef .tc main_call0_v3) = W1 m ρ c (Proc.devRef .tc main_call0_v3) :=
  calc W3 m ρ c (Proc.devRef .tc main_call0_v3)
    _ = W2 m ρ c (Proc.devRef .tc main_call0_v3) := W3_of_ne m ρ c main_call0_v3 (by decide)
    _ = W1 m ρ c (Proc.devRef .tc main_call0_v3) := W2_of_ne m ρ c main_call0_v3 (by decide)

/-- At the fourth region's exit the source vector is still what the first host stretch left: the second host stretch
    does not write it, and none of the regions has it among its arrays. -/
theorem row_at_W6 (c : Dev nD) : W6 m ρ c (Proc.devRef .tc main_call0_v3) = W1 m ρ c (Proc.devRef .tc main_call0_v3) :=
  calc W6 m ρ c (Proc.devRef .tc main_call0_v3)
    _ = W5 m ρ c (Proc.devRef .tc main_call0_v3) := W6_of_ne m ρ c main_call0_v3 (by decide)
    _ = W4 m ρ c (Proc.devRef .tc main_call0_v3) := W5_of_ne m ρ c main_call0_v3 (by decide)
    _ = W3 m ρ c (Proc.devRef .tc main_call0_v3) := host2_keeps_row (W3 m ρ c)
    _ = W1 m ρ c (Proc.devRef .tc main_call0_v3) := row_at_W3 m ρ c

/-- At the second region's exit the target vector is what the first host stretch left: neither of the first two regions has
    it among its arrays. -/
theorem col_at_W3 (c : Dev nD) : W3 m ρ c (Proc.devRef .tc main_call0_v6) = W1 m ρ c (Proc.devRef .tc main_call0_v6) :=
  calc W3 m ρ c (Proc.devRef .tc main_call0_v6)
    _ = W2 m ρ c (Proc.devRef .tc main_call0_v6) := W3_of_ne m ρ c main_call0_v6 (by decide)
    _ = W1 m ρ c (Proc.devRef .tc main_call0_v6) := W2_of_ne m ρ c main_call0_v6 (by decide)

/-- At the fourth region's exit the target vector is still what the first host stretch left: the second host stretch
    does not write it, and none of the regions has it among its arrays. -/
theorem col_at_W6 (c : Dev nD) : W6 m ρ c (Proc.devRef .tc main_call0_v6) = W1 m ρ c (Proc.devRef .tc main_call0_v6) :=
  calc W6 m ρ c (Proc.devRef .tc main_call0_v6)
    _ = W5 m ρ c (Proc.devRef .tc main_call0_v6) := W6_of_ne m ρ c main_call0_v6 (by decide)
    _ = W4 m ρ c (Proc.devRef .tc main_call0_v6) := W5_of_ne m ρ c main_call0_v6 (by decide)
    _ = W3 m ρ c (Proc.devRef .tc main_call0_v6) := host2_keeps_col (W3 m ρ c)
    _ = W1 m ρ c (Proc.devRef .tc main_call0_v6) := col_at_W3 m ρ c

/-- At the second region's exit the entry weights are what the first host stretch left: neither of the first two regions has
    them among its arrays. -/
theorem norm_at_W3 (c : Dev nD) : W3 m ρ c (Proc.devRef .tc main_call0_v30) = W1 m ρ c (Proc.devRef .tc main_call0_v30) :=
  calc W3 m ρ c (Proc.devRef .tc main_call0_v30)
    _ = W2 m ρ c (Proc.devRef .tc main_call0_v30) := W3_of_ne m ρ c main_call0_v30 (by decide)
    _ = W1 m ρ c (Proc.devRef .tc main_call0_v30) := W2_of_ne m ρ c main_call0_v30 (by decide)

/-- At the fourth region's exit the entry weights are still what the first host stretch left: the second host stretch
    does not write them, and none of the regions has them among its arrays. -/
theorem norm_at_W6 (c : Dev nD) : W6 m ρ c (Proc.devRef .tc main_call0_v30) = W1 m ρ c (Proc.devRef .tc main_call0_v30) :=
  calc W6 m ρ c (Proc.devRef .tc main_call0_v30)
    _ = W5 m ρ c (Proc.devRef .tc main_call0_v30) := W6_of_ne m ρ c main_call0_v30 (by decide)
    _ = W4 m ρ c (Proc.devRef .tc main_call0_v30) := W5_of_ne m ρ c main_call0_v30 (by decide)
    _ = W3 m ρ c (Proc.devRef .tc main_call0_v30) := host2_keeps_norm (W3 m ρ c)
    _ = W1 m ρ c (Proc.devRef .tc main_call0_v30) := norm_at_W3 m ρ c

/-! ## The arguments, each at the boundary where it is read, are the launch memory's -/

theorem arg3_at_W1 (c : Dev nD) : W1 m ρ c (Proc.devRef .tc main_arg3) = m ((c : Thread nD τ).loc main_arg3) :=
  calc W1 m ρ c (Proc.devRef .tc main_arg3)
    _ = W0 m ρ c (Proc.devRef .tc main_arg3) := host0_keeps_arg3 (W0 m ρ c)
    _ = m ((c : Thread nD τ).loc main_arg3) := rfl

theorem arg5_at_W2 (c : Dev nD) : W2 m ρ c (Proc.devRef .tc main_arg5) = m ((c : Thread nD τ).loc main_arg5) :=
  calc W2 m ρ c (Proc.devRef .tc main_arg5)
    _ = W1 m ρ c (Proc.devRef .tc main_arg5) := W2_of_ne m ρ c main_arg5 (by decide)
    _ = W0 m ρ c (Proc.devRef .tc main_arg5) := host0_keeps_arg5 (W0 m ρ c)
    _ = m ((c : Thread nD τ).loc main_arg5) := rfl

theorem arg6_at_W3 (c : Dev nD) : W3 m ρ c (Proc.devRef .tc main_arg6) = m ((c : Thread nD τ).loc main_arg6) :=
  calc W3 m ρ c (Proc.devRef .tc main_arg6)
    _ = W2 m ρ c (Proc.devRef .tc main_arg6) := W3_of_ne m ρ c main_arg6 (by decide)
    _ = W1 m ρ c (Proc.devRef .tc main_arg6) := W2_of_ne m ρ c main_arg6 (by decide)
    _ = W0 m ρ c (Proc.devRef .tc main_arg6) := host0_keeps_arg6 (W0 m ρ c)
    _ = m ((c : Thread nD τ).loc main_arg6) := rfl

theorem arg8_at_W3 (c : Dev nD) : W3 m ρ c (Proc.devRef .tc main_arg8) = m ((c : Thread nD τ).loc main_arg8) :=
  calc W3 m ρ c (Proc.devRef .tc main_arg8)
    _ = W2 m ρ c (Proc.devRef .tc main_arg8) := W3_of_ne m ρ c main_arg8 (by decide)
    _ = W1 m ρ c (Proc.devRef .tc main_arg8) := W2_of_ne m ρ c main_arg8 (by decide)
    _ = W0 m ρ c (Proc.devRef .tc main_arg8) := host0_keeps_arg8 (W0 m ρ c)
    _ = m ((c : Thread nD τ).loc main_arg8) := rfl

theorem arg7_at_W4 (c : Dev nD) : W4 m ρ c (Proc.devRef .tc main_arg7) = m ((c : Thread nD τ).loc main_arg7) :=
  calc W4 m ρ c (Proc.devRef .tc main_arg7)
    _ = W3 m ρ c (Proc.devRef .tc main_arg7) := host2_keeps_arg7 (W3 m ρ c)
    _ = W2 m ρ c (Proc.devRef .tc main_arg7) := W3_of_ne m ρ c main_arg7 (by decide)
    _ = W1 m ρ c (Proc.devRef .tc main_arg7) := W2_of_ne m ρ c main_arg7 (by decide)
    _ = W0 m ρ c (Proc.devRef .tc main_arg7) := host0_keeps_arg7 (W0 m ρ c)
    _ = m ((c : Thread nD τ).loc main_arg7) := rfl

theorem arg9_at_W5 (c : Dev nD) : W5 m ρ c (Proc.devRef .tc main_arg9) = m ((c : Thread nD τ).loc main_arg9) :=
  calc W5 m ρ c (Proc.devRef .tc main_arg9)
    _ = W4 m ρ c (Proc.devRef .tc main_arg9) := W5_of_ne m ρ c main_arg9 (by decide)
    _ = W3 m ρ c (Proc.devRef .tc main_arg9) := host2_keeps_arg9 (W3 m ρ c)
    _ = W2 m ρ c (Proc.devRef .tc main_arg9) := W3_of_ne m ρ c main_arg9 (by decide)
    _ = W1 m ρ c (Proc.devRef .tc main_arg9) := W2_of_ne m ρ c main_arg9 (by decide)
    _ = W0 m ρ c (Proc.devRef .tc main_arg9) := host0_keeps_arg9 (W0 m ρ c)
    _ = m ((c : Thread nD τ).loc main_arg9) := rfl

theorem arg10_at_W6 (c : Dev nD) : W6 m ρ c (Proc.devRef .tc main_arg10) = m ((c : Thread nD τ).loc main_arg10) :=
  calc W6 m ρ c (Proc.devRef .tc main_arg10)
    _ = W5 m ρ c (Proc.devRef .tc main_arg10) := W6_of_ne m ρ c main_arg10 (by decide)
    _ = W4 m ρ c (Proc.devRef .tc main_arg10) := W5_of_ne m ρ c main_arg10 (by decide)
    _ = W3 m ρ c (Proc.devRef .tc main_arg10) := host2_keeps_arg10 (W3 m ρ c)
    _ = W2 m ρ c (Proc.devRef .tc main_arg10) := W3_of_ne m ρ c main_arg10 (by decide)
    _ = W1 m ρ c (Proc.devRef .tc main_arg10) := W2_of_ne m ρ c main_arg10 (by decide)
    _ = W0 m ρ c (Proc.devRef .tc main_arg10) := host0_keeps_arg10 (W0 m ρ c)
    _ = m ((c : Thread nD τ).loc main_arg10) := rfl

end Cert.KerCarry

end
-- ==== Proof.LibPlainDot.lean ====
/-
  A plain matrix product, M×K by K×N, at the ideal values, read at an index as the sum over the contracted coordinate of
  the products of the operands' entries — for the vector unit's `tpu.matmul` into the zero accumulator and for the host's
  `dot_general` alike. The contraction has one axis, of extent K: its index is that one coordinate (`contrE`), the left
  operand's index at (r, c) and k is (r, k), the right operand's is (k, c).
-/
import Idealize.ShloMosaic.PureOps.Ideal.Laws
import Idealize.ShloMosaic.Lib.ValueIdx

noncomputable section

open scoped BigOperators

namespace Idealize.ShloMosaic.PlainDot

open Idealize.ShloMosaic Idealize.ShloMosaic.ValueIdx

variable {M K N : Nat}

/-- The one-axis contraction index of a plain product is its coordinate. -/
def contrE (M K N : Nat) : (DotDims.plain M K N).contr.Idx ≃ Fin K :=
  contrEquiv1 (DotDims.plain M K N) K rfl rfl

theorem contrE_symm_val (k : Fin K) :
    ((contrE M K N).symm k ⟨0, by have h : (DotDims.plain M K N).contr.rank = 1 := rfl; omega⟩ : ℕ) = k.val :=
  contrEquiv1_symm_val (DotDims.plain M K N) K rfl rfl k

/-- The left operand is read at (row of the result, contracted coordinate). -/
theorem lhsIdx_eq (r : Fin M) (c : Fin N) (k : Fin K) :
    (DotDims.plain M K N).lhsIdx (ix2 r c) ((contrE M K N).symm k) = ix2 r k := by
  funext a
  apply Fin.ext
  match a with
  | ⟨0, _⟩ => rfl
  | ⟨1, _⟩ => exact ((DotDims.plain M K N).lhsIdx_val_of_single (cl := 1) rfl (ix2 r c) _).trans (contrE_symm_val k)

/-- The right operand is read at (contracted coordinate, column of the result). -/
theorem rhsIdx_eq (r : Fin M) (c : Fin N) (k : Fin K) :
    (DotDims.plain M K N).rhsIdx (ix2 r c) ((contrE M K N).symm k) = ix2 k c := by
  funext a
  apply Fin.ext
  match a with
  | ⟨0, _⟩ => exact ((DotDims.plain M K N).rhsIdx_val_of_single (cr := 0) rfl (ix2 r c) _).trans (contrE_symm_val k)
  | ⟨1, _⟩ => rfl

/-- The sum over the contraction index of a plain product, re-indexed by the contracted coordinate. -/
theorem sum_contr (f : (⟨2, ![M, K]⟩ : Shape).Idx → EReal) (g : (⟨2, ![K, N]⟩ : Shape).Idx → EReal) (r : Fin M) (c : Fin N) :
    (∑ k : (DotDims.plain M K N).contr.Idx, f ((DotDims.plain M K N).lhsIdx (ix2 r c) k) * g ((DotDims.plain M K N).rhsIdx (ix2 r c) k))
      = ∑ k : Fin K, f (ix2 r k) * g (ix2 k c) := by
  rw [← Equiv.sum_comp (contrE M K N).symm]
  exact Finset.sum_congr rfl fun k _ => by rw [lhsIdx_eq, rhsIdx_eq]

/-- `tpu.matmul` into the zero accumulator, at (r, c). -/
theorem matmul_zero_apply {φ₁ φ₂ : FTy} (prec : Option ContractPrecision)
    (x : FVec Ideal ⟨2, ![M, K]⟩ φ₁) (w : FVec Ideal ⟨2, ![K, N]⟩ φ₂) (r : Fin M) (c : Fin N) :
    FloatOps.matmul (DotDims.plain M K N) prec x w (constant (⟨2, ![M, N]⟩ : Shape) .f32 0x00000000#32) (ix2 r c)
      = ∑ k : Fin K, x (ix2 r k) * w (ix2 k c) :=
  (Ideal.matmul_constant_zero_apply (DotDims.plain M K N) prec x w (ix2 r c)).trans (sum_contr x w r c)

/-- The host's `dot_general`, at (r, c). -/
theorem dotGeneral_apply {φ₁ φ₂ : FTy} (prec : Option ContractPrecision) (sched : HostSchedule)
    (x : FVec Ideal ⟨2, ![M, K]⟩ φ₁) (w : FVec Ideal ⟨2, ![K, N]⟩ φ₂) (r : Fin M) (c : Fin N) :
    FloatOps.dotGeneral (DotDims.plain M K N) prec sched x w (ix2 r c) = ∑ k : Fin K, x (ix2 r k) * w (ix2 k c) :=
  (Ideal.dotGeneral_apply (DotDims.plain M K N) prec sched x w (ix2 r c)).trans (sum_contr x w r c)

end Idealize.ShloMosaic.PlainDot

end
-- ==== Proof.KerRegions.lean ====
/-
  What the first and third calls of the kernel (the fused product) leave in their output arrays, each as ONE whole-array
  function of the three arrays the call finds when it is entered.

  Each of the two calls walks 10 grid points; at point t it stages rows 5000·t … 5000·t + 4999 of a 50000×128 array X,
  the whole 128×256 weight matrix W and the whole 1×256 bias row b, and writes back rows 5000·t … 5000·t + 4999 of the
  50000×256 output. At the ideal values the roundings to bf16 on the way into the product are the identity, so the block
  the body leaves at (r, c) is max((∑ₖ X(5000·t + r, k) · W(k, c)) + b(0, c), 0): block t of the array
  `Spec.denseRelu X W b`. The ten blocks tile the output, so after the call the output array IS `Spec.denseRelu X W b`.

  The steps, per call: the payload read at an index (`pay0_apply`, and over arrays `denseRelu_at`); the index maps of the
  four windows decided over the ten points (`idx_facts0`); what point t writes back (`flushed0_eq`); membership in a
  block and the cover (`mem_blk0`, `cover0`: row r lies in the block of point r / 5000); the array after the call
  (`final0`). The third call repeats the first (`…2`).
-/
import proofs.«155732_j35897336660442_2_alg».proof.Proof.Gen.KernelIdeal.Frame
import proofs.«155732_j35897336660442_2_alg».proof.Proof.Spec
import proofs.«155732_j35897336660442_2_alg».proof.Proof.LibPlainDot
import Idealize.ShloMosaic.Lib.Pipeline.Value
import Idealize.ShloMosaic.Lib.ValueIdx
import Idealize.ShloMosaic.PureOps.Ideal.Laws

noncomputable section

open scoped BigOperators

namespace Cert.KerRegions

open Cert.KernelIdeal Cert.KernelIdeal.Gen Idealize.ShloMosaic Idealize.ShloMosaic.TcCoe Idealize.SL.Sem
open Idealize.ShloMosaic.ValueIdx
open Idealize.ShloMosaic.Pipeline (Dat)

-- the TensorCore's buffer contents when a call is entered
variable (V : (c : Dev nD) → (b : Ref sig .tc) → Buf (Elt Ideal) ((c : Thread nD τ).loc b))

/-- The zero offsets of a whole-buffer load or store, as the constant function. -/
theorem zeroOffsets : (![0, 0] : Fin 2 → Nat) = fun _ => 0 := funext fun a => by fin_cases a <;> rfl

/-! ## The first call -/

/-- The fused body's payload at (r, c): the product's sum over the 128 contracted coordinates, plus the bias row's entry
    of column c, against zero. The casts to the same shape and the roundings to bf16 are the identity at the ideal
    values; the product into the zero accumulator is the plain sum. -/
theorem pay0_apply (x0 : Vec Ideal S5000x128 .f32) (x1 : Vec Ideal S128x256 .f32) (x2 : Vec Ideal S1x256 .f32) (r : Fin 5000) (c : Fin 256) :
    k0_pay1 x0 x1 x2 (ix2 r c)
      = max ((∑ k : Fin 128, x0 (ix2 r k) * x1 (ix2 k c)) + x2 (ix2 (0 : Fin 1) c)) (Ideal.ofBits .f32 0x00000000#32) := by
  unfold k0_pay1
  rw [shapeCast_self x0, shapeCast_self x2]
  show max (FloatOps.matmul (F := Ideal) (DotDims.plain 5000 128 256) none x0 x1 (constant (⟨2, ![5000, 256]⟩ : Shape) .f32 0x00000000#32) (ix2 r c)
      + broadcastTo S5000x256 x2 broadcasts_S1x256_S5000x256 (ix2 r c)) (Ideal.ofBits .f32 0x00000000#32) = _
  rw [PlainDot.matmul_zero_apply]
  refine congrArg (fun z => max ((∑ k : Fin 128, x0 (ix2 r k) * x1 (ix2 k c)) + z) (Ideal.ofBits .f32 0x00000000#32)) ?_
  refine broadcastTo_apply x2 broadcasts_S1x256_S5000x256 (ix2 r c) (ix2 (0 : Fin 1) c) ?_
  intro a
  match a with
  | ⟨0, _⟩ => rfl
  | ⟨1, _⟩ => rfl

/-- The fused body's payload at (r, c), when its three blocks are read off arrays A0 (row R), A1 and A2, is the fused
    product of the arrays at (R, c). -/
theorem denseRelu_at (A0 : FVec Ideal S50000x128 .f32) (A1 : FVec Ideal S128x256 .f32) (A2 : FVec Ideal S1x256 .f32)
    (x0 : Vec Ideal S5000x128 .f32) (x1 : Vec Ideal S128x256 .f32) (x2 : Vec Ideal S1x256 .f32) (R : Fin 50000) (r : Fin 5000) (cc : Fin 256)
    (h0 : ∀ k : Fin 128, x0 (ix2 r k) = A0 (ix2 R k)) (h1 : ∀ k : Fin 128, x1 (ix2 k cc) = A1 (ix2 k cc))
    (h2 : x2 (ix2 (0 : Fin 1) cc) = A2 (ix2 (0 : Fin 1) cc)) :
    k0_pay1 x0 x1 x2 (ix2 r cc) = Spec.denseRelu A0 A1 A2 (ix2 R cc) := by
  rw [pay0_apply]
  simp only [h0, h1, h2]
  rfl

/-- The index maps, decided over the ten points: the staged block of X and the output block are block t (on the row
    axis); the weights' and the bias row's block index is 0 on both axes. -/
theorem idx_facts0 : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- WHAT POINT `t` WRITES BACK is block `t` of the fused product of the arrays the call finds. -/
theorem flushed0_eq (c : Dev nD) (t : Fin cfg0.N) :
    (dat0 V c).flushed 3 t = ((cfg0.win 3).blk t).view.read (Elt Ideal)
      (Spec.denseRelu (V c (Pipeline.arrRef spec0 0)) (V c (Pipeline.arrRef spec0 1)) (V c (Pipeline.arrRef spec0 2))) := by
  show (cfg0.win 3).cut (grid0.coords t) ((dat0 V c).after 3 t) = _
  rw [after0_3]
  unfold out0_3
  rw [View.canon_unit_zero zeroOffsets]
  simp only [View.ld_unit_zero (S := S5000x128) zeroOffsets, View.ld_unit_zero (S := S128x256) zeroOffsets, View.ld_unit_zero (S := S1x256) zeroOffsets]
  obtain ⟨e00, e01, e10, e11, e20, e21, e30, e31⟩ := idx_facts0 t
  funext (j : S5000x256.Idx)
  obtain ⟨r, cc, rfl⟩ : ∃ (r : Fin 5000) (cc : Fin 256), j = ix2 r cc := ⟨j 0, j 1, eq_ix2 j⟩
  show k0_pay1 (iblk0 V c 0 t) (iblk0 V c 1 t) (iblk0 V c 2 t) (ix2 r cc) = _
  have ht : t.val < 10 := lt_of_lt_of_eq t.isLt N_0
  have hr : r.val < 5000 := r.isLt
  have hR : t.val * 5000 + r.val < 50000 := by omega
  have hE3 : ((cfg0.win 3).blk t).view.emb (ix2 r cc) = (ix2 (⟨t.val * 5000 + r.val, hR⟩ : Fin 50000) cc : S50000x256.Idx) := by
    funext a; apply Fin.ext
    match a with
    | ⟨0, _⟩ => show win0_3.index t (0 : Fin 2) * 5000 + 1 * r.val = t.val * 5000 + r.val; omega
    | ⟨1, _⟩ => show win0_3.index t (1 : Fin 2) * 256 + 1 * cc.val = cc.val; omega
  have hE0 : ∀ k : Fin 128, ((cfg0.win 0).blk t).view.emb (ix2 r k) = (ix2 (⟨t.val * 5000 + r.val, hR⟩ : Fin 50000) k : S50000x128.Idx) := by
    intro k; funext a; apply Fin.ext
    match a with
    | ⟨0, _⟩ => show win0_0.index t (0 : Fin 2) * 5000 + 1 * r.val = t.val * 5000 + r.val; omega
    | ⟨1, _⟩ => show win0_0.index t (1 : Fin 2) * 128 + 1 * k.val = k.val; omega
  have hE1 : ∀ k : Fin 128, ((cfg0.win 1).blk t).view.emb (ix2 k cc) = (ix2 k cc : S128x256.Idx) := by
    intro k; funext a; apply Fin.ext
    match a with
    | ⟨0, _⟩ => show win0_1.index t (0 : Fin 2) * 128 + 1 * k.val = k.val; omega
    | ⟨1, _⟩ => show win0_1.index t (1 : Fin 2) * 256 + 1 * cc.val = cc.val; omega
  have hE2 : ((cfg0.win 2).blk t).view.emb (ix2 (0 : Fin 1) cc) = (ix2 (0 : Fin 1) cc : S1x256.Idx) := by
    funext a; apply Fin.ext
    match a with
    | ⟨0, _⟩ => show win0_2.index t (0 : Fin 2) * 1 + 1 * 0 = 0; omega
    | ⟨1, _⟩ => show win0_2.index t (1 : Fin 2) * 256 + 1 * cc.val = cc.val; omega
  refine (denseRelu_at (V c (Pipeline.arrRef spec0 0)) (V c (Pipeline.arrRef spec0 1)) (V c (Pipeline.arrRef spec0 2))
    (iblk0 V c 0 t) (iblk0 V c 1 t) (iblk0 V c 2 t) ⟨t.val * 5000 + r.val, hR⟩ r cc
    (fun k => congrArg (V c (Pipeline.arrRef spec0 0)) (hE0 k)) (fun k => congrArg (V c (Pipeline.arrRef spec0 1)) (hE1 k))
    (congrArg (V c (Pipeline.arrRef spec0 2)) hE2)).trans ?_
  exact congrArg (Spec.denseRelu (V c (Pipeline.arrRef spec0 0)) (V c (Pipeline.arrRef spec0 1)) (V c (Pipeline.arrRef spec0 2))) hE3.symm

/-- An index of the output array is in point `t`'s block iff each coordinate is in the block's range on its axis. -/
theorem mem_blk0 (t : Fin cfg0.N) (i : S50000x256.Idx) :
    i ∈ ((cfg0.win 3).blk t).view.set ↔ ∀ a : Fin 2, win0_3.index t a * S5000x256.size a ≤ (i a).val ∧ (i a).val < win0_3.index t a * S5000x256.size a + S5000x256.size a := by
  show i ∈ ((View.whole main_call0_v64).slice (win0_3.rect t)).set ↔ _
  rw [View.set_slice_whole, Rect.mem_set_unit]
  exact Iff.rfl

/-- Row r of the output array is in the block of point r / 5000. -/
theorem cover0 (i : S50000x256.Idx) : ∃ t : Fin cfg0.N, (cfg0.win 3).flush t = true ∧ i ∈ ((cfg0.win 3).blk t).view.set := by
  have hi0 : (i 0).val < 50000 := (i 0).isLt
  have hi1 : (i 1).val < 256 := (i 1).isLt
  have hN : (i 0).val / 5000 < grid0.N := by rw [N_0]; omega
  obtain ⟨t, ht⟩ : ∃ t : Fin cfg0.N, t.val = (i 0).val / 5000 := ⟨⟨_, hN⟩, rfl⟩
  obtain ⟨-, -, -, -, -, -, e30, e31⟩ := idx_facts0 t
  refine ⟨t, flush0_3 t, ?_⟩
  rw [mem_blk0]
  intro a
  match a with
  | ⟨0, _⟩ => show win0_3.index t (0 : Fin 2) * 5000 ≤ (i 0).val ∧ (i 0).val < win0_3.index t (0 : Fin 2) * 5000 + 5000; omega
  | ⟨1, _⟩ => show win0_3.index t (1 : Fin 2) * 256 ≤ (i 1).val ∧ (i 1).val < win0_3.index t (1 : Fin 2) * 256 + 256; omega

/-- THE FIRST CALL'S OUTPUT ARRAY after its run: the fused product of the three arrays the call finds. -/
theorem final0 (c : Dev nD) : (dat0 V c).arrAt 3 cfg0.N
    = Spec.denseRelu (V c (Pipeline.arrRef spec0 0)) (V c (Pipeline.arrRef spec0 1)) (V c (Pipeline.arrRef spec0 2)) :=
  (dat0 V c).arrAt_eq_of_cover 3 (Spec.denseRelu (V c (Pipeline.arrRef spec0 0)) (V c (Pipeline.arrRef spec0 1)) (V c (Pipeline.arrRef spec0 2)))
    (fun t _ => flushed0_eq V c t) cover0

/-! ## The third call -/

/-- The fused body's payload at (r, c): the product's sum over the 128 contracted coordinates, plus the bias row's entry
    of column c, against zero. The casts to the same shape and the roundings to bf16 are the identity at the ideal
    values; the product into the zero accumulator is the plain sum. -/
theorem pay2_apply (x0 : Vec Ideal S5000x128 .f32) (x1 : Vec Ideal S128x256 .f32) (x2 : Vec Ideal S1x256 .f32) (r : Fin 5000) (c : Fin 256) :
    k2_pay1 x0 x1 x2 (ix2 r c)
      = max ((∑ k : Fin 128, x0 (ix2 r k) * x1 (ix2 k c)) + x2 (ix2 (0 : Fin 1) c)) (Ideal.ofBits .f32 0x00000000#32) := by
  unfold k2_pay1
  rw [shapeCast_self x0, shapeCast_self x2]
  show max (FloatOps.matmul (F := Ideal) (DotDims.plain 5000 128 256) none x0 x1 (constant (⟨2, ![5000, 256]⟩ : Shape) .f32 0x00000000#32) (ix2 r c)
      + broadcastTo S5000x256 x2 broadcasts_S1x256_S5000x256 (ix2 r c)) (Ideal.ofBits .f32 0x00000000#32) = _
  rw [PlainDot.matmul_zero_apply]
  refine congrArg (fun z => max ((∑ k : Fin 128, x0 (ix2 r k) * x1 (ix2 k c)) + z) (Ideal.ofBits .f32 0x00000000#32)) ?_
  refine broadcastTo_apply x2 broadcasts_S1x256_S5000x256 (ix2 r c) (ix2 (0 : Fin 1) c) ?_
  intro a
  match a with
  | ⟨0, _⟩ => rfl
  | ⟨1, _⟩ => rfl

/-- The fused body's payload at (r, c), when its three blocks are read off arrays A0 (row R), A1 and A2, is the fused
    product of the arrays at (R, c). -/
theorem denseRelu_at2 (A0 : FVec Ideal S50000x128 .f32) (A1 : FVec Ideal S128x256 .f32) (A2 : FVec Ideal S1x256 .f32)
    (x0 : Vec Ideal S5000x128 .f32) (x1 : Vec Ideal S128x256 .f32) (x2 : Vec Ideal S1x256 .f32) (R : Fin 50000) (r : Fin 5000) (cc : Fin 256)
    (h0 : ∀ k : Fin 128, x0 (ix2 r k) = A0 (ix2 R k)) (h1 : ∀ k : Fin 128, x1 (ix2 k cc) = A1 (ix2 k cc))
    (h2 : x2 (ix2 (0 : Fin 1) cc) = A2 (ix2 (0 : Fin 1) cc)) :
    k2_pay1 x0 x1 x2 (ix2 r cc) = Spec.denseRelu A0 A1 A2 (ix2 R cc) := by
  rw [pay2_apply]
  simp only [h0, h1, h2]
  rfl

/-- The index maps, decided over the ten points: the staged block of X and the output block are block t (on the row
    axis); the weights' and the bias row's block index is 0 on both axes. -/
theorem idx_facts2 : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

/-- WHAT POINT `t` WRITES BACK is block `t` of the fused product of the arrays the call finds. -/
theorem flushed2_eq (c : Dev nD) (t : Fin cfg2.N) :
    (dat2 V c).flushed 3 t = ((cfg2.win 3).blk t).view.read (Elt Ideal)
      (Spec.denseRelu (V c (Pipeline.arrRef spec2 0)) (V c (Pipeline.arrRef spec2 1)) (V c (Pipeline.arrRef spec2 2))) := by
  show (cfg2.win 3).cut (grid2.coords t) ((dat2 V c).after 3 t) = _
  rw [after2_3]
  unfold out2_3
  rw [View.canon_unit_zero zeroOffsets]
  simp only [View.ld_unit_zero (S := S5000x128) zeroOffsets, View.ld_unit_zero (S := S128x256) zeroOffsets, View.ld_unit_zero (S := S1x256) zeroOffsets]
  obtain ⟨e00, e01, e10, e11, e20, e21, e30, e31⟩ := idx_facts2 t
  funext (j : S5000x256.Idx)
  obtain ⟨r, cc, rfl⟩ : ∃ (r : Fin 5000) (cc : Fin 256), j = ix2 r cc := ⟨j 0, j 1, eq_ix2 j⟩
  show k2_pay1 (iblk2 V c 0 t) (iblk2 V c 1 t) (iblk2 V c 2 t) (ix2 r cc) = _
  have ht : t.val < 10 := lt_of_lt_of_eq t.isLt N_2
  have hr : r.val < 5000 := r.isLt
  have hR : t.val * 5000 + r.val < 50000 := by omega
  have hE3 : ((cfg2.win 3).blk t).view.emb (ix2 r cc) = (ix2 (⟨t.val * 5000 + r.val, hR⟩ : Fin 50000) cc : S50000x256.Idx) := by
    funext a; apply Fin.ext
    match a with
    | ⟨0, _⟩ => show win2_3.index t (0 : Fin 2) * 5000 + 1 * r.val = t.val * 5000 + r.val; omega
    | ⟨1, _⟩ => show win2_3.index t (1 : Fin 2) * 256 + 1 * cc.val = cc.val; omega
  have hE0 : ∀ k : Fin 128, ((cfg2.win 0).blk t).view.emb (ix2 r k) = (ix2 (⟨t.val * 5000 + r.val, hR⟩ : Fin 50000) k : S50000x128.Idx) := by
    intro k; funext a; apply Fin.ext
    match a with
    | ⟨0, _⟩ => show win2_0.index t (0 : Fin 2) * 5000 + 1 * r.val = t.val * 5000 + r.val; omega
    | ⟨1, _⟩ => show win2_0.index t (1 : Fin 2) * 128 + 1 * k.val = k.val; omega
  have hE1 : ∀ k : Fin 128, ((cfg2.win 1).blk t).view.emb (ix2 k cc) = (ix2 k cc : S128x256.Idx) := by
    intro k; funext a; apply Fin.ext
    match a with
    | ⟨0, _⟩ => show win2_1.index t (0 : Fin 2) * 128 + 1 * k.val = k.val; omega
    | ⟨1, _⟩ => show win2_1.index t (1 : Fin 2) * 256 + 1 * cc.val = cc.val; omega
  have hE2 : ((cfg2.win 2).blk t).view.emb (ix2 (0 : Fin 1) cc) = (ix2 (0 : Fin 1) cc : S1x256.Idx) := by
    funext a; apply Fin.ext
    match a with
    | ⟨0, _⟩ => show win2_2.index t (0 : Fin 2) * 1 + 1 * 0 = 0; omega
    | ⟨1, _⟩ => show win2_2.index t (1 : Fin 2) * 256 + 1 * cc.val = cc.val; omega
  refine (denseRelu_at2 (V c (Pipeline.arrRef spec2 0)) (V c (Pipeline.arrRef spec2 1)) (V c (Pipeline.arrRef spec2 2))
    (iblk2 V c 0 t) (iblk2 V c 1 t) (iblk2 V c 2 t) ⟨t.val * 5000 + r.val, hR⟩ r cc
    (fun k => congrArg (V c (Pipeline.arrRef spec2 0)) (hE0 k)) (fun k => congrArg (V c (Pipeline.arrRef spec2 1)) (hE1 k))
    (congrArg (V c (Pipeline.arrRef spec2 2)) hE2)).trans ?_
  exact congrArg (Spec.denseRelu (V c (Pipeline.arrRef spec2 0)) (V c (Pipeline.arrRef spec2 1)) (V c (Pipeline.arrRef spec2 2))) hE3.symm

/-- An index of the output array is in point `t`'s block iff each coordinate is in the block's range on its axis. -/
theorem mem_blk2 (t : Fin cfg2.N) (i : S50000x256.Idx) :
    i ∈ ((cfg2.win 3).blk t).view.set ↔ ∀ a : Fin 2, win2_3.index t a * S5000x256.size a ≤ (i a).val ∧ (i a).val < win2_3.index t a * S5000x256.size a + S5000x256.size a := by
  show i ∈ ((View.whole main_call0_v97).slice (win2_3.rect t)).set ↔ _
  rw [View.set_slice_whole, Rect.mem_set_unit]
  exact Iff.rfl

/-- Row r of the output array is in the block of point r / 5000. -/
theorem cover2 (i : S50000x256.Idx) : ∃ t : Fin cfg2.N, (cfg2.win 3).flush t = true ∧ i ∈ ((cfg2.win 3).blk t).view.set := by
  have hi0 : (i 0).val < 50000 := (i 0).isLt
  have hi1 : (i 1).val < 256 := (i 1).isLt
  have hN : (i 0).val / 5000 < grid2.N := by rw [N_2]; omega
  obtain ⟨t, ht⟩ : ∃ t : Fin cfg2.N, t.val = (i 0).val / 5000 := ⟨⟨_, hN⟩, rfl⟩
  obtain ⟨-, -, -, -, -, -, e30, e31⟩ := idx_facts2 t
  refine ⟨t, flush2_3 t, ?_⟩
  rw [mem_blk2]
  intro a
  match a with
  | ⟨0, _⟩ => show win2_3.index t (0 : Fin 2) * 5000 ≤ (i 0).val ∧ (i 0).val < win2_3.index t (0 : Fin 2) * 5000 + 5000; omega
  | ⟨1, _⟩ => show win2_3.index t (1 : Fin 2) * 256 ≤ (i 1).val ∧ (i 1).val < win2_3.index t (1 : Fin 2) * 256 + 256; omega

/-- THE THIRD CALL'S OUTPUT ARRAY after its run: the fused product of the three arrays the call finds. -/
theorem final2 (c : Dev nD) : (dat2 V c).arrAt 3 cfg2.N
    = Spec.denseRelu (V c (Pipeline.arrRef spec2 0)) (V c (Pipeline.arrRef spec2 1)) (V c (Pipeline.arrRef spec2 2)) :=
  (dat2 V c).arrAt_eq_of_cover 3 (Spec.denseRelu (V c (Pipeline.arrRef spec2 0)) (V c (Pipeline.arrRef spec2 1)) (V c (Pipeline.arrRef spec2 2)))
    (fun t _ => flushed2_eq V c t) cover2

end Cert.KerRegions
end
-- ==== Proof.KerRegionsB.lean ====
/-
  What the idealized kernel's second and fourth blockwise calls leave in their output array, as one function of the arrays
  the call finds.

  Each of the two calls is a plain product: the 50000×256 operand is cut into ten blocks of 5000 rows; at grid point t the
  body multiplies block t (5000×256) by the whole 256×128 matrix, into a zero accumulator, and block t of the 50000×128
  output receives the result. Row r of the output is therefore computed at point r / 5000, from row r of the operand, and
  the array ends holding (X·W)(r, c) = ∑ k, X(r, k) · W(k, c) everywhere. At the ideal values the changes of format the
  body makes before the product are the identity.
-/
import proofs.«155732_j35897336660442_2_alg».proof.Proof.Gen.KernelIdeal.Frame
import proofs.«155732_j35897336660442_2_alg».proof.Proof.Spec
import proofs.«155732_j35897336660442_2_alg».proof.Proof.LibPlainDot
import Idealize.ShloMosaic.Lib.Pipeline.Value
import Idealize.ShloMosaic.Lib.ValueIdx
import Idealize.ShloMosaic.PureOps.Ideal.Laws

noncomputable section

open scoped BigOperators

namespace Cert.KerRegionsB

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

/-- The offsets (0, 0), however spelt, are the zero offsets. -/
theorem hz : (![0, 0] : Fin 2 → Nat) = fun _ => 0 := funext fun a => by fin_cases a <;> rfl

/-- The product's dimension record is the plain one: M×K by K×N, contracting the one shared axis. -/
theorem dims_eq : dot_S5000x256_S256x128_S5000x128_1_0_0_1_n_n = DotDims.plain 5000 256 128 := rfl

/-! ## The second call (region 1) -/

/-- The body's arithmetic at an entry: the product into the zero accumulator is the sum over the contracted coordinate. -/
theorem pay1_apply (x0 : Vec Ideal S5000x256 .f32) (x1 : Vec Ideal S256x128 .f32) (r : Fin 5000) (c : Fin 128) :
    k1_pay1 (F := Ideal) x0 x1 (ix2 r c) = ∑ k : Fin 256, x0 (ix2 r k) * x1 (ix2 k c) := by
  unfold k1_pay1
  have hx : shapeCast S5000x256 x0 shapeCasts_S5000x256_S5000x256 = x0 := shapeCast_self x0 _
  refine (PlainDot.matmul_zero_apply (M := 5000) (K := 256) (N := 128) none
    (truncf (F := Ideal) .bf16 (shapeCast S5000x256 x0 shapeCasts_S5000x256_S5000x256) bitsLt_bf16_f32)
    (truncf (F := Ideal) .bf16 x1 bitsLt_bf16_f32) r c).trans ?_
  refine Finset.sum_congr rfl fun k _ => ?_
  show shapeCast S5000x256 x0 shapeCasts_S5000x256_S5000x256 (ix2 r k) * x1 (ix2 k c) = _
  rw [hx]

/-- The index maps over the ten grid points: the operand's and the output's row-block index at point t is t, their
    column-block index is 0, and the matrix is always its one block (0, 0). -/
theorem idx_facts1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- Over arbitrary blocks: if row (j 0) of the operand's block is row (i 0) of the array X, and column (j 1) of the
    matrix block is column (i 1) of W, then the body's entry j is (X·W) at i. -/
theorem pay1_block (A : FVec Ideal S50000x256 .f32) (W : FVec Ideal S256x128 .f32)
    (x0 : Vec Ideal S5000x256 .f32) (x1 : Vec Ideal S256x128 .f32) (i : S50000x128.Idx) (j : S5000x128.Idx)
    (h0 : ∀ k : Fin 256, x0 (ix2 (j 0) k) = A (ix2 (i 0) k))
    (h1 : ∀ k : Fin 256, x1 (ix2 k (j 1)) = W (ix2 k (i 1))) :
    k1_pay1 (F := Ideal) x0 x1 j = Spec.dense A W i := by
  refine (congrArg (k1_pay1 (F := Ideal) x0 x1) (eq_ix2 j)).trans ?_
  refine (pay1_apply x0 x1 (j 0) (j 1)).trans ?_
  show _ = ∑ k : Fin 256, A (ix2 (i 0) k) * W (ix2 k (i 1))
  exact Finset.sum_congr rfl fun k _ => by rw [h0, h1]

/-- What grid point t writes back is block t of the product of the arrays the call finds. A block's coordinate is
    its index times its extent plus the coordinate inside the block. -/
theorem flushed1_eq (c : Dev nD) (t : Fin cfg1.N) :
    (dat1 V c).flushed 2 t = ((cfg1.win 2).blk t).view.read (Elt Ideal)
      (Spec.dense (V c (Pipeline.arrRef spec1 0)) (V c (Pipeline.arrRef spec1 1))) := by
  show (cfg1.win 2).cut (grid1.coords t) ((dat1 V c).after 2 t) = _
  rw [after1_2]
  unfold out1_2
  rw [View.canon_unit_zero hz]
  simp only [View.ld_unit_zero (S := S5000x256) hz, View.ld_unit_zero (S := S256x128) hz]
  obtain ⟨e00, e01, e10, e11, e20, e21⟩ := idx_facts1 t
  funext j
  show k1_pay1 (F := Ideal) (iblk1 V c 0 t) (iblk1 V c 1 t) j
    = Spec.dense (V c (Pipeline.arrRef spec1 0)) (V c (Pipeline.arrRef spec1 1)) (((cfg1.win 2).blk t).view.emb j)
  refine pay1_block _ _ _ _ _ j (fun k => ?_) (fun k => ?_)
  · show V c (Pipeline.arrRef spec1 0) (((cfg1.win 0).blk t).view.emb (ix2 (j 0) k))
      = V c (Pipeline.arrRef spec1 0) (ix2 ((((cfg1.win 2).blk t).view.emb j) 0) k)
    refine congrArg (V c (Pipeline.arrRef spec1 0)) ?_
    funext a; apply Fin.ext
    match a with
    | ⟨0, _⟩ => show win1_0.index t (0 : Fin 2) * 5000 + 1 * (j 0).val = win1_2.index t (0 : Fin 2) * 5000 + 1 * (j 0).val; omega
    | ⟨1, _⟩ => show win1_0.index t (1 : Fin 2) * 256 + 1 * k.val = k.val; omega
  · show V c (Pipeline.arrRef spec1 1) (((cfg1.win 1).blk t).view.emb (ix2 k (j 1)))
      = V c (Pipeline.arrRef spec1 1) (ix2 k ((((cfg1.win 2).blk t).view.emb j) 1))
    refine congrArg (V c (Pipeline.arrRef spec1 1)) ?_
    funext a; apply Fin.ext
    match a with
    | ⟨0, _⟩ => show win1_1.index t (0 : Fin 2) * 256 + 1 * k.val = k.val; omega
    | ⟨1, _⟩ => show win1_1.index t (1 : Fin 2) * 128 + 1 * (j 1).val = win1_2.index t (1 : Fin 2) * 128 + 1 * (j 1).val; omega

/-- An index of the output array is in point t's block iff each coordinate is in the block's range on its axis. -/
theorem mem_blk1 (t : Fin cfg1.N) (i : S50000x128.Idx) :
    i ∈ ((cfg1.win 2).blk t).view.set ↔ ∀ a : Fin 2, win1_2.index t a * S5000x128.size a ≤ (i a).val ∧ (i a).val < win1_2.index t a * S5000x128.size a + S5000x128.size a := by
  show i ∈ ((View.whole main_call0_v65).slice (win1_2.rect t)).set ↔ _
  rw [View.set_slice_whole, Rect.mem_set_unit]
  exact Iff.rfl

/-- The ten blocks cover the output array: row r is in the block of point r / 5000. -/
theorem cover1 (i : S50000x128.Idx) :
    ∃ t : Fin cfg1.N, (cfg1.win 2).flush t = true ∧ i ∈ ((cfg1.win 2).blk t).view.set := by
  have hi0 : (i 0).val < 50000 := (i 0).isLt
  have hi1 : (i 1).val < 128 := (i 1).isLt
  have hlt : (i 0).val / 5000 < grid1.N := by rw [N_1]; omega
  obtain ⟨e00, e01, e10, e11, e20, e21⟩ := idx_facts1 ⟨(i 0).val / 5000, hlt⟩
  have e20' : win1_2.index ⟨(i 0).val / 5000, hlt⟩ (0 : Fin 2) = (i 0).val / 5000 := e20
  refine ⟨⟨(i 0).val / 5000, hlt⟩, flush1_2 _, ?_⟩
  rw [mem_blk1]
  intro a
  match a with
  | ⟨0, _⟩ => show win1_2.index ⟨(i 0).val / 5000, hlt⟩ (0 : Fin 2) * 5000 ≤ (i 0).val ∧ (i 0).val < win1_2.index ⟨(i 0).val / 5000, hlt⟩ (0 : Fin 2) * 5000 + 5000; omega
  | ⟨1, _⟩ => show win1_2.index ⟨(i 0).val / 5000, hlt⟩ (1 : Fin 2) * 128 ≤ (i 1).val ∧ (i 1).val < win1_2.index ⟨(i 0).val / 5000, hlt⟩ (1 : Fin 2) * 128 + 128; omega

/-- The output array of the second call, after its ten points: the product of the two arrays the call finds. -/
theorem final1 (c : Dev nD) :
    (dat1 V c).arrAt 2 cfg1.N = Spec.dense (V c (Pipeline.arrRef spec1 0)) (V c (Pipeline.arrRef spec1 1)) :=
  (dat1 V c).arrAt_eq_of_cover 2 (Spec.dense (V c (Pipeline.arrRef spec1 0)) (V c (Pipeline.arrRef spec1 1)))
    (fun t _ => flushed1_eq V c t) cover1

/-! ## The fourth call (region 3): the same product, on the arrays that call finds -/

/-- The body's arithmetic at an entry: the product into the zero accumulator is the sum over the contracted coordinate. -/
theorem pay3_apply (x0 : Vec Ideal S5000x256 .f32) (x1 : Vec Ideal S256x128 .f32) (r : Fin 5000) (c : Fin 128) :
    k3_pay1 (F := Ideal) x0 x1 (ix2 r c) = ∑ k : Fin 256, x0 (ix2 r k) * x1 (ix2 k c) := by
  unfold k3_pay1
  have hx : shapeCast S5000x256 x0 shapeCasts_S5000x256_S5000x256 = x0 := shapeCast_self x0 _
  refine (PlainDot.matmul_zero_apply (M := 5000) (K := 256) (N := 128) none
    (truncf (F := Ideal) .bf16 (shapeCast S5000x256 x0 shapeCasts_S5000x256_S5000x256) bitsLt_bf16_f32)
    (truncf (F := Ideal) .bf16 x1 bitsLt_bf16_f32) r c).trans ?_
  refine Finset.sum_congr rfl fun k _ => ?_
  show shapeCast S5000x256 x0 shapeCasts_S5000x256_S5000x256 (ix2 r k) * x1 (ix2 k c) = _
  rw [hx]

/-- The index maps over the ten grid points: the operand's and the output's row-block index at point t is t, their
    column-block index is 0, and the matrix is always its one block (0, 0). -/
theorem idx_facts3 : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

/-- Over arbitrary blocks: if row (j 0) of the operand's block is row (i 0) of the array X, and column (j 1) of the
    matrix block is column (i 1) of W, then the body's entry j is (X·W) at i. -/
theorem pay3_block (A : FVec Ideal S50000x256 .f32) (W : FVec Ideal S256x128 .f32)
    (x0 : Vec Ideal S5000x256 .f32) (x1 : Vec Ideal S256x128 .f32) (i : S50000x128.Idx) (j : S5000x128.Idx)
    (h0 : ∀ k : Fin 256, x0 (ix2 (j 0) k) = A (ix2 (i 0) k))
    (h1 : ∀ k : Fin 256, x1 (ix2 k (j 1)) = W (ix2 k (i 1))) :
    k3_pay1 (F := Ideal) x0 x1 j = Spec.dense A W i := by
  refine (congrArg (k3_pay1 (F := Ideal) x0 x1) (eq_ix2 j)).trans ?_
  refine (pay3_apply x0 x1 (j 0) (j 1)).trans ?_
  show _ = ∑ k : Fin 256, A (ix2 (i 0) k) * W (ix2 k (i 1))
  exact Finset.sum_congr rfl fun k _ => by rw [h0, h1]

/-- What grid point t writes back is block t of the product of the arrays the call finds. A block's coordinate is
    its index times its extent plus the coordinate inside the block. -/
theorem flushed3_eq (c : Dev nD) (t : Fin cfg3.N) :
    (dat3 V c).flushed 2 t = ((cfg3.win 2).blk t).view.read (Elt Ideal)
      (Spec.dense (V c (Pipeline.arrRef spec3 0)) (V c (Pipeline.arrRef spec3 1))) := by
  show (cfg3.win 2).cut (grid3.coords t) ((dat3 V c).after 2 t) = _
  rw [after3_2]
  unfold out3_2
  rw [View.canon_unit_zero hz]
  simp only [View.ld_unit_zero (S := S5000x256) hz, View.ld_unit_zero (S := S256x128) hz]
  obtain ⟨e00, e01, e10, e11, e20, e21⟩ := idx_facts3 t
  funext j
  show k3_pay1 (F := Ideal) (iblk3 V c 0 t) (iblk3 V c 1 t) j
    = Spec.dense (V c (Pipeline.arrRef spec3 0)) (V c (Pipeline.arrRef spec3 1)) (((cfg3.win 2).blk t).view.emb j)
  refine pay3_block _ _ _ _ _ j (fun k => ?_) (fun k => ?_)
  · show V c (Pipeline.arrRef spec3 0) (((cfg3.win 0).blk t).view.emb (ix2 (j 0) k))
      = V c (Pipeline.arrRef spec3 0) (ix2 ((((cfg3.win 2).blk t).view.emb j) 0) k)
    refine congrArg (V c (Pipeline.arrRef spec3 0)) ?_
    funext a; apply Fin.ext
    match a with
    | ⟨0, _⟩ => show win3_0.index t (0 : Fin 2) * 5000 + 1 * (j 0).val = win3_2.index t (0 : Fin 2) * 5000 + 1 * (j 0).val; omega
    | ⟨1, _⟩ => show win3_0.index t (1 : Fin 2) * 256 + 1 * k.val = k.val; omega
  · show V c (Pipeline.arrRef spec3 1) (((cfg3.win 1).blk t).view.emb (ix2 k (j 1)))
      = V c (Pipeline.arrRef spec3 1) (ix2 k ((((cfg3.win 2).blk t).view.emb j) 1))
    refine congrArg (V c (Pipeline.arrRef spec3 1)) ?_
    funext a; apply Fin.ext
    match a with
    | ⟨0, _⟩ => show win3_1.index t (0 : Fin 2) * 256 + 1 * k.val = k.val; omega
    | ⟨1, _⟩ => show win3_1.index t (1 : Fin 2) * 128 + 1 * (j 1).val = win3_2.index t (1 : Fin 2) * 128 + 1 * (j 1).val; omega

/-- An index of the output array is in point t's block iff each coordinate is in the block's range on its axis. -/
theorem mem_blk3 (t : Fin cfg3.N) (i : S50000x128.Idx) :
    i ∈ ((cfg3.win 2).blk t).view.set ↔ ∀ a : Fin 2, win3_2.index t a * S5000x128.size a ≤ (i a).val ∧ (i a).val < win3_2.index t a * S5000x128.size a + S5000x128.size a := by
  show i ∈ ((View.whole main_call0_v98).slice (win3_2.rect t)).set ↔ _
  rw [View.set_slice_whole, Rect.mem_set_unit]
  exact Iff.rfl

/-- The ten blocks cover the output array: row r is in the block of point r / 5000. -/
theorem cover3 (i : S50000x128.Idx) :
    ∃ t : Fin cfg3.N, (cfg3.win 2).flush t = true ∧ i ∈ ((cfg3.win 2).blk t).view.set := by
  have hi0 : (i 0).val < 50000 := (i 0).isLt
  have hi1 : (i 1).val < 128 := (i 1).isLt
  have hlt : (i 0).val / 5000 < grid3.N := by rw [N_3]; omega
  obtain ⟨e00, e01, e10, e11, e20, e21⟩ := idx_facts3 ⟨(i 0).val / 5000, hlt⟩
  have e20' : win3_2.index ⟨(i 0).val / 5000, hlt⟩ (0 : Fin 2) = (i 0).val / 5000 := e20
  refine ⟨⟨(i 0).val / 5000, hlt⟩, flush3_2 _, ?_⟩
  rw [mem_blk3]
  intro a
  match a with
  | ⟨0, _⟩ => show win3_2.index ⟨(i 0).val / 5000, hlt⟩ (0 : Fin 2) * 5000 ≤ (i 0).val ∧ (i 0).val < win3_2.index ⟨(i 0).val / 5000, hlt⟩ (0 : Fin 2) * 5000 + 5000; omega
  | ⟨1, _⟩ => show win3_2.index ⟨(i 0).val / 5000, hlt⟩ (1 : Fin 2) * 128 ≤ (i 1).val ∧ (i 1).val < win3_2.index ⟨(i 0).val / 5000, hlt⟩ (1 : Fin 2) * 128 + 128; omega

/-- The output array of the fourth call, after its ten points: the product of the two arrays the call finds. -/
theorem final3 (c : Dev nD) :
    (dat3 V c).arrAt 2 cfg3.N = Spec.dense (V c (Pipeline.arrRef spec3 0)) (V c (Pipeline.arrRef spec3 1)) :=
  (dat3 V c).arrAt_eq_of_cover 2 (Spec.dense (V c (Pipeline.arrRef spec3 0)) (V c (Pipeline.arrRef spec3 1)))
    (fun t _ => flushed3_eq V c t) cover3

end Cert.KerRegionsB

end
-- ==== Proof.KerValue.lean ====
/-
  The idealized kernel's result buffer after the run is `Spec.kerOut` of the launch contents of the arguments.

  The run's buffer contents at the segment boundaries are followed from the launch memory. The first stretch of host
  operations computes the edge lists, the edge weights, the node features and their first propagation; the first call
  leaves the fused product of that with the first weights, the second call the plain product with the second weights;
  the second stretch propagates, adds the bias, rectifies and propagates again (reading the edge lists and weights the
  first stretch left); the third and fourth calls repeat the two products with the decoder's weights; the last stretch
  propagates once more and adds the last bias.
-/
import proofs.«155732_j35897336660442_2_alg».proof.Proof.Gen.KernelIdeal.Frame
import proofs.«155732_j35897336660442_2_alg».proof.Proof.Spec
import proofs.«155732_j35897336660442_2_alg».proof.Proof.KerHost
import proofs.«155732_j35897336660442_2_alg».proof.Proof.KerHostB
import proofs.«155732_j35897336660442_2_alg».proof.Proof.KerCarry
import proofs.«155732_j35897336660442_2_alg».proof.Proof.KerRegions
import proofs.«155732_j35897336660442_2_alg».proof.Proof.KerRegionsB

set_option maxRecDepth 16384

noncomputable section

namespace Cert.KerValue

open Cert.KernelIdeal Cert.KernelIdeal.Gen
open Idealize.ShloMosaic Idealize.ShloMosaic.TcCoe Idealize.SL.Sem Idealize.ShloMosaic.StableHlo

variable (m : (ℓ : Loc nD τ sig) → Buf (Elt Ideal) ℓ) (ρ : Dev nD → PrngReg) (c : Dev nD)

/-- After the first stretch: the sources, the targets and the weights of the 850000 entries. -/
theorem row_W1 : W1 m ρ c (Proc.devRef .tc main_call0_v3) = Cert.Spec.rowV (m ((c : Thread nD τ).loc main_arg1)) := Cert.KerHost.host0_row (W0 m ρ c)
theorem col_W1 : W1 m ρ c (Proc.devRef .tc main_call0_v6) = Cert.Spec.colV (m ((c : Thread nD τ).loc main_arg1)) := Cert.KerHost.host0_col (W0 m ρ c)
theorem norm_W1 : W1 m ρ c (Proc.devRef .tc main_call0_v30) = Cert.Spec.normV (m ((c : Thread nD τ).loc main_arg1)) := Cert.KerHost.host0_norm (W0 m ρ c)

/-- After the first stretch: the propagated node features, and the first bias as a row. -/
theorem agg_W1 : W1 m ρ c (Proc.devRef .tc main_call0_v62) = (Cert.Spec.agg128 (m ((c : Thread nD τ).loc main_arg1)) (Cert.Spec.h0V (m ((c : Thread nD τ).loc main_arg0)) (m ((c : Thread nD τ).loc main_arg1)) (m ((c : Thread nD τ).loc main_arg2)))) := Cert.KerHost.host0_agg (W0 m ρ c)
theorem bias_W1 : W1 m ρ c (Proc.devRef .tc main_call0_v63) = Cert.Spec.biasRow (m ((c : Thread nD τ).loc main_arg4)) := Cert.KerHost.host0_bias (W0 m ρ c)

/-- The first layer, as the first call leaves it: the fused product of the propagated features. -/
theorem lay1_W2 : W2 m ρ c (Proc.devRef .tc main_call0_v64) = (Cert.Spec.denseRelu (Cert.Spec.agg128 (m ((c : Thread nD τ).loc main_arg1)) (Cert.Spec.h0V (m ((c : Thread nD τ).loc main_arg0)) (m ((c : Thread nD τ).loc main_arg1)) (m ((c : Thread nD τ).loc main_arg2)))) (m ((c : Thread nD τ).loc main_arg3)) (Cert.Spec.biasRow (m ((c : Thread nD τ).loc main_arg4)))) := by
  refine ((W2_arr m ρ c 3).trans (Cert.KerRegions.final0 (V1 m ρ) c)).trans ?_
  show Cert.Spec.denseRelu (W1 m ρ c (Proc.devRef .tc main_call0_v62)) (W1 m ρ c (Proc.devRef .tc main_arg3)) (W1 m ρ c (Proc.devRef .tc main_call0_v63)) = _
  rw [agg_W1, bias_W1, Cert.KerCarry.arg3_at_W1]

/-- The second call leaves the plain product of the first layer with the second weights. -/
theorem pre2_W3 : W3 m ρ c (Proc.devRef .tc main_call0_v65) = (Cert.Spec.dense (Cert.Spec.denseRelu (Cert.Spec.agg128 (m ((c : Thread nD τ).loc main_arg1)) (Cert.Spec.h0V (m ((c : Thread nD τ).loc main_arg0)) (m ((c : Thread nD τ).loc main_arg1)) (m ((c : Thread nD τ).loc main_arg2)))) (m ((c : Thread nD τ).loc main_arg3)) (Cert.Spec.biasRow (m ((c : Thread nD τ).loc main_arg4)))) (m ((c : Thread nD τ).loc main_arg5))) := by
  refine ((W3_arr m ρ c 2).trans (Cert.KerRegionsB.final1 (V2 m ρ) c)).trans ?_
  show Cert.Spec.dense (W2 m ρ c (Proc.devRef .tc main_call0_v64)) (W2 m ρ c (Proc.devRef .tc main_arg5)) = _
  rw [lay1_W2, Cert.KerCarry.arg5_at_W2]

/-- After the second stretch: the second layer (propagate, add the bias, rectify), propagated again. -/
theorem agg_W4 : W4 m ρ c (Proc.devRef .tc main_call0_v95) = (Cert.Spec.agg128 (m ((c : Thread nD τ).loc main_arg1)) (Cert.Spec.relu128 (Cert.Spec.bias128 (Cert.Spec.agg128 (m ((c : Thread nD τ).loc main_arg1)) (Cert.Spec.dense (Cert.Spec.denseRelu (Cert.Spec.agg128 (m ((c : Thread nD τ).loc main_arg1)) (Cert.Spec.h0V (m ((c : Thread nD τ).loc main_arg0)) (m ((c : Thread nD τ).loc main_arg1)) (m ((c : Thread nD τ).loc main_arg2)))) (m ((c : Thread nD τ).loc main_arg3)) (Cert.Spec.biasRow (m ((c : Thread nD τ).loc main_arg4)))) (m ((c : Thread nD τ).loc main_arg5)))) (m ((c : Thread nD τ).loc main_arg6))))) := by
  refine (Cert.KerHostB.host2_agg (W3 m ρ c)).trans ?_
  rw [Cert.KerCarry.row_at_W3, Cert.KerCarry.col_at_W3, Cert.KerCarry.norm_at_W3, row_W1, col_W1, norm_W1, Cert.KerHostB.aggG_spec, Cert.KerHostB.aggG_spec,
    pre2_W3, Cert.KerCarry.arg6_at_W3]

/-- After the second stretch: the third bias as a row. -/
theorem bias_W4 : W4 m ρ c (Proc.devRef .tc main_call0_v96) = Cert.Spec.biasRow (m ((c : Thread nD τ).loc main_arg8)) := by
  refine (Cert.KerHostB.host2_bias (W3 m ρ c)).trans ?_
  rw [Cert.KerCarry.arg8_at_W3]

/-- The third layer, as the third call leaves it. -/
theorem lay3_W5 : W5 m ρ c (Proc.devRef .tc main_call0_v97) = (Cert.Spec.denseRelu (Cert.Spec.agg128 (m ((c : Thread nD τ).loc main_arg1)) (Cert.Spec.relu128 (Cert.Spec.bias128 (Cert.Spec.agg128 (m ((c : Thread nD τ).loc main_arg1)) (Cert.Spec.dense (Cert.Spec.denseRelu (Cert.Spec.agg128 (m ((c : Thread nD τ).loc main_arg1)) (Cert.Spec.h0V (m ((c : Thread nD τ).loc main_arg0)) (m ((c : Thread nD τ).loc main_arg1)) (m ((c : Thread nD τ).loc main_arg2)))) (m ((c : Thread nD τ).loc main_arg3)) (Cert.Spec.biasRow (m ((c : Thread nD τ).loc main_arg4)))) (m ((c : Thread nD τ).loc main_arg5)))) (m ((c : Thread nD τ).loc main_arg6))))) (m ((c : Thread nD τ).loc main_arg7)) (Cert.Spec.biasRow (m ((c : Thread nD τ).loc main_arg8)))) := by
  refine ((W5_arr m ρ c 3).trans (Cert.KerRegions.final2 (V4 m ρ) c)).trans ?_
  show Cert.Spec.denseRelu (W4 m ρ c (Proc.devRef .tc main_call0_v95)) (W4 m ρ c (Proc.devRef .tc main_arg7)) (W4 m ρ c (Proc.devRef .tc main_call0_v96)) = _
  rw [agg_W4, bias_W4, Cert.KerCarry.arg7_at_W4]

/-- The fourth call leaves the plain product of the third layer with the last weights. -/
theorem pre4_W6 : W6 m ρ c (Proc.devRef .tc main_call0_v98) = (Cert.Spec.dense (Cert.Spec.denseRelu (Cert.Spec.agg128 (m ((c : Thread nD τ).loc main_arg1)) (Cert.Spec.relu128 (Cert.Spec.bias128 (Cert.Spec.agg128 (m ((c : Thread nD τ).loc main_arg1)) (Cert.Spec.dense (Cert.Spec.denseRelu (Cert.Spec.agg128 (m ((c : Thread nD τ).loc main_arg1)) (Cert.Spec.h0V (m ((c : Thread nD τ).loc main_arg0)) (m ((c : Thread nD τ).loc main_arg1)) (m ((c : Thread nD τ).loc main_arg2)))) (m ((c : Thread nD τ).loc main_arg3)) (Cert.Spec.biasRow (m ((c : Thread nD τ).loc main_arg4)))) (m ((c : Thread nD τ).loc main_arg5)))) (m ((c : Thread nD τ).loc main_arg6))))) (m ((c : Thread nD τ).loc main_arg7)) (Cert.Spec.biasRow (m ((c : Thread nD τ).loc main_arg8)))) (m ((c : Thread nD τ).loc main_arg9))) := by
  refine ((W6_arr m ρ c 2).trans (Cert.KerRegionsB.final3 (V5 m ρ) c)).trans ?_
  show Cert.Spec.dense (W5 m ρ c (Proc.devRef .tc main_call0_v97)) (W5 m ρ c (Proc.devRef .tc main_arg9)) = _
  rw [lay3_W5, Cert.KerCarry.arg9_at_W5]

/-- The result buffer after the last stretch is the kernel's four-layer composition of the launch arguments. -/
theorem result : W7 m ρ c (Proc.devRef .tc main_v0)
    = Cert.Spec.kerOut (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) := by
  refine (Cert.KerHostB.host4_out (W6 m ρ c)).trans ?_
  rw [Cert.KerCarry.row_at_W6, Cert.KerCarry.col_at_W6, Cert.KerCarry.norm_at_W6, row_W1, col_W1, norm_W1, Cert.KerHostB.aggG_spec, pre4_W6, Cert.KerCarry.arg10_at_W6]
  rfl

end Cert.KerValue

end
-- ==== Proof.Finite.lean ====
/-
  From the precondition to realness of every float argument.

  The precondition is the conjunction, over the ten float arrays, of "every entry has absolute value below +∞", each
  conjunct a reduction by "and" of the entrywise comparisons. At the ideal values an entry is an extended real, its
  absolute value is max x (-x), and the bound is the top element; max x (-x) < ⊤ excludes both infinities, so the entry
  is the image of a real number.
-/
import proofs.«155732_j35897336660442_2_alg».proof.Defs
import proofs.«155732_j35897336660442_2_alg».proof.Proof.Gen.Pre_finite_inputs
import proofs.«155732_j35897336660442_2_alg».proof.Proof.Gen.KernelIdeal
import proofs.«155732_j35897336660442_2_alg».proof.Proof.Spec
import Idealize.ShloMosaic.Lib.ReduceAll
import Idealize.ShloMosaic.Lib.ValueIdx

noncomputable section

namespace Cert.Finite

open Idealize.ShloMosaic Idealize.ShloMosaic.ValueIdx Idealize.SL.Sem Cert.Pre_finite_inputs

/-- The shape of a scalar has exactly one index. -/
instance : Subsingleton S_.Idx := ⟨fun a b => funext fun d => d.elim0⟩

/-- The pattern of the positive infinity denotes the top element. -/
theorem ofBits_inf : Ideal.ofBits .f32 0x7F800000#32 = (⊤ : EReal) := by simp [Ideal.ofBits, Ideal.ieee]

/-- An extended real whose absolute value max x (-x) compares below +∞ is the image of a real number. -/
theorem real_of_abs_lt_inf (x : EReal)
    (h : Ideal.cmp .olt (max x (-x)) (Ideal.ofBits .f32 0x7F800000#32) = 1#1) : ∃ r : ℝ, x = (r : EReal) := by
  rw [ofBits_inf] at h
  induction x using EReal.rec with
  | bot => exfalso; revert h; simp [Ideal.cmp]
  | coe r => exact ⟨r, rfl⟩
  | top => exfalso; revert h; simp [Ideal.cmp]

/-- One conjunct of the precondition read back: if the reduction by "and", over all axes, of the comparisons
    |a i| < +∞ is 1, then every entry of a is real. -/
theorem allReal_of_all {s : Shape} {axes : List (Fin s.rank)} (a : FVec Ideal s .f32)
    (hb : S_.BroadcastsInDim s (![] : Fin 0 → Fin s.rank)) (hr : s.ReducesTo axes S_) (hu : 0 < S_.numel)
    (e : Host.reduce IntOp.andi
          (cmpf (F := Ideal) .olt (Host.absf a) (broadcastInDim s ![] hb (constant (F := Ideal) S_ .f32 0x7F800000#32)))
          (constantI S_ 1 1#1) hr hu ix0 = 1#1) :
    Spec.AllReal a := by
  intro i
  have hi := Host.reduce_andi_all _ _ hr hu ix0 e i
  exact real_of_abs_lt_inf (a i) hi

/-- The precondition over arbitrary arrays: if the printed predicate is 1 then every float array is real-valued.
    The predicate is a left-nested "and" of ten reductions, one per float array; the integer edge list is not tested. -/
theorem allReal_of_fn [hP : Cert.Pre_finite_inputs.Facts]
    (a0 : FVec Ideal S50000x64 .f32) (a1 : IVec S2x800000 32) (a2 : FVec Ideal S800000x64 .f32)
    (a3 : FVec Ideal S128x256 .f32) (a4 : FVec Ideal S256 .f32) (a5 : FVec Ideal S256x128 .f32)
    (a6 : FVec Ideal S128 .f32) (a7 : FVec Ideal S128x256 .f32) (a8 : FVec Ideal S256 .f32)
    (a9 : FVec Ideal S256x128 .f32) (a10 : FVec Ideal S128 .f32)
    (h : Cert.Pre_finite_inputs.fn (F := Ideal) a0 a1 a2 a3 a4 a5 a6 a7 a8 a9 a10 = (fun _ => 1#1)) :
    Spec.AllReal a0 ∧ Spec.AllReal a2 ∧ Spec.AllReal a3 ∧ Spec.AllReal a4 ∧ Spec.AllReal a5 ∧ Spec.AllReal a6
      ∧ Spec.AllReal a7 ∧ Spec.AllReal a8 ∧ Spec.AllReal a9 ∧ Spec.AllReal a10 := by
  have h' := congrFun h ix0
  dsimp only [Cert.Pre_finite_inputs.fn, Cert.Pre_finite_inputs.fn_part1, Cert.Pre_finite_inputs.fn_part2, andi] at h'
  simp only [IntOp.andi_eq_one] at h'
  obtain ⟨⟨⟨⟨⟨⟨⟨⟨⟨h0, h2⟩, h3⟩, h4⟩, h5⟩, h6⟩, h7⟩, h8⟩, h9⟩, h10⟩ := h'
  exact ⟨allReal_of_all a0 _ _ _ h0, allReal_of_all a2 _ _ _ h2, allReal_of_all a3 _ _ _ h3,
    allReal_of_all a4 _ _ _ h4, allReal_of_all a5 _ _ _ h5, allReal_of_all a6 _ _ _ h6,
    allReal_of_all a7 _ _ _ h7, allReal_of_all a8 _ _ _ h8, allReal_of_all a9 _ _ _ h9,
    allReal_of_all a10 _ _ _ h10⟩

/-- Under the precondition of the idealized kernel, on every device, each of the ten float argument arrays is real-valued. -/
theorem real_args [hP : Cert.Pre_finite_inputs.Facts]
    (m : (ℓ : Loc Cert.KernelIdeal.nD Cert.KernelIdeal.τ Cert.KernelIdeal.sig) → Buf (Elt Ideal) ℓ)
    (h : Cert.Pre_KernelIdeal m) (c : Dev Cert.KernelIdeal.nD) :
    Spec.AllReal (s := S50000x64) (φ := .f32) (m ((c.tc : Thread Cert.KernelIdeal.nD Cert.KernelIdeal.τ).loc Cert.KernelIdeal.main_arg0))
    ∧ Spec.AllReal (s := S800000x64) (φ := .f32) (m ((c.tc : Thread Cert.KernelIdeal.nD Cert.KernelIdeal.τ).loc Cert.KernelIdeal.main_arg2))
    ∧ Spec.AllReal (s := S128x256) (φ := .f32) (m ((c.tc : Thread Cert.KernelIdeal.nD Cert.KernelIdeal.τ).loc Cert.KernelIdeal.main_arg3))
    ∧ Spec.AllReal (s := S256) (φ := .f32) (m ((c.tc : Thread Cert.KernelIdeal.nD Cert.KernelIdeal.τ).loc Cert.KernelIdeal.main_arg4))
    ∧ Spec.AllReal (s := S256x128) (φ := .f32) (m ((c.tc : Thread Cert.KernelIdeal.nD Cert.KernelIdeal.τ).loc Cert.KernelIdeal.main_arg5))
    ∧ Spec.AllReal (s := S128) (φ := .f32) (m ((c.tc : Thread Cert.KernelIdeal.nD Cert.KernelIdeal.τ).loc Cert.KernelIdeal.main_arg6))
    ∧ Spec.AllReal (s := S128x256) (φ := .f32) (m ((c.tc : Thread Cert.KernelIdeal.nD Cert.KernelIdeal.τ).loc Cert.KernelIdeal.main_arg7))
    ∧ Spec.AllReal (s := S256) (φ := .f32) (m ((c.tc : Thread Cert.KernelIdeal.nD Cert.KernelIdeal.τ).loc Cert.KernelIdeal.main_arg8))
    ∧ Spec.AllReal (s := S256x128) (φ := .f32) (m ((c.tc : Thread Cert.KernelIdeal.nD Cert.KernelIdeal.τ).loc Cert.KernelIdeal.main_arg9))
    ∧ Spec.AllReal (s := S128) (φ := .f32) (m ((c.tc : Thread Cert.KernelIdeal.nD Cert.KernelIdeal.τ).loc Cert.KernelIdeal.main_arg10)) :=
  allReal_of_fn _ _ _ _ _ _ _ _ _ _ _ (h c)

end Cert.Finite

end
-- ==== Proof.LibRowScatter.lean ====
/-
  The host's accumulating scatter of whole rows, read at an index, at the ideal values.

  What `segment_sum(data, ids, num_segments = N)` lowers to: a `stablehlo.scatter` with an `add` body of an E×C array
  of updates into an N×C operand, the scatter indices an E×1 column — update row `e` is added into operand row `ids[e]`,
  the index read as a signed integer and NOT clamped: an update whose index is negative or at least N is dropped. For a
  vector of E updates into a vector of N cells it is the same with the column axis absent.

  At the ideal values such a scatter is an exact sum, so entry (n, c) of the result is the operand's entry plus the sum,
  over the update rows e whose index is n, of the updates' entries (e, c): the set of contributing rows depends on n
  only, not on the column. That is the content of this file, `rows_apply` and `cells_apply`.
-/
import Idealize.ShloMosaic.PureOps.Ideal.Laws
import Idealize.ShloMosaic.Lib.ValueIdx

noncomputable section

open scoped BigOperators

namespace Idealize.ShloMosaic.RowScatter

open Idealize.ShloMosaic Idealize.ShloMosaic.ValueIdx

variable {N E C w : Nat}

/-- The dimension numbers of a scatter of E rows of width C into an N×C operand, the indices an E×1 column. -/
abbrev rowsDims (N E C : Nat) (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

/-- The dimension numbers of a scatter of E scalars into a vector of N cells, the indices an E×1 column. -/
abbrev cellsDims (N E : Nat) (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

/-- The row update `e` is sent to: its scatter index, read as a signed integer. -/
def dest (idx : IVec ⟨2, ![E, 1]⟩ w) (e : Fin E) : Int := (idx (ix2 e (0 : Fin 1))).toInt

/-! ## Rows -/

section Rows
variable (wf : ScatterDims.WF ⟨2, ![N, C]⟩ ⟨2, ![E, 1]⟩ ⟨2, ![E, C]⟩ [1] [0] [0] 1)

theorem rows_start0 (j : (⟨2, ![E, C]⟩ : Shape).Idx) (idx : IVec ⟨2, ![E, 1]⟩ w) :
    (rowsDims N E C wf).start j idx 0 = dest idx (j 0) := by
  unfold ScatterDims.start dest
  rw [dif_pos (show (0 : Fin 2) ∈ (rowsDims N E C wf).scatterDimsToOperandDims from List.mem_singleton.mpr rfl)]
  congr 2
  funext b; refine Fin.ext ?_
  match b with
  | ⟨0, _⟩ => rfl
  | ⟨1, _⟩ => rfl

theorem rows_start1 (j : (⟨2, ![E, C]⟩ : Shape).Idx) (idx : IVec ⟨2, ![E, 1]⟩ w) :
    (rowsDims N E C wf).start j idx 1 = 0 := by
  unfold ScatterDims.start
  rw [dif_neg (fun h => absurd (congrArg Fin.val (List.mem_singleton.mp h)) Nat.one_ne_zero)]

theorem rows_window0 (j : (⟨2, ![E, C]⟩ : Shape).Idx) : (rowsDims N E C wf).window j 0 = 0 := by
  unfold ScatterDims.window
  rw [dif_neg (fun h => by simp [ScatterDims.sKept, Shape.kept] at h)]

theorem rows_window1 (j : (⟨2, ![E, C]⟩ : Shape).Idx) : (rowsDims N E C wf).window j 1 = (j 1).val := by
  unfold ScatterDims.window
  rw [dif_pos (by simp [ScatterDims.sKept, Shape.kept])]
  rfl

/-- Update (e, c') lands on operand entry (n, c) exactly when the index of row e is n and the columns agree. -/
theorem rows_lands (idx : IVec ⟨2, ![E, 1]⟩ w) (e : Fin E) (c' : Fin C) (n : Fin N) (c : Fin C) :
    (rowsDims N E C wf).resultIdx? (ix2 e c') idx = some (ix2 n c) ↔ dest idx e = (n.val : Int) ∧ c' = c := by
  unfold ScatterDims.resultIdx?
  have s0 : (rowsDims N E C wf).start (ix2 e c') idx 0 = dest idx e := rows_start0 wf (ix2 e c') idx
  have s1 : (rowsDims N E C wf).start (ix2 e c') idx 1 = 0 := rows_start1 wf (ix2 e c') idx
  have w0 : (rowsDims N E C wf).window (ix2 e c') 0 = 0 := rows_window0 wf (ix2 e c')
  have w1 : (rowsDims N E C wf).window (ix2 e c') 1 = c'.val := rows_window1 wf (ix2 e c')
  split
  · rename_i h
    rw [Option.some.injEq]
    constructor
    · intro hf
      have h0 := congrArg (fun f => (f 0).val) hf
      have h1 := congrArg (fun f => (f 1).val) hf
      simp only [s0, s1, w0, w1] at h0 h1
      have hn := (h 0).1
      rw [s0, w0] at hn
      refine ⟨?_, Fin.ext ?_⟩
      · show dest idx e = (n.val : Int)
        have : ((dest idx e + ((0 : Nat) : Int)).toNat : Nat) = n.val := h0
        omega
      · have : ((0 : Int) + ((c'.val : Nat) : Int)).toNat = c.val := h1
        omega
    · rintro ⟨hd, rfl⟩
      funext a; refine Fin.ext ?_
      match a with
      | ⟨0, _⟩ =>
        show ((rowsDims N E C wf).start (ix2 e c') idx 0 + ((rowsDims N E C wf).window (ix2 e c') 0 : Nat)).toNat = n.val
        rw [s0, w0, hd]; omega
      | ⟨1, _⟩ =>
        show ((rowsDims N E C wf).start (ix2 e c') idx 1 + ((rowsDims N E C wf).window (ix2 e c') 1 : Nat)).toNat = c'.val
        rw [s1, w1]; omega
  · rename_i h
    constructor
    · intro hf; exact absurd hf (by simp)
    · rintro ⟨hd, rfl⟩
      exfalso; apply h
      intro a
      match a with
      | ⟨0, _⟩ =>
        show 0 ≤ (rowsDims N E C wf).start (ix2 e c') idx 0 + ((rowsDims N E C wf).window (ix2 e c') 0 : Nat)
          ∧ (rowsDims N E C wf).start (ix2 e c') idx 0 + ((rowsDims N E C wf).window (ix2 e c') 0 : Nat) < (N : Int)
        rw [s0, w0, hd]; have := n.isLt; omega
      | ⟨1, _⟩ =>
        show 0 ≤ (rowsDims N E C wf).start (ix2 e c') idx 1 + ((rowsDims N E C wf).window (ix2 e c') 1 : Nat)
          ∧ (rowsDims N E C wf).start (ix2 e c') idx 1 + ((rowsDims N E C wf).window (ix2 e c') 1 : Nat) < (C : Int)
        rw [s1, w1]; have := c'.isLt; omega

/-- THE ROW SCATTER READ AT (n, c): the operand's entry plus the sum over the update rows sent to row n of their
    entries in column c. -/
theorem rows_apply {φ : FTy} (x : FVec Ideal ⟨2, ![N, C]⟩ φ) (idx : IVec ⟨2, ![E, 1]⟩ w) (upd : FVec Ideal ⟨2, ![E, C]⟩ φ)
    (n : Fin N) (c : Fin C) :
    Host.scatterAdd (rowsDims N E C wf) x idx upd (ix2 n c)
      = x (ix2 n c) + ∑ e ∈ Finset.univ.filter (fun e : Fin E => dest idx e = (n.val : Int)), upd (ix2 e c) := by
  show Ideal.hostScatterAdd (rowsDims N E C wf) x idx upd (ix2 n c) = _
  unfold Ideal.hostScatterAdd
  congr 1
  rw [Finset.sum_filter, Finset.sum_filter, sum_idx2]
  refine Finset.sum_congr rfl fun e _ => ?_
  by_cases hd : dest idx e = (n.val : Int)
  · rw [if_pos hd, Finset.sum_eq_single c]
    · rw [if_pos ((rows_lands wf idx e c n c).mpr ⟨hd, rfl⟩)]
    · intro c' _ hne
      rw [if_neg (fun h => hne ((rows_lands wf idx e c' n c).mp h).2)]
    · intro h; exact absurd (Finset.mem_univ c) h
  · rw [if_neg hd]
    exact Finset.sum_eq_zero fun c' _ => if_neg (fun h => hd ((rows_lands wf idx e c' n c).mp h).1)

end Rows

/-! ## Cells -/

section Cells
variable (wf : ScatterDims.WF ⟨1, ![N]⟩ ⟨2, ![E, 1]⟩ ⟨1, ![E]⟩ [] [0] [0] 1)

theorem cells_start0 (j : (⟨1, ![E]⟩ : Shape).Idx) (idx : IVec ⟨2, ![E, 1]⟩ w) :
    (cellsDims N E wf).start j idx 0 = dest idx (j 0) := by
  unfold ScatterDims.start dest
  rw [dif_pos (show (0 : Fin 1) ∈ (cellsDims N E wf).scatterDimsToOperandDims from List.mem_singleton.mpr rfl)]
  congr 2
  funext b; refine Fin.ext ?_
  match b with
  | ⟨0, _⟩ => rfl
  | ⟨1, _⟩ => rfl

theorem cells_window0 (j : (⟨1, ![E]⟩ : Shape).Idx) : (cellsDims N E wf).window j 0 = 0 := by
  unfold ScatterDims.window
  rw [dif_neg (fun h => by simp [ScatterDims.sKept, Shape.kept] at h)]

/-- Update e lands on cell n exactly when its index is n. -/
theorem cells_lands (idx : IVec ⟨2, ![E, 1]⟩ w) (e : Fin E) (n : Fin N) :
    (cellsDims N E wf).resultIdx? (ix1 e) idx = some (ix1 n) ↔ dest idx e = (n.val : Int) := by
  unfold ScatterDims.resultIdx?
  have s0 : (cellsDims N E wf).start (ix1 e) idx 0 = dest idx e := cells_start0 wf (ix1 e) idx
  have w0 : (cellsDims N E wf).window (ix1 e) 0 = 0 := cells_window0 wf (ix1 e)
  split
  · rename_i h
    rw [Option.some.injEq]
    constructor
    · intro hf
      have h0 := congrArg (fun f => (f 0).val) hf
      simp only [s0, w0] at h0
      have hn := (h 0).1
      rw [s0, w0] at hn
      have : ((dest idx e + ((0 : Nat) : Int)).toNat : Nat) = n.val := h0
      omega
    · intro hd
      funext a; refine Fin.ext ?_
      match a with
      | ⟨0, _⟩ =>
        show ((cellsDims N E wf).start (ix1 e) idx 0 + ((cellsDims N E wf).window (ix1 e) 0 : Nat)).toNat = n.val
        rw [s0, w0, hd]; omega
  · rename_i h
    constructor
    · intro hf; exact absurd hf (by simp)
    · intro hd
      exfalso; apply h
      intro a
      match a with
      | ⟨0, _⟩ =>
        show 0 ≤ (cellsDims N E wf).start (ix1 e) idx 0 + ((cellsDims N E wf).window (ix1 e) 0 : Nat)
          ∧ (cellsDims N E wf).start (ix1 e) idx 0 + ((cellsDims N E wf).window (ix1 e) 0 : Nat) < (N : Int)
        rw [s0, w0, hd]; have := n.isLt; omega

/-- A sum over a rank-1 index set is the sum over its coordinate. -/
theorem sum_idx1 {M : Type*} [AddCommMonoid M] {n : Nat} (f : (⟨1, ![n]⟩ : Shape).Idx → M) :
    ∑ i, f i = ∑ a : Fin n, f (ix1 a) := by
  let eqv : (⟨1, ![n]⟩ : Shape).Idx ≃ Fin n :=
    ⟨fun i => i 0, fun a => ix1 a, fun i => (eq_ix1 i).symm, fun _ => rfl⟩
  rw [← Equiv.sum_comp eqv.symm f]
  rfl

/-- THE CELL SCATTER READ AT n: the operand's entry plus the sum of the updates sent to cell n. -/
theorem cells_apply {φ : FTy} (x : FVec Ideal ⟨1, ![N]⟩ φ) (idx : IVec ⟨2, ![E, 1]⟩ w) (upd : FVec Ideal ⟨1, ![E]⟩ φ)
    (n : Fin N) :
    Host.scatterAdd (cellsDims N E wf) x idx upd (ix1 n)
      = x (ix1 n) + ∑ e ∈ Finset.univ.filter (fun e : Fin E => dest idx e = (n.val : Int)), upd (ix1 e) := by
  show Ideal.hostScatterAdd (cellsDims N E wf) x idx upd (ix1 n) = _
  unfold Ideal.hostScatterAdd
  congr 1
  rw [Finset.sum_filter, Finset.sum_filter, sum_idx1]
  refine Finset.sum_congr rfl fun e _ => ?_
  by_cases hd : dest idx e = (n.val : Int)
  · rw [if_pos hd, if_pos ((cells_lands wf idx e n).mpr hd)]
  · rw [if_neg hd, if_neg (fun h => hd ((cells_lands wf idx e n).mp h))]

end Cells

end Idealize.ShloMosaic.RowScatter

end
-- ==== Proof.LibEdgeGather.lean ====
/-
  A gather through a column of start indices, read at an index.

  What `x[idx]` lowers to when `idx` is a vector of E integers: a `stablehlo.gather` whose start indices are an E×1
  column, the one component of each start index naming a position on the operand's first axis. The start index is read
  as a signed integer and clamped into 0 … N − 1 (a negative one reads position 0, one past the end reads position N − 1).
  * Of a flat operand of N entries the result is a vector of E entries: entry e is the operand at that position.
  * Of an N×C operand, whole rows are taken: entry (e, c) is the operand at (that position, c).
-/
import Idealize.ShloMosaic.PureOps
import Idealize.ShloMosaic.Lib.ValueIdx

noncomputable section

namespace Cert.Lib.EdgeGather

open Idealize.ShloMosaic Idealize.ShloMosaic.ValueIdx

variable {α : Type} {N E C w : Nat}

/-- The position a start index names: read signed, clamped into 0 … N − 1. -/
def pos (N : Nat) (hN : 0 < N) (b : BitVec w) : Fin N := ⟨min b.toInt.toNat (N - 1), by omega⟩

/-- Dimension numbers of a gather of single entries of a flat operand through an E×1 column of start indices. -/
abbrev flatDims (N E : Nat) (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-- Dimension numbers of a gather of whole rows of an N×C operand through an E×1 column of start indices. -/
abbrev rowDims (N E C : Nat) (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- Entry e of the flat gather: the operand at the position start index e names. -/
theorem flat_apply (hN : 0 < N) (wf : GatherDims.WF ⟨1, ![N]⟩ ⟨2, ![E, 1]⟩ ⟨1, ![E]⟩ [] [0] [] [0] [] 1 ![1])
    (x : (⟨1, ![N]⟩ : Shape).Idx → α) (idx : IVec ⟨2, ![E, 1]⟩ w) (e : Fin E) :
    Host.gather (flatDims N E wf) x idx (ix1 e) = x (ix1 (pos N hN (idx (ix2 e (0 : Fin 1))))) := by
  unfold Host.gather
  congr 1
  funext a
  obtain rfl : a = 0 := Subsingleton.elim _ _
  refine Fin.ext ?_
  show (flatDims N E wf).start (ix1 e) idx 0 + (flatDims N E wf).batchCoord (ix1 e) 0 + (flatDims N E wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (flatDims N E wf).startIndexMap from List.mem_singleton.mpr rfl)]
  have hsi : (flatDims N E wf).siIdx (ix1 e) ⟨List.idxOf (0 : Fin 1) (flatDims N E wf).startIndexMap,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]
  rfl

/-- Entry (e, c) of the row gather: the operand at (the position start index e names, c). -/
theorem row_apply (hN : 0 < N) (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (e : Fin E) (c : Fin C) :
    Host.gather (rowDims N E C wf) x idx (ix2 e c) = x (ix2 (pos N hN (idx (ix2 e (0 : Fin 1)))) c) := by
  unfold Host.gather
  congr 1
  funext a
  refine Fin.ext ?_
  match a with
  | ⟨0, _⟩ =>
    show (rowDims N E C wf).start (ix2 e c) idx 0 + (rowDims N E C wf).batchCoord (ix2 e c) 0
      + (rowDims N E C wf).offCoord (ix2 e c) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowDims N E C wf).startIndexMap from List.mem_singleton.mpr rfl)]
    have hsi : (rowDims N E C wf).siIdx (ix2 e c) ⟨List.idxOf (0 : Fin 2) (rowDims N E C wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    show (rowDims N E C wf).start (ix2 e c) idx 1 + (rowDims N E C wf).batchCoord (ix2 e c) 1
      + (rowDims N E C wf).offCoord (ix2 e c) 1 = c.val
    rw [GatherDims.batchCoord_eq_zero _ _ _ List.not_mem_nil]
    have hs : (rowDims N E C wf).start (ix2 e c) idx 1 = 0 := by
      unfold GatherDims.start
      rw [dif_neg (fun h => absurd (congrArg Fin.val (List.mem_singleton.mp h)) Nat.one_ne_zero)]
    have ho : (rowDims N E C wf).offCoord (ix2 e c) 1 = c.val := by
      unfold GatherDims.offCoord
      rw [dif_pos (by simp [GatherDims.sKept, Shape.kept])]
      rfl
    rw [hs, ho]
    omega

end Cert.Lib.EdgeGather

end
-- ==== Proof.LibRealValued.lean ====
/-
  Real-valued extended reals. A quantity is real-valued when it is the image of a real number, that is,
  neither of the two infinities. The arithmetic of the extended reals restricted to real-valued
  quantities is the arithmetic of the real numbers, and the exponential and the division by a nonzero
  real keep a real-valued argument real-valued.
-/
import Mathlib
import Idealize.ShloMosaic.PureOps.Ideal
import Idealize.ShloMosaic.PureOps.Ideal.Laws

namespace Cert.RealValued

open Idealize.ShloMosaic

/-- An extended real is real-valued when it is (the image of) a real number. -/
def IsReal (x : EReal) : Prop := ∃ r : ℝ, x = (r : EReal)

/-- The image of a real number is real-valued. -/
theorem IsReal.coe (r : ℝ) : IsReal (r : EReal) := ⟨r, rfl⟩

/-- Zero is real-valued. -/
theorem IsReal.zero : IsReal (0 : EReal) := ⟨0, EReal.coe_zero.symm⟩

/-- One is real-valued. -/
theorem IsReal.one : IsReal (1 : EReal) := ⟨1, EReal.coe_one.symm⟩

/-- A real-valued quantity is neither infinity. -/
theorem IsReal.ne_top {x : EReal} (hx : IsReal x) : x ≠ ⊤ := by
  obtain ⟨a, rfl⟩ := hx; exact EReal.coe_ne_top a

/-- A real-valued quantity is neither infinity. -/
theorem IsReal.ne_bot {x : EReal} (hx : IsReal x) : x ≠ ⊥ := by
  obtain ⟨a, rfl⟩ := hx; exact EReal.coe_ne_bot a

/-- The sum of two real-valued quantities is real-valued. -/
theorem IsReal.add {x y : EReal} (hx : IsReal x) (hy : IsReal y) : IsReal (x + y) := by
  obtain ⟨a, rfl⟩ := hx; obtain ⟨b, rfl⟩ := hy
  exact ⟨a + b, (EReal.coe_add a b).symm⟩

/-- The difference of two real-valued quantities is real-valued. -/
theorem IsReal.sub {x y : EReal} (hx : IsReal x) (hy : IsReal y) : IsReal (x - y) := by
  obtain ⟨a, rfl⟩ := hx; obtain ⟨b, rfl⟩ := hy
  exact ⟨a - b, (EReal.coe_sub a b).symm⟩

/-- The product of two real-valued quantities is real-valued. -/
theorem IsReal.mul {x y : EReal} (hx : IsReal x) (hy : IsReal y) : IsReal (x * y) := by
  obtain ⟨a, rfl⟩ := hx; obtain ⟨b, rfl⟩ := hy
  exact ⟨a * b, (EReal.coe_mul a b).symm⟩

/-- The negation of a real-valued quantity is real-valued. -/
theorem IsReal.neg {x : EReal} (hx : IsReal x) : IsReal (-x) := by
  obtain ⟨a, rfl⟩ := hx
  exact ⟨-a, (EReal.coe_neg a).symm⟩

/-- The maximum of two real numbers, taken in the extended reals, is the image of their maximum. -/
theorem coe_max (a b : ℝ) : max (a : EReal) (b : EReal) = ((max a b : ℝ) : EReal) := by
  rcases le_total a b with h | h
  · rw [max_eq_right h, max_eq_right (EReal.coe_le_coe_iff.2 h)]
  · rw [max_eq_left h, max_eq_left (EReal.coe_le_coe_iff.2 h)]

/-- The maximum of two real-valued quantities is real-valued. -/
theorem IsReal.max {x y : EReal} (hx : IsReal x) (hy : IsReal y) : IsReal (max x y) := by
  obtain ⟨a, rfl⟩ := hx; obtain ⟨b, rfl⟩ := hy
  exact ⟨Max.max a b, coe_max a b⟩

/-- A finite sum of real-valued quantities is real-valued. -/
theorem IsReal.sum {ι : Type*} (s : Finset ι) (f : ι → EReal) (h : ∀ i ∈ s, IsReal (f i)) :
    IsReal (∑ i ∈ s, f i) := by
  classical
  induction s using Finset.induction_on with
  | empty => simpa using IsReal.zero
  | insert a s ha ih =>
    rw [Finset.sum_insert ha]
    exact (h a (Finset.mem_insert_self a s)).add
      (ih fun i hi => h i (Finset.mem_insert_of_mem hi))

/-- The coercion of the reals into the extended reals commutes with finite sums. -/
theorem coe_sum {ι : Type*} (s : Finset ι) (f : ι → ℝ) :
    ((∑ i ∈ s, f i : ℝ) : EReal) = ∑ i ∈ s, (f i : EReal) := by
  classical
  induction s using Finset.induction_on with
  | empty => simp
  | insert i s hi ih => rw [Finset.sum_insert hi, Finset.sum_insert hi, EReal.coe_add, ih]

/-- The exponential of a real-valued quantity is a positive real number. -/
theorem exp_coe_pos (r : ℝ) : ∃ e : ℝ, 0 < e ∧ Ideal.exp (r : EReal) = (e : EReal) :=
  ⟨Real.exp r, Real.exp_pos r, Ideal.exp_coe r⟩

/-- The exponential of a real-valued quantity is real-valued. -/
theorem isReal_exp {x : EReal} (h : IsReal x) : IsReal (Ideal.exp x) := by
  obtain ⟨a, rfl⟩ := h
  exact ⟨Real.exp a, Ideal.exp_coe a⟩

/-- A real-valued quantity divided by a nonzero real number is real-valued. -/
theorem isReal_div_coe {x : EReal} (h : IsReal x) {y : ℝ} (hy : y ≠ 0) :
    IsReal (Ideal.div x (y : EReal)) := by
  rw [Ideal.div_coe hy x]
  exact h.mul (IsReal.coe _)

end Cert.RealValued
-- ==== Proof.RealStages.lean ====
/-
  The two data-dependent stages of the graph convolution take only real values.

  The per-entry weight `normV`: the degree of a node is zero plus a finite sum of ones, a real number; its power with the
  real exponent -1/2 is a real number (the power of two reals is `Real.rpow`, whatever the base), and where the degree is
  not positive the zero constant stands instead; a weight is the product of two such entries looked up through the edge
  list, and a lookup returns an entry of its operand.

  The node features `h0V`: an entry of a concatenation is an entry of one of its pieces. The first piece is the given
  real array. The second is a quotient: its numerator is zero plus a finite sum of entries of the given real edge
  attributes, a real number; its divisor is a count (zero plus a finite sum of ones, a real number that is not negative)
  plus the positive real constant 2^-27 · (2^23 + 2870391), about 1e-8, hence a positive real number, and a real divided by
  a nonzero real is a real.

  Only realness is established here, never a value.
-/
import proofs.«155732_j35897336660442_2_alg».proof.Proof.Spec
import proofs.«155732_j35897336660442_2_alg».proof.Proof.LibRowScatter
import proofs.«155732_j35897336660442_2_alg».proof.Proof.LibEdgeGather
import proofs.«155732_j35897336660442_2_alg».proof.Proof.LibRealValued
import Idealize.ShloMosaic.Lib.IdealHost

noncomputable section

open scoped BigOperators

namespace Cert.RealStages

open Idealize.ShloMosaic Idealize.ShloMosaic.ValueIdx Cert.ReferenceIdeal Cert.ReferenceIdeal.Facts₀ Cert.RealValued

/-! ## Operations that only move entries -/

section Moves
variable {α : Type}

/-- Every entry of a broadcast is an entry of its operand: what holds of all the operand's entries holds of all the
    broadcast's. -/
theorem broadcastInDim_forall {s t : Shape} (dims : Fin s.rank → Fin t.rank) (h : s.BroadcastsInDim t dims)
    (x : s.Idx → α) (P : α → Prop) (hP : ∀ k, P (x k)) (j : t.Idx) : P (broadcastInDim t dims h x j) := by
  unfold broadcastInDim
  exact hP _

/-- Every entry of a concatenation is an entry of one of its pieces: what holds of all entries of all pieces holds of
    all entries of the concatenation. -/
theorem concatenate_forall {t : Shape} (a : Fin t.rank) (xs : List ((s : Shape) × (s.Idx → α)))
    (h : Shape.Concatenates (xs.map (·.1)) t a) (P : α → Prop) (hP : ∀ p ∈ xs, ∀ k, P (p.2 k)) (j : t.Idx) :
    P (concatenate t a xs h j) := by
  unfold concatenate
  exact hP _ (List.getElem_mem _) _

end Moves

/-! ## Real-valued powers and constants -/

/-- The power of two real numbers is a real number. -/
theorem isReal_pow {x y : EReal} (hx : IsReal x) (hy : IsReal y) : IsReal (Ideal.pow x y) := by
  obtain ⟨a, rfl⟩ := hx; obtain ⟨b, rfl⟩ := hy
  exact ⟨Real.rpow a b, rfl⟩

/-- A pattern whose exponent field is not all ones denotes a real number. -/
theorem isReal_ieee (e m : Nat) {w : Nat} (b : BitVec w) (hex : (b.extractLsb' m e).toNat ≠ 2 ^ e - 1) :
    IsReal (Ideal.ieee e m b) := by
  unfold Ideal.ieee
  simp only []
  rw [if_neg hex]
  split
  · exact ⟨_, rfl⟩
  · exact ⟨_, rfl⟩

/-- A pattern with sign bit clear and exponent field neither zero nor all ones denotes a positive real number. -/
theorem pos_ieee (e m : Nat) {w : Nat} (b : BitVec w) (hs : (b.extractLsb' (e + m) 1 == 1#1) = false)
    (hex : (b.extractLsb' m e).toNat ≠ 2 ^ e - 1) (h0 : (b.extractLsb' m e).toNat ≠ 0) :
    ∃ r : ℝ, 0 < r ∧ Ideal.ieee e m b = (r : EReal) := by
  unfold Ideal.ieee
  simp only [hs, Bool.false_eq_true, ↓reduceIte]
  rw [if_neg hex, if_neg h0]
  refine ⟨_, ?_, rfl⟩
  positivity

/-- The f32 pattern 0xBF000000 (minus one half) denotes a real number. -/
theorem isReal_neg_half : IsReal (Ideal.ofBits .f32 0xBF000000#32) := by
  show IsReal (Ideal.ieee 8 23 (0xBF000000#32 : BitVec 32))
  exact isReal_ieee 8 23 _ (by decide)

/-- The f32 pattern 0x322BCC77 (about 1e-8) denotes a positive real number. -/
theorem pos_eps : ∃ r : ℝ, 0 < r ∧ Ideal.ofBits .f32 0x322BCC77#32 = (r : EReal) := by
  show ∃ r : ℝ, 0 < r ∧ Ideal.ieee 8 23 (0x322BCC77#32 : BitVec 32) = (r : EReal)
  exact pos_ieee 8 23 _ (by decide) (by decide) (by decide)

section Moves2
variable {α : Type}

/-- Every entry of a lookup is an entry of its operand. -/
theorem gather_forall {s si t : Shape} {w : Nat} (d : GatherDims s si t) (x : s.Idx → α) (idx : IVec si w)
    (P : α → Prop) (hP : ∀ k, P (x k)) (j : t.Idx) : P (Host.gather d x idx j) := by
  unfold Host.gather
  exact hP _

end Moves2

/-- A real number divided by a positive real number is a real number. -/
theorem isReal_div_pos {x y : EReal} (hx : IsReal x) (hy : ∃ r : ℝ, 0 < r ∧ y = (r : EReal)) :
    IsReal (Ideal.div x y) := by
  obtain ⟨r, hr, rfl⟩ := hy
  exact isReal_div_coe hx hr.ne'

/-! ## Accumulations of real entries -/

/-- Accumulating real updates into the cells of a real vector leaves real cells. -/
theorem cells_real {N E w : Nat} (wf : ScatterDims.WF ⟨1, ![N]⟩ ⟨2, ![E, 1]⟩ ⟨1, ![E]⟩ [] [0] [0] 1)
    (x : FVec Ideal ⟨1, ![N]⟩ .f32) (idx : IVec ⟨2, ![E, 1]⟩ w) (upd : FVec Ideal ⟨1, ![E]⟩ .f32)
    (hx : ∀ k, IsReal (x k)) (hu : ∀ k, IsReal (upd k)) (j : (⟨1, ![N]⟩ : Shape).Idx) :
    IsReal (Host.scatterAdd (RowScatter.cellsDims N E wf) x idx upd j) := by
  obtain ⟨n, rfl⟩ : ∃ n, j = ix1 n := ⟨j 0, eq_ix1 j⟩
  rw [RowScatter.cells_apply]
  exact (hx _).add (IsReal.sum _ _ fun e _ => hu _)

/-- Accumulating updates that are not negative into cells that are not negative leaves cells that are not negative. -/
theorem cells_nonneg {N E w : Nat} (wf : ScatterDims.WF ⟨1, ![N]⟩ ⟨2, ![E, 1]⟩ ⟨1, ![E]⟩ [] [0] [0] 1)
    (x : FVec Ideal ⟨1, ![N]⟩ .f32) (idx : IVec ⟨2, ![E, 1]⟩ w) (upd : FVec Ideal ⟨1, ![E]⟩ .f32)
    (hx : ∀ k, (0 : EReal) ≤ x k) (hu : ∀ k, (0 : EReal) ≤ upd k) (j : (⟨1, ![N]⟩ : Shape).Idx) :
    (0 : EReal) ≤ Host.scatterAdd (RowScatter.cellsDims N E wf) x idx upd j := by
  obtain ⟨n, rfl⟩ : ∃ n, j = ix1 n := ⟨j 0, eq_ix1 j⟩
  rw [RowScatter.cells_apply]
  exact add_nonneg (hx _) (Finset.sum_nonneg fun e _ => hu _)

/-- Accumulating real update rows into the rows of a real matrix leaves real entries. -/
theorem rows_real {N E C w : Nat} (wf : ScatterDims.WF ⟨2, ![N, C]⟩ ⟨2, ![E, 1]⟩ ⟨2, ![E, C]⟩ [1] [0] [0] 1)
    (x : FVec Ideal ⟨2, ![N, C]⟩ .f32) (idx : IVec ⟨2, ![E, 1]⟩ w) (upd : FVec Ideal ⟨2, ![E, C]⟩ .f32)
    (hx : ∀ k, IsReal (x k)) (hu : ∀ k, IsReal (upd k)) (j : (⟨2, ![N, C]⟩ : Shape).Idx) :
    IsReal (Host.scatterAdd (RowScatter.rowsDims N E C wf) x idx upd j) := by
  obtain ⟨n, c, rfl⟩ : ∃ n c, j = ix2 n c := ⟨j 0, j 1, eq_ix2 j⟩
  rw [RowScatter.rows_apply]
  exact (hx _).add (IsReal.sum _ _ fun e _ => hu _)

/-! ## The constants, broadcast -/

/-- The zero constant broadcast to any shape is zero everywhere. -/
theorem zeros_apply {t : Shape} (h : S_.BroadcastsInDim t ![]) (j : t.Idx) :
    broadcastInDim t ![] h (constant (F := Ideal) S_ .f32 0x00000000#32) j = (0 : EReal) :=
  broadcastInDim_forall (s := S_) (t := t) _ h _ (fun y => y = (0 : EReal)) (fun _ => Ideal.ofBits_zero_f32) j

/-- The one constant broadcast to any shape is one everywhere. -/
theorem ones_apply {t : Shape} (h : S_.BroadcastsInDim t ![]) (j : t.Idx) :
    broadcastInDim t ![] h (constant (F := Ideal) S_ .f32 0x3F800000#32) j = (1 : EReal) :=
  broadcastInDim_forall (s := S_) (t := t) _ h _ (fun y => y = (1 : EReal)) (fun _ => Ideal.ofBits_one_f32) j

/-! ## The per-entry weight -/

/-- The host's power at an index is the ideal power of the entries. -/
theorem hostPowf_apply {s : Shape} {φ : FTy} (a b : FVec Ideal s φ) (i : s.Idx) :
    Host.powf a b i = Ideal.pow (a i) (b i) := rfl

/-- The degree of every node is a real number. -/
theorem degV_real (ei : IVec S2x800000 32) (j : S50000.Idx) : IsReal (Spec.degV ei j) := by
  refine cells_real scatter_S50000_S850000x1_S850000_n_0_0_1_wf _ _ _ (fun k => ?_) (fun k => ?_) j
  · rw [zeros_apply]; exact IsReal.zero
  · rw [ones_apply]; exact IsReal.one

/-- deg^(-1/2), or zero where the degree is not positive, is a real number at every node. -/
theorem dinvV_real (ei : IVec S2x800000 32) (j : S50000.Idx) : IsReal (Spec.dinvV ei j) := by
  unfold Spec.dinvV
  rw [select_apply]
  unfold Scalar.select
  split
  · rw [hostPowf_apply]
    refine isReal_pow (degV_real ei j) ?_
    exact broadcastInDim_forall _ _ _ IsReal (fun _ => isReal_neg_half) j
  · exact broadcastInDim_forall _ _ _ IsReal (fun _ => ⟨0, Ideal.ofBits_zero_f32⟩) j

/-- THE WEIGHTS ARE REAL: every entry of `normV` is a real number, whatever the edge list. -/
theorem normV_real (ei : IVec S2x800000 32) : Spec.AllReal (Spec.normV ei) := by
  intro j
  show IsReal (Spec.normV ei j)
  unfold Spec.normV
  rw [mulf_apply]
  exact (gather_forall _ _ _ IsReal (dinvV_real ei) j).mul (gather_forall _ _ _ IsReal (dinvV_real ei) j)

/-! ## The node features -/

/-- A real number that is not negative plus a positive real number is a positive real number. -/
theorem pos_add {a b : EReal} (ha : IsReal a) (ha0 : (0 : EReal) ≤ a) (hb : ∃ r : ℝ, 0 < r ∧ b = (r : EReal)) :
    ∃ r : ℝ, 0 < r ∧ a + b = (r : EReal) := by
  obtain ⟨x, rfl⟩ := ha
  obtain ⟨y, hy, rfl⟩ := hb
  have hx : (0 : ℝ) ≤ x := EReal.coe_nonneg.mp ha0
  exact ⟨x + y, by linarith, (EReal.coe_add x y).symm⟩

/-- The averaged attributes: an accumulation of real rows divided, entry by entry, by a count plus the positive constant
    is real everywhere, whatever the two index columns. -/
theorem quotient_real (idx1 idx2 : IVec S1600000x1 32) (upd : FVec Ideal S1600000x64 .f32)
    (hupd : ∀ k, IsReal (upd k)) (k : S50000x64.Idx) :
    IsReal (Host.divf
      (Host.scatterAdd scatter_S50000x64_S1600000x1_S1600000x64_1_0_0_1
        (broadcastInDim S50000x64 ![] bcast_S_S50000x64 (constant S_ .f32 0x00000000#32)) idx1 upd)
      (broadcastInDim S50000x64 ![0, 1] bcast_S50000x1_S50000x64_0_1 (broadcastInDim S50000x1 ![0] bcast_S50000_S50000x1_0
        (addf (Host.scatterAdd scatter_S50000_S1600000x1_S1600000_n_0_0_1
            (broadcastInDim S50000 ![] bcast_S_S50000 (constant S_ .f32 0x00000000#32)) idx2
            (broadcastInDim S1600000 ![] bcast_S_S1600000 (constant S_ .f32 0x3F800000#32)))
          (broadcastInDim S50000 ![] bcast_S_S50000 (constant S_ .f32 0x322BCC77#32))))) k) := by
  rw [hostDivf_apply]
  refine isReal_div_pos ?_ ?_
  · refine rows_real scatter_S50000x64_S1600000x1_S1600000x64_1_0_0_1_wf _ _ _ (fun i => ?_) hupd k
    rw [zeros_apply]; exact IsReal.zero
  · refine broadcastInDim_forall _ _ _ (fun y => ∃ r : ℝ, 0 < r ∧ y = (r : EReal)) (fun i => ?_) k
    refine broadcastInDim_forall _ _ _ (fun y => ∃ r : ℝ, 0 < r ∧ y = (r : EReal)) (fun n => ?_) i
    rw [addf_apply]
    refine pos_add ?_ ?_ (broadcastInDim_forall _ _ _ (fun y => ∃ r : ℝ, 0 < r ∧ y = (r : EReal)) (fun _ => pos_eps) n)
    · refine cells_real scatter_S50000_S1600000x1_S1600000_n_0_0_1_wf _ _ _ (fun m => ?_) (fun m => ?_) n
      · rw [zeros_apply]; exact IsReal.zero
      · rw [ones_apply]; exact IsReal.one
    · refine cells_nonneg scatter_S50000_S1600000x1_S1600000_n_0_0_1_wf _ _ _ (fun m => ?_) (fun m => ?_) n
      · rw [zeros_apply]
      · rw [ones_apply]; exact zero_le_one

/-- THE NODE FEATURES ARE REAL: every entry of `h0V` is a real number when the given features and edge attributes are,
    whatever the edge list. -/
theorem h0V_real (x : FVec Ideal S50000x64 .f32) (ei : IVec S2x800000 32) (ea : FVec Ideal S800000x64 .f32)
    (hx : Spec.AllReal x) (hea : Spec.AllReal ea) : Spec.AllReal (Spec.h0V x ei ea) := by
  intro j
  show IsReal (Spec.h0V x ei ea j)
  unfold Spec.h0V
  refine concatenate_forall _ _ _ IsReal (fun p hp => ?_) j
  simp only [List.mem_cons, List.not_mem_nil, or_false] at hp
  rcases hp with rfl | rfl
  · exact hx
  · refine quotient_real _ _ _ (concatenate_forall _ _ _ IsReal (fun q hq => ?_))
    simp only [List.mem_cons, List.not_mem_nil, or_false] at hq
    rcases hq with rfl | rfl
    · exact hea
    · exact hea

end Cert.RealStages

end
-- ==== Proof.LibSumLaw.lean ====
import Mathlib.Data.EReal.Basic
import Mathlib.Algebra.BigOperators.Ring.Finset
import Mathlib.Algebra.BigOperators.Group.Finset.Sigma
import Mathlib.Tactic.Ring

/-!
# Reassociating a double sum of products of finite extended reals

For families `a k`, `x k j`, `w j` of extended reals all of whose entries are real numbers,
`∑ j, (∑ k, a k * x k j) * w j = ∑ k, a k * (∑ j, x k j * w j)`.

On the extended reals multiplication does not distribute over addition at the infinities
(`(⊤ + ⊥) * c` against `⊤ * c + ⊥ * c`), so the statement needs every entry to be real. With real
entries both sides are the coercion of the same real number: distribute, swap the two finite
sums, and reassociate each product.
-/

open scoped BigOperators

namespace Cert.SumLaw

/-- The coercion `ℝ → EReal` commutes with finite sums. -/
theorem coe_sum {ι : Type*} (s : Finset ι) (f : ι → ℝ) :
    ((∑ i ∈ s, f i : ℝ) : EReal) = ∑ i ∈ s, (f i : EReal) := by
  classical
  induction s using Finset.induction_on with
  | empty => simp
  | insert i s hi ih => rw [Finset.sum_insert hi, Finset.sum_insert hi, EReal.coe_add, ih]

/-- The law in the reals: distribute, swap the two sums, reassociate the products. -/
theorem real_sum_mul_sum_assoc {K J : ℕ} (a : Fin K → ℝ) (x : Fin K → Fin J → ℝ) (w : Fin J → ℝ) :
    (∑ j : Fin J, (∑ k : Fin K, a k * x k j) * w j) = ∑ k : Fin K, a k * (∑ j : Fin J, x k j * w j) := by
  simp only [Finset.sum_mul, Finset.mul_sum]
  rw [Finset.sum_comm]
  refine Finset.sum_congr rfl fun k _ => Finset.sum_congr rfl fun j _ => ?_
  ring

/-- The law on extended reals whose entries are all real. -/
theorem sum_mul_sum_assoc {K J : ℕ} (a : Fin K → EReal) (x : Fin K → Fin J → EReal) (w : Fin J → EReal)
    (ha : ∀ k, ∃ r : ℝ, a k = (r : EReal)) (hx : ∀ k j, ∃ r : ℝ, x k j = (r : EReal))
    (hw : ∀ j, ∃ r : ℝ, w j = (r : EReal)) :
    (∑ j : Fin J, (∑ k : Fin K, a k * x k j) * w j) = ∑ k : Fin K, a k * (∑ j : Fin J, x k j * w j) := by
  choose a' ha' using ha
  choose x' hx' using hx
  choose w' hw' using hw
  simp only [ha', hx', hw', ← EReal.coe_mul, ← coe_sum]
  rw [real_sum_mul_sum_assoc]

end Cert.SumLaw
-- ==== Proof.LibHostRow.lean ====
/-
  A bias row on the host: a length-n vector placed as the one row of a 1×n matrix (`broadcast_in_dim` with dims = [1]) and
  that row repeated down m rows (`broadcast_in_dim` with dims = [0, 1]) reads, at (r, c), the vector at c — the entry does
  not depend on the row r. General: any element type, any extents.
-/
import Idealize.ShloMosaic.Lib.Pipeline.Value
import Idealize.ShloMosaic.Lib.ValueIdx
import Idealize.ShloMosaic.Lib.KernelVsHost

namespace Cert.Lib.HostRow

open Idealize.ShloMosaic Idealize.ShloMosaic.ValueIdx

variable {α : Type}

/-- A length-n vector broadcast to 1×n along its own axis reads, at (u, c), the vector at c. -/
theorem vector_as_row_apply {n : ℕ} (h : (⟨1, ![n]⟩ : Shape).BroadcastsInDim ⟨2, ![1, n]⟩ ![1])
    (v : (⟨1, ![n]⟩ : Shape).Idx → α) (u : Fin 1) (c : Fin n) :
    broadcastInDim ⟨2, ![1, n]⟩ ![1] h v (ix2 u c) = v (ix1 c) := by
  refine broadcastInDim_apply ![1] h v (ix2 u c) (ix1 c) fun a => ?_
  match a with
  | ⟨0, _⟩ =>
    show c.val = if n = 1 then 0 else c.val
    split
    · have := c.isLt; omega
    · rfl

/-- A length-n vector broadcast to 1×n and then down m rows reads, at (r, c), the vector at c. -/
theorem row_down_rows_apply {m n : ℕ} (h1 : (⟨1, ![n]⟩ : Shape).BroadcastsInDim ⟨2, ![1, n]⟩ ![1])
    (h2 : (⟨2, ![1, n]⟩ : Shape).BroadcastsInDim ⟨2, ![m, n]⟩ ![0, 1])
    (v : (⟨1, ![n]⟩ : Shape).Idx → α) (r : Fin m) (c : Fin n) :
    broadcastInDim ⟨2, ![m, n]⟩ ![0, 1] h2 (broadcastInDim ⟨2, ![1, n]⟩ ![1] h1 v) (ix2 r c) = v (ix1 c) :=
  (broadcastInDim_oneRow_apply h2 _ r c).trans (vector_as_row_apply h1 v 0 c)

end Cert.Lib.HostRow
-- ==== Proof.Bridge.lean ====
/-
  The algebra joining the two programs.

  One propagation step is a matrix A acting on the rows: entry (n, c) of the result is the sum, over the entries e whose
  target is n, of the operand's entry (source(e), c) times the weight of e. The host's product of two matrices is, entry
  by entry, the plain sum over the contracted coordinate. On real entries the two commute,

      A · (X · W) = (A · X) · W,

  which is what turns the reference's "product, then propagate" into the kernel's "propagate, then product" in the first
  and the third layer. The second and the fourth layer are the same expression on both sides.
-/
import proofs.«155732_j35897336660442_2_alg».proof.Proof.Spec
import proofs.«155732_j35897336660442_2_alg».proof.Proof.LibRowScatter
import proofs.«155732_j35897336660442_2_alg».proof.Proof.LibEdgeGather
import proofs.«155732_j35897336660442_2_alg».proof.Proof.LibPlainDot
import proofs.«155732_j35897336660442_2_alg».proof.Proof.LibRealValued
import proofs.«155732_j35897336660442_2_alg».proof.Proof.LibSumLaw
import proofs.«155732_j35897336660442_2_alg».proof.Proof.LibHostRow
import Idealize.ShloMosaic.Lib.ValueLayout

noncomputable section

open scoped BigOperators

namespace Cert.Bridge

open Idealize.ShloMosaic Idealize.ShloMosaic.ValueIdx Cert.ReferenceIdeal Cert.ReferenceIdeal.Facts₀ Cert.Spec
open Cert.Lib Cert.RealValued

/-- An index into a matrix is a pair (row, column). -/
theorem idx2_cases {n0 n1 : ℕ} (i : (⟨2, ![n0, n1]⟩ : Shape).Idx) : ∃ (r : Fin n0) (c : Fin n1), i = ix2 r c :=
  ⟨i 0, i 1, eq_ix2 i⟩

/-! ## Reading one propagation step at an index -/

/-- A vector placed as a column, and the column repeated along C columns, reads at (e, c) the vector at e. -/
theorem column_across_apply {α : Type} {E C : ℕ}
    (h1 : (⟨1, ![E]⟩ : Shape).BroadcastsInDim ⟨2, ![E, 1]⟩ ![0])
    (h2 : (⟨2, ![E, 1]⟩ : Shape).BroadcastsInDim ⟨2, ![E, C]⟩ ![0, 1])
    (v : (⟨1, ![E]⟩ : Shape).Idx → α) (e : Fin E) (c : Fin C) :
    broadcastInDim ⟨2, ![E, C]⟩ ![0, 1] h2 (broadcastInDim ⟨2, ![E, 1]⟩ ![0] h1 v) (ix2 e c) = v (ix1 e) := by
  have a1 : broadcastInDim ⟨2, ![E, C]⟩ ![0, 1] h2 (broadcastInDim ⟨2, ![E, 1]⟩ ![0] h1 v) (ix2 e c)
      = broadcastInDim ⟨2, ![E, 1]⟩ ![0] h1 v (ix2 e (0 : Fin 1)) := by
    refine broadcastInDim_apply ![0, 1] h2 _ (ix2 e c) (ix2 e (0 : Fin 1)) fun a => ?_
    match a with
    | ⟨0, _⟩ =>
      show e.val = if E = 1 then 0 else e.val
      split
      · have := e.isLt; omega
      · rfl
    | ⟨1, _⟩ =>
      show (0 : ℕ) = if (1 : ℕ) = 1 then 0 else c.val
      rw [if_pos rfl]
  have a2 : broadcastInDim ⟨2, ![E, 1]⟩ ![0] h1 v (ix2 e (0 : Fin 1)) = v (ix1 e) := by
    refine broadcastInDim_apply ![0] h1 v (ix2 e (0 : Fin 1)) (ix1 e) fun a => ?_
    match a with
    | ⟨0, _⟩ =>
      show e.val = if E = 1 then 0 else e.val
      split
      · have := e.isLt; omega
      · rfl
  exact a1.trans a2

/-- The entries whose target is node n. -/
def into (ei : IVec S2x800000 32) (n : Fin 50000) : Finset (Fin 850000) :=
  Finset.univ.filter (fun e : Fin 850000 => RowScatter.dest (colIdx ei) e = (n.val : Int))

/-- The source node of entry e, as the lookup reads it. -/
def src (ei : IVec S2x800000 32) (e : Fin 850000) : Fin 50000 :=
  EdgeGather.pos 50000 (by decide) (wrapIdx (rowV ei) (ix2 e (0 : Fin 1)))

/-- One propagation step at any width C, read at (n, c): the sum over the entries into n of the operand's entry
    (source, c) times the entry's weight. The accumulator starts from the zero constant. -/
theorem propagate_apply {C : ℕ}
    (wfS : ScatterDims.WF ⟨2, ![50000, C]⟩ ⟨2, ![850000, 1]⟩ ⟨2, ![850000, C]⟩ [1] [0] [0] 1)
    (wfG : GatherDims.WF ⟨2, ![50000, C]⟩ ⟨2, ![850000, 1]⟩ ⟨2, ![850000, C]⟩ [1] [0] [] [0] [] 1 ![1, C])
    (h0 : S_.BroadcastsInDim ⟨2, ![50000, C]⟩ ![])
    (h1 : (⟨1, ![850000]⟩ : Shape).BroadcastsInDim ⟨2, ![850000, 1]⟩ ![0])
    (h2 : (⟨2, ![850000, 1]⟩ : Shape).BroadcastsInDim ⟨2, ![850000, C]⟩ ![0, 1])
    (tgtIdx srcIdx : IVec ⟨2, ![850000, 1]⟩ 32) (X : FVec Ideal ⟨2, ![50000, C]⟩ .f32)
    (nv : FVec Ideal ⟨1, ![850000]⟩ .f32) (n : Fin 50000) (c : Fin C) :
    Host.scatterAdd (RowScatter.rowsDims 50000 850000 C wfS)
        (broadcastInDim ⟨2, ![50000, C]⟩ ![] h0 (constant S_ .f32 0x00000000#32)) tgtIdx
        (mulf (Host.gather (EdgeGather.rowDims 50000 850000 C wfG) X srcIdx)
          (broadcastInDim ⟨2, ![850000, C]⟩ ![0, 1] h2 (broadcastInDim ⟨2, ![850000, 1]⟩ ![0] h1 nv))) (ix2 n c)
      = ∑ e ∈ Finset.univ.filter (fun e : Fin 850000 => RowScatter.dest tgtIdx e = (n.val : Int)),
          X (ix2 (EdgeGather.pos 50000 (by decide) (srcIdx (ix2 e (0 : Fin 1)))) c) * nv (ix1 e) := by
  rw [RowScatter.rows_apply]
  have hz : broadcastInDim ⟨2, ![50000, C]⟩ ![] h0 (constant (F := Ideal) S_ .f32 0x00000000#32) (ix2 n c) = 0 :=
    Ideal.ofBits_zero_f32
  rw [hz, zero_add]
  refine Finset.sum_congr rfl fun e _ => ?_
  rw [mulf_apply, EdgeGather.row_apply (by decide), column_across_apply]

/-- One propagation step at width 128, read at (n, c). -/
theorem agg128_apply (ei : IVec S2x800000 32) (X : FVec Ideal S50000x128 .f32) (n : Fin 50000) (c : Fin 128) :
    agg128 ei X (ix2 n c) = ∑ e ∈ into ei n, X (ix2 (src ei e) c) * normV ei (ix1 e) :=
  propagate_apply (C := 128) scatter_S50000x128_S850000x1_S850000x128_1_0_0_1_wf
    gather_S50000x128_S850000x1_S850000x128_1_0_n_n_0_1_1128_wf bcast_S_S50000x128 bcast_S850000_S850000x1_0
    bcast_S850000x1_S850000x128_0_1 (colIdx ei) (wrapIdx (rowV ei)) X (normV ei) n c

/-- One propagation step at width 256, read at (n, c). -/
theorem agg256_apply (ei : IVec S2x800000 32) (X : FVec Ideal S50000x256 .f32) (n : Fin 50000) (c : Fin 256) :
    agg256 ei X (ix2 n c) = ∑ e ∈ into ei n, X (ix2 (src ei e) c) * normV ei (ix1 e) :=
  propagate_apply (C := 256) scatter_S50000x256_S850000x1_S850000x256_1_0_0_1_wf
    gather_S50000x256_S850000x1_S850000x256_1_0_n_n_0_1_1256_wf bcast_S_S50000x256 bcast_S850000_S850000x1_0
    bcast_S850000x1_S850000x256_0_1 (colIdx ei) (wrapIdx (rowV ei)) X (normV ei) n c

/-! ## The host's product, entry by entry -/

/-- The 50000×128 by 128×256 product at (r, c): the sum over the 128 contracted coordinates. -/
theorem mmA_apply (X : FVec Ideal S50000x128 .f32) (W : FVec Ideal S128x256 .f32) (r : Fin 50000) (c : Fin 256) :
    mmA X W (ix2 r c) = ∑ k : Fin 128, X (ix2 r k) * W (ix2 k c) :=
  PlainDot.dotGeneral_apply (M := 50000) (K := 128) (N := 256) none .single X W r c

/-- The 50000×256 by 256×128 product at (r, c): the sum over the 256 contracted coordinates. -/
theorem mmB_apply (X : FVec Ideal S50000x256 .f32) (W : FVec Ideal S256x128 .f32) (r : Fin 50000) (c : Fin 128) :
    mmB X W (ix2 r c) = ∑ k : Fin 256, X (ix2 r k) * W (ix2 k c) :=
  PlainDot.dotGeneral_apply (M := 50000) (K := 256) (N := 128) none .single X W r c

/-- The host's 256-contraction product is the array of plain sums. -/
theorem mmB_eq_dense (X : FVec Ideal S50000x256 .f32) (W : FVec Ideal S256x128 .f32) : mmB X W = dense X W :=
  funext fun i => (congrArg (mmB X W) (eq_ix2 i)).trans (mmB_apply X W (i 0) (i 1))

/-! ## Bias, rectifier, and the fused stage at an index -/

theorem bias256_apply (X : FVec Ideal S50000x256 .f32) (b : FVec Ideal S256 .f32) (r : Fin 50000) (c : Fin 256) :
    bias256 X b (ix2 r c) = X (ix2 r c) + b (ix1 c) := by
  unfold bias256
  rw [addf_apply, HostRow.row_down_rows_apply]

theorem bias128_apply (X : FVec Ideal S50000x128 .f32) (b : FVec Ideal S128 .f32) (r : Fin 50000) (c : Fin 128) :
    bias128 X b (ix2 r c) = X (ix2 r c) + b (ix1 c) := by
  unfold bias128
  rw [addf_apply, HostRow.row_down_rows_apply]

theorem relu256_apply (X : FVec Ideal S50000x256 .f32) (i : S50000x256.Idx) :
    relu256 X i = max (X i) (Ideal.ofBits .f32 0x00000000#32) := rfl

theorem relu128_apply (X : FVec Ideal S50000x128 .f32) (i : S50000x128.Idx) :
    relu128 X i = max (X i) (Ideal.ofBits .f32 0x00000000#32) := rfl

theorem denseRelu_apply (X : FVec Ideal S50000x128 .f32) (W : FVec Ideal S128x256 .f32) (b : FVec Ideal S1x256 .f32)
    (r : Fin 50000) (c : Fin 256) :
    denseRelu X W b (ix2 r c)
      = max ((∑ k : Fin 128, X (ix2 r k) * W (ix2 k c)) + b (ix2 (0 : Fin 1) c)) (Ideal.ofBits .f32 0x00000000#32) := rfl

/-- The bias viewed as a 1×256 row reads, at (u, c), the bias at c. -/
theorem biasRow_apply (b : FVec Ideal S256 .f32) (u : Fin 1) (c : Fin 256) : biasRow b (ix2 u c) = b (ix1 c) :=
  shapeCast_a_1a_apply b _ u c

/-! ## The layer law: propagate-then-product is product-then-propagate -/

/-- The weight of entry e towards node n: its weight when its target is n, zero otherwise. -/
def wt (ei : IVec S2x800000 32) (n : Fin 50000) (e : Fin 850000) : EReal :=
  if RowScatter.dest (colIdx ei) e = (n.val : Int) then normV ei (ix1 e) else 0

theorem wt_real (ei : IVec S2x800000 32) (hN : AllReal (normV ei)) (n : Fin 50000) (e : Fin 850000) :
    ∃ r : ℝ, wt ei n e = (r : EReal) := by
  unfold wt
  by_cases h : RowScatter.dest (colIdx ei) e = (n.val : Int)
  · rw [if_pos h]; exact hN _
  · rw [if_neg h]; exact ⟨0, EReal.coe_zero.symm⟩

/-- A sum over the entries into n, each term weighted, is the sum over all entries with the indicator weight. -/
theorem sum_into (ei : IVec S2x800000 32) (n : Fin 50000) (f : Fin 850000 → EReal) :
    ∑ e ∈ into ei n, f e * normV ei (ix1 e) = ∑ e : Fin 850000, wt ei n e * f e := by
  unfold into
  rw [Finset.sum_filter]
  refine Finset.sum_congr rfl fun e _ => ?_
  unfold wt
  by_cases h : RowScatter.dest (colIdx ei) e = (n.val : Int)
  · rw [if_pos h, if_pos h]; exact mul_comm _ _
  · rw [if_neg h, if_neg h]; exact (zero_mul _).symm

/-- THE LAYER LAW, entry by entry: propagating the product X·W equals the product of the propagated X with W, when
    the weights, X and W are real. -/
theorem agg256_mmA (ei : IVec S2x800000 32) (X : FVec Ideal S50000x128 .f32) (W : FVec Ideal S128x256 .f32)
    (hN : AllReal (normV ei)) (hX : AllReal X) (hW : AllReal W) (n : Fin 50000) (c : Fin 256) :
    agg256 ei (mmA X W) (ix2 n c) = ∑ k : Fin 128, agg128 ei X (ix2 n k) * W (ix2 k c) :=
  calc agg256 ei (mmA X W) (ix2 n c)
      = ∑ e ∈ into ei n, mmA X W (ix2 (src ei e) c) * normV ei (ix1 e) := agg256_apply ei _ n c
    _ = ∑ e : Fin 850000, wt ei n e * mmA X W (ix2 (src ei e) c) := sum_into ei n _
    _ = ∑ e : Fin 850000, wt ei n e * ∑ k : Fin 128, X (ix2 (src ei e) k) * W (ix2 k c) :=
        Finset.sum_congr rfl fun e _ => congrArg (wt ei n e * ·) (mmA_apply X W (src ei e) c)
    _ = ∑ k : Fin 128, (∑ e : Fin 850000, wt ei n e * X (ix2 (src ei e) k)) * W (ix2 k c) :=
        (SumLaw.sum_mul_sum_assoc (K := 850000) (J := 128) (wt ei n) (fun e k => X (ix2 (src ei e) k))
          (fun k => W (ix2 k c)) (wt_real ei hN n) (fun e k => hX _) (fun k => hW _)).symm
    _ = ∑ k : Fin 128, agg128 ei X (ix2 n k) * W (ix2 k c) :=
        Finset.sum_congr rfl fun k _ => congrArg (· * W (ix2 k c))
          ((sum_into ei n (fun e => X (ix2 (src ei e) k))).symm.trans (agg128_apply ei X n k).symm)

/-- THE LAYER LAW, as arrays: the reference's "product, propagate, add the bias, rectify" is the fused stage applied
    to the propagated operand. -/
theorem layer_eq (ei : IVec S2x800000 32) (X : FVec Ideal S50000x128 .f32) (W : FVec Ideal S128x256 .f32)
    (b : FVec Ideal S256 .f32) (hN : AllReal (normV ei)) (hX : AllReal X) (hW : AllReal W) :
    relu256 (bias256 (agg256 ei (mmA X W)) b) = denseRelu (agg128 ei X) W (biasRow b) := by
  funext i
  obtain ⟨r, c, rfl⟩ := idx2_cases (n0 := 50000) (n1 := 256) i
  rw [relu256_apply, bias256_apply, agg256_mmA ei X W hN hX hW, denseRelu_apply, biasRow_apply]

/-! ## Real entries are carried through every stage -/

theorem isReal_zeroBits : IsReal (Ideal.ofBits .f32 0x00000000#32) := by
  rw [Ideal.ofBits_zero_f32]; exact IsReal.zero

theorem allReal_agg128 (ei : IVec S2x800000 32) (X : FVec Ideal S50000x128 .f32)
    (hN : AllReal (normV ei)) (hX : AllReal X) : AllReal (agg128 ei X) := by
  intro i
  obtain ⟨r, c, rfl⟩ := idx2_cases (n0 := 50000) (n1 := 128) i
  rw [agg128_apply]
  exact IsReal.sum _ _ fun e _ => IsReal.mul (hX _) (hN _)

theorem allReal_dense (X : FVec Ideal S50000x256 .f32) (W : FVec Ideal S256x128 .f32)
    (hX : AllReal X) (hW : AllReal W) : AllReal (dense X W) := fun i =>
  IsReal.sum _ _ fun k _ => IsReal.mul (hX _) (hW _)

theorem allReal_biasRow (b : FVec Ideal S256 .f32) (hb : AllReal b) : AllReal (biasRow b) := by
  intro i
  obtain ⟨u, c, rfl⟩ := idx2_cases (n0 := 1) (n1 := 256) i
  rw [biasRow_apply]
  exact hb _

theorem allReal_denseRelu (X : FVec Ideal S50000x128 .f32) (W : FVec Ideal S128x256 .f32) (b : FVec Ideal S1x256 .f32)
    (hX : AllReal X) (hW : AllReal W) (hb : AllReal b) : AllReal (denseRelu X W b) := fun i =>
  IsReal.max (IsReal.add (IsReal.sum _ _ fun k _ => IsReal.mul (hX _) (hW _)) (hb _)) isReal_zeroBits

theorem allReal_bias128 (X : FVec Ideal S50000x128 .f32) (b : FVec Ideal S128 .f32)
    (hX : AllReal X) (hb : AllReal b) : AllReal (bias128 X b) := by
  intro i
  obtain ⟨r, c, rfl⟩ := idx2_cases (n0 := 50000) (n1 := 128) i
  rw [bias128_apply]
  exact IsReal.add (hX _) (hb _)

theorem allReal_relu128 (X : FVec Ideal S50000x128 .f32) (hX : AllReal X) : AllReal (relu128 X) := by
  intro i
  rw [relu128_apply]
  exact IsReal.max (hX i) isReal_zeroBits

/-! ## The two programs agree -/

/-- On real weights, features, matrices and biases the kernel's composition equals the reference's. -/
theorem kerOut_eq_refOut (x : FVec Ideal S50000x64 .f32) (ei : IVec S2x800000 32) (ea : FVec Ideal S800000x64 .f32)
    (W1 : FVec Ideal S128x256 .f32) (b1 : FVec Ideal S256 .f32) (W2 : FVec Ideal S256x128 .f32) (b2 : FVec Ideal S128 .f32)
    (Wd1 : FVec Ideal S128x256 .f32) (bd1 : FVec Ideal S256 .f32) (Wd2 : FVec Ideal S256x128 .f32) (bd2 : FVec Ideal S128 .f32)
    (hN : AllReal (normV ei)) (hh : AllReal (h0V x ei ea))
    (hW1 : AllReal W1) (hb1 : AllReal b1) (hW2 : AllReal W2) (hb2 : AllReal b2)
    (hWd1 : AllReal Wd1) (hbd1 : AllReal bd1) (hWd2 : AllReal Wd2) (hbd2 : AllReal bd2) :
    kerOut x ei ea W1 b1 W2 b2 Wd1 bd1 Wd2 bd2 = refOut x ei ea W1 b1 W2 b2 Wd1 bd1 Wd2 bd2 := by
  have L1 : relu256 (bias256 (agg256 ei (mmA (h0V x ei ea) W1)) b1)
      = denseRelu (agg128 ei (h0V x ei ea)) W1 (biasRow b1) := layer_eq ei _ W1 b1 hN hh hW1
  have R3 : AllReal (relu128 (bias128 (agg128 ei (dense (denseRelu (agg128 ei (h0V x ei ea)) W1 (biasRow b1)) W2)) b2)) :=
    allReal_relu128 _ (allReal_bias128 _ _ (allReal_agg128 ei _ hN (allReal_dense _ _
      (allReal_denseRelu _ _ _ (allReal_agg128 ei _ hN hh) hW1 (allReal_biasRow _ hb1)) hW2)) hb2)
  have L3 := layer_eq ei _ Wd1 bd1 hN R3 hWd1
  unfold kerOut refOut
  rw [L1, mmB_eq_dense, mmB_eq_dense, L3]

end Cert.Bridge

end
-- ==== Proof.lean ====
/-
  The certificate: both programs compute the same four graph-convolution layers.

  The three frame claims are the generated frames of the two kernel programs and, for the reference, its run with the
  result dropped. The idealization rewrote nothing, so the preservation claim is trivial. For the value claim the
  kernel's run leaves `Spec.kerOut` of the arguments in its result buffer and the reference's run leaves `Spec.refOut`;
  under the precondition every float argument is real, the edge weights and the node features are then real, and on real
  data the two compositions agree because propagating and then multiplying by the weights is multiplying and then
  propagating.
-/
import proofs.«155732_j35897336660442_2_alg».proof.Defs
import proofs.«155732_j35897336660442_2_alg».proof.Proof.Gen.Kernel
import proofs.«155732_j35897336660442_2_alg».proof.Proof.Gen.Kernel.Frame
import proofs.«155732_j35897336660442_2_alg».proof.Proof.Gen.KernelIdeal
import proofs.«155732_j35897336660442_2_alg».proof.Proof.Gen.KernelIdeal.Frame
import proofs.«155732_j35897336660442_2_alg».proof.Proof.Gen.ReferenceIdeal
import proofs.«155732_j35897336660442_2_alg».proof.Proof.Gen.Pre_finite_inputs
import proofs.«155732_j35897336660442_2_alg».proof.Proof.RefRun
import proofs.«155732_j35897336660442_2_alg».proof.Proof.RefValue
import proofs.«155732_j35897336660442_2_alg».proof.Proof.KerRun
import proofs.«155732_j35897336660442_2_alg».proof.Proof.KerValue
import proofs.«155732_j35897336660442_2_alg».proof.Proof.Finite
import proofs.«155732_j35897336660442_2_alg».proof.Proof.RealStages
import proofs.«155732_j35897336660442_2_alg».proof.Proof.Bridge
import Idealize.ShloMosaic.Adequacy
import Idealize.ShloMosaic.Init

set_option maxRecDepth 16384

noncomputable section

namespace Cert.Proof

open Idealize.ShloMosaic Idealize.SL.Sem

/-- The value claim: from memories agreeing on the arguments both runs end with `Spec.kerOut` of the arguments. -/
theorem algebraic : @Cert.algebraic_KernelIdeal_ReferenceIdeal Cert.KernelIdeal.Gen.facts Cert.ReferenceIdeal.Gen.facts Cert.Pre_finite_inputs.Gen.facts :=
  fun m ρ m' ρ' hpre hagree =>
    ⟨fun c => Cert.Spec.kerOut (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)),
     (θ_run (Cert.KernelIdeal.defs (F := Ideal)) _ _).mono
       (fun r h c => ⟨(h c).1.trans (Cert.KerValue.result m ρ c), (h c).2⟩)
       (Cert.KerRun.run_value (F := Ideal) m ρ),
     (θ_run (Cert.ReferenceIdeal.defs (F := Ideal)) _ _).mono
       (fun r h c => ⟨by
          obtain ⟨r0, r2, r3, r4, r5, r6, r7, r8, r9, r10⟩ := Cert.Finite.real_args m hpre c
          obtain ⟨e0, e1, e2, e3, e4, e5, e6, e7, e8, e9, e10⟩ := hagree c
          rw [(h c).1, Cert.RefValue.res_eq, e0, e1, e2, e3, e4, e5, e6, e7, e8, e9, e10]
          exact (Cert.Bridge.kerOut_eq_refOut _ _ _ _ _ _ _ _ _ _ _ (Cert.RealStages.normV_real _)
            (Cert.RealStages.h0V_real _ _ _ r0 r2) r3 r4 r5 r6 r7 r8 r9 r10).symm,
          (h c).2⟩)
       (Cert.ReferenceIdeal.ValueP.run (F := Ideal) m' ρ')⟩

theorem claim : Cert.Claim :=
  ⟨Cert.Kernel.Gen.facts, Cert.KernelIdeal.Gen.facts, Cert.ReferenceIdeal.Gen.facts, Cert.Pre_finite_inputs.Gen.facts,
   fun m ρ _ => Cert.Kernel.Gen.frame m ρ,
   fun m ρ _ => Cert.KernelIdeal.Gen.frame m ρ,
   fun m ρ _ => (θ_run (Cert.ReferenceIdeal.defs (F := Ideal)) _ _).mono (fun _ h c => (h c).2) (Cert.ReferenceIdeal.ValueP.run (F := Ideal) m ρ),
   trivial,
   algebraic⟩

end Cert.Proof

end
